-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x1024 : Shape := ⟨2, ![8192, 1024]⟩
abbrev S2048x2048 : Shape := ⟨2, ![2048, 2048]⟩
abbrev S1024x2048 : Shape := ⟨2, ![1024, 2048]⟩
abbrev S1024x1024 : Shape := ⟨2, ![1024, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x2048 .f32) (main_arg5 : FVec F S1024x1024 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S8192x2048 .f32) (main_arg1 : FVec F S8192x1024 .f32) (main_arg2 : FVec F S8192x1024 .f32) (main_arg3 : FVec F S2048x2048 .f32) (main_arg4 : FVec F S1024x2048 .f32) (main_arg5 : FVec F S1024x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_v13 main_v16
-- ==== Kernel.lean ====
abbrev S8192x2048 : Shape := ⟨2, ![8192, 2048]⟩
abbrev S8192x1024 : Shape := ⟨2, ![8192, 1024]⟩
abbrev S2048x2048 : Shape := ⟨2, ![2048, 2048]⟩
abbrev S1024x2048 : Shape := ⟨2, ![1024, 2048]⟩
abbrev S1024x1024 : Shape := ⟨2, ![1024, 1024]⟩
abbrev S256x2048 : Shape := ⟨2, ![256, 2048]⟩
abbrev S256x1024 : Shape := ⟨2, ![256, 1024]⟩
abbrev S2048x1024 : Shape := ⟨2, ![2048, 1024]⟩
abbrev S256 : Shape := ⟨1, ![256]⟩
abbrev S256x1 : Shape := ⟨2, ![256, 1]⟩
abbrev S2048x512 : Shape := ⟨2, ![2048, 512]⟩
abbrev S512x1024 : Shape := ⟨2, ![512, 1024]⟩
abbrev S512x2048 : Shape := ⟨2, ![512, 2048]⟩
abbrev S512x512 : Shape := ⟨2, ![512, 512]⟩

abbrev nBuf : Space → Nat
  | .hbm => 18
  | .vmem => 33
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S2048x2048, .f32⟩
  | .hbm, ⟨4, _⟩ => ⟨S1024x2048, .f32⟩
  | .hbm, ⟨5, _⟩ => ⟨S1024x1024, .f32⟩
  | .hbm, ⟨6, _⟩ => ⟨S1024x2048, .bf16⟩
  | .hbm, ⟨7, _⟩ => ⟨S1024x1024, .bf16⟩
  | .hbm, ⟨8, _⟩ => ⟨S2048x2048, .bf16⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x2048, .bf16⟩
  | .hbm, ⟨13, _⟩ => ⟨S8192x2048, .bf16⟩
  | .hbm, ⟨14, _⟩ => ⟨S1024x2048, .f32⟩
  | .hbm, ⟨15, _⟩ => ⟨S2048x2048, .f32⟩
  | .hbm, ⟨16, _⟩ => ⟨S1024x2048, .f32⟩
  | .hbm, ⟨17, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x2048, .bf16⟩
  | .local _ .vmem, ⟨7, _⟩ => ⟨S1024x1024, .bf16⟩
  | .local _ .vmem, ⟨8, _⟩ => ⟨S2048x2048, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S2048x512, .f32⟩
  | .local _ .vmem, ⟨20, _⟩ => ⟨S2048x512, .f32⟩
  | .local _ .vmem, ⟨21, _⟩ => ⟨S2048x1024, .bf16⟩
  | .local _ .vmem, ⟨22, _⟩ => ⟨S2048x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S2048x512, .bf16⟩
  | .local _ .vmem, ⟨27, _⟩ => ⟨S2048x512, .bf16⟩
  | .local _ .vmem, ⟨28, _⟩ => ⟨S2048x512, .bf16⟩
  | .local _ .vmem, ⟨29, _⟩ => ⟨S2048x512, .bf16⟩
  | .local _ .vmem, ⟨30, _⟩ => ⟨S512x512, .f32⟩
  | .local _ .vmem, ⟨31, _⟩ => ⟨S512x512, .f32⟩
  | .local _ .vmem, ⟨32, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨3, ![2, 2, 4], ![false, false, false]⟩

def k1_cond2 (i : grid1.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S256x1024_S256x1024_0_0 : ∀ a, (![0, 0] : Fin 2 → Nat) a + S256x1024.size a ≤ S256x1024.size a
  h_S256x1024 : 0 < S256x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  transposes_S1024x2048_p1_0_S2048x1024 : S1024x2048.Transposes [1, 0] S2048x1024
  transposes_S1024x1024_p1_0_S1024x1024 : S1024x1024.Transposes [1, 0] S1024x1024
  transposes_S2048x2048_p1_0_S2048x2048 : S2048x2048.Transposes [1, 0] S2048x2048
  reduces_S256x2048_S256 : S256x2048.Reduces [1] S256
  shapeCasts_S256_S256x1 : S256.ShapeCasts S256x1
  broadcasts_S256x1_S256x2048 : S256x1.Broadcasts S256x2048
  packedbf16_S256x2048_S256x2048_0_0 : (Rect.unit (s := S256x2048) ![0, 0] S256x2048.size inb_S256x2048_S256x2048_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  transposes_S2048x512_p1_0_S512x2048 : S2048x512.Transposes [1, 0] S512x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  dot_S256x2048_S2048x2048_S256x2048_1_0_0_1_n_n_wf : DotDims.WF S256x2048 S2048x2048 S256x2048 [1] [0] [0] [1] [] []
  dot_S512x2048_S2048x1024_S512x1024_1_0_0_1_n_n_wf : DotDims.WF S512x2048 S2048x1024 S512x1024 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S8192x2048.size a
  hwx0_9 : ∀ i : grid0.Coords, EltTy.bits .bf16 = 32 ∨ (Rect.block (s := S8192x2048) S256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S8192x2048.size a
  hwx0_10 : ∀ i : grid0.Coords, EltTy.bits .bf16 = 32 ∨ (Rect.block (s := S8192x2048) S256x2048.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x1024.size a
  hwx1_0 : ∀ i : grid1.Coords, EltTy.bits .f32 = 32 ∨ (Rect.block (s := S8192x1024) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S8192x2048.size a
  hwx1_1 : ∀ i : grid1.Coords, EltTy.bits .bf16 = 32 ∨ (Rect.block (s := S8192x2048) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S1024x2048.size a
  hwx1_2 : ∀ i : grid1.Coords, EltTy.bits .f32 = 32 ∨ (Rect.block (s := S1024x2048) S512x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x2048.size a
  hwx2_0 : ∀ i : grid2.Coords, EltTy.bits .bf16 = 32 ∨ (Rect.block (s := S8192x2048) S2048x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S8192x2048.size a
  hwx2_1 : ∀ i : grid2.Coords, EltTy.bits .bf16 = 32 ∨ (Rect.block (s := S8192x2048) S2048x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S2048x2048.size a
  hwx2_2 : ∀ i : grid2.Coords, EltTy.bits .f32 = 32 ∨ (Rect.block (s := S2048x2048) S512x512.size (cc2_transform_2 i) (hinb2_2 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_2) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_3) S256x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_4) S256x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v3_0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_3) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v3_3) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_4) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8192x1024 : Shape := ⟨2, ![8192, 1024]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩

abbrev nBuf : Space → Nat
  | .hbm => 82
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S2048x2048, .f32⟩
  | .hbm, ⟨4, _⟩ => ⟨S1024x2048, .f32⟩
  | .hbm, ⟨5, _⟩ => ⟨S1024x1024, .f32⟩
  | .hbm, ⟨6, _⟩ => ⟨S2048x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S1024x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S2048x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S1024x2048, .f32⟩
  | .hbm, ⟨32, _⟩ => ⟨S1024x2048, .f32⟩
  | .hbm, ⟨33, _⟩ => ⟨S2048x8192, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .i1⟩
  | .hbm, ⟨52, _⟩ => ⟨S_, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192x1024, .f32⟩
  | .hbm, ⟨80, _⟩ => ⟨S8192x1024, .f32⟩
  | .hbm, ⟨81, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_call0_v0 : Ref sig .tc := ⟨.hbm, 53, rfl⟩
abbrev main_call0_v1 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_call1_v0 : Ref sig .tc := ⟨.hbm, 66, rfl⟩
abbrev main_call1_v1 : Ref sig .tc := ⟨.hbm, 67, rfl⟩
abbrev main_v45 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_14 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]

class Facts₀ : Prop where
  transposes_S1024x2048_S2048x1024_1_0 : S1024x2048.Transposes [1, 0] S2048x1024
  bcast_S_S8192x1024 : S_.BroadcastsInDim S8192x1024 (![] : Fin 0 → Fin S8192x1024.rank)
  transposes_S1024x1024_S1024x1024_1_0 : S1024x1024.Transposes [1, 0] S1024x1024
  transposes_S2048x2048_S2048x2048_1_0 : S2048x2048.Transposes [1, 0] S2048x2048
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S2048x1024 : S_.BroadcastsInDim S2048x1024 (![] : Fin 0 → Fin S2048x1024.rank)
  transposes_S2048x1024_S1024x2048_1_0 : S2048x1024.Transposes [1, 0] S1024x2048
  transposes_S8192x2048_S2048x8192_1_0 : S8192x2048.Transposes [1, 0] S2048x8192
  bcast_S_S2048x2048 : S_.BroadcastsInDim S2048x2048 (![] : Fin 0 → Fin S2048x2048.rank)
  dot_S8192x2048_S2048x1024_S8192x1024_1_0_0_1_n_n_wf : DotDims.WF S8192x2048 S2048x1024 S8192x1024 [1] [0] [0] [1] [] []
  dot_S8192x1024_S1024x1024_S8192x1024_1_0_0_1_n_n_wf : DotDims.WF S8192x1024 S1024x1024 S8192x1024 [1] [0] [0] [1] [] []
  dot_S8192x2048_S2048x2048_S8192x2048_1_0_0_1_n_n_wf : DotDims.WF S8192x2048 S2048x2048 S8192x2048 [1] [0] [0] [1] [] []
  dot_S8192x2048_S8192x1024_S2048x1024_0_0_1_1_n_n_wf : DotDims.WF S8192x2048 S8192x1024 S2048x1024 [0] [0] [1] [1] [] []
  dot_S2048x8192_S8192x2048_S2048x2048_1_0_0_1_n_n_wf : DotDims.WF S2048x8192 S8192x2048 S2048x2048 [1] [0] [0] [1] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S8192x1024_S2048x1024_0_0_1_1_n_n : DotDims S8192x2048 S8192x1024 S2048x1024 where
  lhsContracting := [0]
  rhsContracting := [0]
  lhsNonContracting := [1]
  rhsNonContracting := [1]
  lhsBatch := []
  rhsBatch := []
  wf := dot_S8192x2048_S8192x1024_S2048x1024_0_0_1_1_n_n_wf
def dot_S2048x8192_S8192x2048_S2048x2048_1_0_0_1_n_n : DotDims S2048x8192 S8192x2048 S2048x2048 where
  lhsContracting := [1]
  rhsContracting := [0]
  lhsNonContracting := [0]
  rhsNonContracting := [1]
  lhsBatch := []
  rhsBatch := []
  wf := dot_S2048x8192_S8192x2048_S2048x2048_1_0_0_1_n_n_wf

class Facts : Prop extends Facts₀ where

variable [Facts]
-- ==== Proof.BitsRegion0.lean ====
import proofs.«180393_j10222022164698_1_alg».proof.Proof.Gen.Kernel.Launch
import proofs.«180393_j10222022164698_1_alg».proof.Proof.Gen.Kernel.Skeleton
import proofs.«180393_j10222022164698_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-!
# The first grid region, at the contents it is entered with

The region walks the 32 row blocks of the activations. At row block `t` its body reads the block of
each of the three row-blocked inputs and the whole of each of the three weight matrices, and writes one
block of each of its five results: the prediction error, the gain, the updated state and the two
normalised projections. This module states what every staging buffer holds before and after the body at
a point, as a closed function of the arrays the region is entered with, and proves that the body meets
that description.
-/

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at row block `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' row block): its current staging buffer holds its block at every point, whether or not
    a fetch happened there — where none did, the block index is the one of the point before, and the body left
    that block in place. For any proof data over the region's arrays whose body keeps this input. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- Input window 1 (the state's row block): its current staging buffer holds its block at every point, whether or not
    a fetch happened there — where none did, the block index is the one of the point before, and the body left
    that block in place. For any proof data over the region's arrays whose body keeps this input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-- Input window 2 (the target's row block): its current staging buffer holds its block at every point, whether or not
    a fetch happened there — where none did, the block index is the one of the point before, and the body left
    that block in place. For any proof data over the region's arrays whose body keeps this input. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-- Input window 3 (the first weight matrix, whole): its current staging buffer holds its block at every point, whether or not
    a fetch happened there — where none did, the block index is the one of the point before, and the body left
    that block in place. For any proof data over the region's arrays whose body keeps this input. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

/-- Input window 4 (the second weight matrix, whole): its current staging buffer holds its block at every point, whether or not
    a fetch happened there — where none did, the block index is the one of the point before, and the body left
    that block in place. For any proof data over the region's arrays whose body keeps this input. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

/-- Input window 5 (the projection matrix, whole): its current staging buffer holds its block at every point, whether or not
    a fetch happened there — where none did, the block index is the one of the point before, and the body left
    that block in place. For any proof data over the region's arrays whose body keeps this input. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl)
      (fun t => by rw [hafter]; unfold Dat.blockOf iblk0; rw [hA]; try rfl) t d).trans
    (by unfold Dat.fetched Dat.blockOf iblk0; rw [hA]; try rfl)

/-! ## The rectangles the body reads and writes through: each the whole of its buffer -/

abbrev rX : Rect S256x2048 := Rect.unit (s := S256x2048) ![0, 0] S256x2048.size inb_S256x2048_S256x2048_0_0
abbrev rS : Rect S256x1024 := Rect.unit (s := S256x1024) ![0, 0] S256x1024.size inb_S256x1024_S256x1024_0_0
abbrev rWin : Rect S1024x2048 := Rect.unit (s := S1024x2048) ![0, 0] S1024x2048.size inb_S1024x2048_S1024x2048_0_0
abbrev rWr : Rect S1024x1024 := Rect.unit (s := S1024x1024) ![0, 0] S1024x1024.size inb_S1024x1024_S1024x1024_0_0
abbrev rP : Rect S2048x2048 := Rect.unit (s := S2048x2048) ![0, 0] S2048x2048.size inb_S2048x2048_S2048x2048_0_0

/-- The offsets of all of them are zero. -/
theorem off_zero : (![0, 0] : Fin 2 → Nat) = fun _ => 0 := by
  funext a; fin_cases a <;> rfl

/-! ## What the body leaves in each output buffer

Each output is written once, through the whole-buffer rectangle, with a value computed from what the body
loaded of the six inputs (each through its whole-buffer rectangle). -/

/-- The prediction error `x̂ - y`, where `x̂` is the sum of the two projected products. -/
def out0_6 (x0 : Vec F S256x2048 .f32) (x1 x2 : Vec F S256x1024 .f32) (x3 : Vec F S1024x2048 .bf16) (x4 : Vec F S1024x1024 .bf16) : Vec F S256x1024 .f32 :=
  View.canon [⟨rS, k0_pay7 (View.ld x0 rX) (View.ld x1 rS) (View.ld x2 rS) (View.ld x3 rWin) (View.ld x4 rWr)⟩]

/-- The gain, from the scaled drive and the mask of its small entries. -/
def out0_7 (x0 : Vec F S256x2048 .f32) (x1 : Vec F S256x1024 .f32) (x3 : Vec F S1024x2048 .bf16) (x4 : Vec F S1024x1024 .bf16) : Vec F S256x1024 .f32 :=
  View.canon [⟨rS, k0_pay1 (k0_pay10 (View.ld x0 rX) (View.ld x1 rS) (View.ld x3 rWin) (View.ld x4 rWr))
    (k0_pay11 (View.ld x0 rX) (View.ld x1 rS) (View.ld x3 rWin) (View.ld x4 rWr))⟩]

/-- The updated state: the state plus its rate of change. -/
def out0_8 (x0 : Vec F S256x2048 .f32) (x1 : Vec F S256x1024 .f32) (x3 : Vec F S1024x2048 .bf16) (x4 : Vec F S1024x1024 .bf16) : Vec F S256x1024 .f32 :=
  View.canon [⟨rS, k0_pay2 (View.ld x1 rS) (k0_pay10 (View.ld x0 rX) (View.ld x1 rS) (View.ld x3 rWin) (View.ld x4 rWr))
    (k0_pay11 (View.ld x0 rX) (View.ld x1 rS) (View.ld x3 rWin) (View.ld x4 rWr))⟩]

/-- The projected activations divided by their normaliser, rounded to the short format. -/
def out0_9 (x0 : Vec F S256x2048 .f32) (x5 : Vec F S2048x2048 .bf16) : Vec F S256x2048 .bf16 :=
  View.canon [⟨rX, k0_pay3 (k0_pay9 (View.ld x0 rX) (View.ld x5 rP))⟩]

/-- The projected activations themselves, rounded to the short format. -/
def out0_10 (x0 : Vec F S256x2048 .f32) (x5 : Vec F S2048x2048 .bf16) : Vec F S256x2048 .bf16 :=
  View.canon [⟨rX, k0_pay4 (k0_pay8 (View.ld x0 rX) (View.ld x5 rP))⟩]

/-- One whole-buffer store covers the buffer. -/
theorem coverS {e : EltTy} (p : S256x1024.Idx → Elt F e) (y : S256x1024.Idx) :
    ∃ pc ∈ ([⟨rS, p⟩] : List (View.Piece (Elt F) S256x1024 e)), y ∈ pc.1.set :=
  ⟨_, List.mem_singleton_self _, View.mem_set_unit_zero off_zero inb_S256x1024_S256x1024_0_0 y⟩

theorem coverX {e : EltTy} (p : S256x2048.Idx → Elt F e) (y : S256x2048.Idx) :
    ∃ pc ∈ ([⟨rX, p⟩] : List (View.Piece (Elt F) S256x2048 e)), y ∈ pc.1.set :=
  ⟨_, List.mem_singleton_self _, View.mem_set_unit_zero off_zero inb_S256x2048_S256x2048_0_0 y⟩

/-! ## The body's triple -/

set_option maxHeartbeats 4000000 in
/-- The body, called on whole staging buffers — the six inputs' holding `x0 … x5`, the five outputs' anything —,
    runs to a state where the inputs' buffers are as they were and each output's holds its `out0_w` of the
    inputs: it loads the six inputs, computes, and for each output loads the buffer (the value goes nowhere) and
    then overwrites all of it. -/
theorem sound_kernel0 (c : Dev nD) (E : Set ℕ) (i : grid0.Coords) (arg1 : Memref sig .tc .vmem S256x2048 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S2048x2048 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x2048 .bf16) (harg10 : arg10.IsWhole) (arg11 : Memref sig .tc .vmem S256x2048 .bf16) (harg11 : arg11.IsWhole)
    (x0 : Vec F S256x2048 .f32) (x1 : Vec F S256x1024 .f32) (x2 : Vec F S256x1024 .f32) (x3 : Vec F S1024x2048 .bf16) (x4 : Vec F S1024x1024 .bf16) (x5 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4) ∗ owns (c : Thread nD τ) arg8 fullShare (out0_7 x0 x1 x3 x4) ∗ owns (c : Thread nD τ) arg9 fullShare (out0_8 x0 x1 x3 x4) ∗ owns (c : Thread nD τ) arg10 fullShare (out0_9 x0 x5) ∗ owns (c : Thread nD τ) arg11 fullShare (out0_10 x0 x5)) -∗ K ⟨⟩))
      ⊢ wp frame (wpE (defs₀ (F := F)) Variants.none c none) E (cc0__kernel_a i arg1 harg1 arg2 harg2 arg3 harg3 arg4 harg4 arg5 harg5 arg6 harg6 arg7 harg7 arg8 harg8 arg9 harg9 arg10 harg10 arg11 harg11) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverS _)
  isplitl [H7]
  · iexists _; isplitr
    swap; · iexact H7
    ipureintro
    exact View.read_writes_eq_canon _ _ _ (coverS _)
  isplitl [H8]
  · iexists _; isplitr
    swap; · iexact H8
    ipureintro
    exact View.read_writes_eq_canon _ _ _ (coverS _)
  isplitl [H9]
  · iexists _; isplitr
    swap; · iexact H9
    ipureintro
    exact View.read_writes_eq_canon _ _ _ (coverX _)
  iexists _; isplitr
  swap; · iexact H10
  ipureintro
  exact View.read_writes_eq_canon _ _ _ (coverX _)

/-! ## The region's proof data -/

/-- The proof data of the region on core `c`: the arrays as the region finds them; after the body at point `t`
    each input's buffer still at its block and each output's at its `out0_w` of the input blocks; as invariant
    the buffers and the generator register the region does not touch; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 3 t) (iblk0 V c 4 t)
    | ⟨8, _⟩ => out0_8 (iblk0 V c 0 t) (iblk0 V c 1 t) (iblk0 V c 3 t) (iblk0 V c 4 t)
    | ⟨9, _⟩ => out0_9 (iblk0 V c 0 t) (iblk0 V c 5 t)
    | ⟨10, _⟩ => out0_10 (iblk0 V c 0 t) (iblk0 V c 5 t)
  Φ _ := Pipeline.ΦA spec0 c
  q _ := fullShare
  owed _ := 0

/-- Its arrays are the contents the region is entered with. -/
theorem A_eq0 (c : Dev nD) (w : Fin cfg0.W) : (dat0 V c).A w = V c (Pipeline.arrRef spec0 w) := by
  dsimp only [dat0]

/-- What the body leaves in the inputs' buffers: their blocks. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

/-- What the body leaves in the outputs' buffers, as the single whole-buffer store of each. -/
theorem after0_6_store (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7_store (c : Dev nD) (t : Fin cfg0.N) : (dat0 V c).after 7 t = out0_7 (iblk0 V c 0 t) (iblk0 V c 1 t) (iblk0 V c 3 t) (iblk0 V c 4 t) := by dsimp only [dat0]
theorem after0_8_store (c : Dev nD) (t : Fin cfg0.N) : (dat0 V c).after 8 t = out0_8 (iblk0 V c 0 t) (iblk0 V c 1 t) (iblk0 V c 3 t) (iblk0 V c 4 t) := by dsimp only [dat0]
theorem after0_9_store (c : Dev nD) (t : Fin cfg0.N) : (dat0 V c).after 9 t = out0_9 (iblk0 V c 0 t) (iblk0 V c 5 t) := by dsimp only [dat0]
theorem after0_10_store (c : Dev nD) (t : Fin cfg0.N) : (dat0 V c).after 10 t = out0_10 (iblk0 V c 0 t) (iblk0 V c 5 t) := by dsimp only [dat0]

/-- The same as values: a whole-buffer store leaves its payload, and a whole-buffer load reads the contents, so
    each output block is the body's arithmetic applied to the input blocks. -/
theorem after0_6 (c : Dev nD) (t : Fin cfg0.N) : (dat0 V c).after 6 t = k0_pay7 (iblk0 V c 0 t) (iblk0 V c 1 t) (iblk0 V c 2 t) (iblk0 V c 3 t) (iblk0 V c 4 t) := by
  rw [after0_6_store]; unfold out0_6
  rw [View.canon_unit_zero off_zero]
  simp only [View.ld_unit_zero (S := S256x2048) off_zero, View.ld_unit_zero (S := S256x1024) off_zero,
    View.ld_unit_zero (S := S1024x2048) off_zero, View.ld_unit_zero (S := S1024x1024) off_zero]
theorem after0_7 (c : Dev nD) (t : Fin cfg0.N) : (dat0 V c).after 7 t = k0_pay1 (k0_pay10 (iblk0 V c 0 t) (iblk0 V c 1 t) (iblk0 V c 3 t) (iblk0 V c 4 t)) (k0_pay11 (iblk0 V c 0 t) (iblk0 V c 1 t) (iblk0 V c 3 t) (iblk0 V c 4 t)) := by
  rw [after0_7_store]; unfold out0_7
  rw [View.canon_unit_zero off_zero]
  simp only [View.ld_unit_zero (S := S256x2048) off_zero, View.ld_unit_zero (S := S256x1024) off_zero,
    View.ld_unit_zero (S := S1024x2048) off_zero, View.ld_unit_zero (S := S1024x1024) off_zero]
theorem after0_8 (c : Dev nD) (t : Fin cfg0.N) : (dat0 V c).after 8 t = k0_pay2 (iblk0 V c 1 t) (k0_pay10 (iblk0 V c 0 t) (iblk0 V c 1 t) (iblk0 V c 3 t) (iblk0 V c 4 t)) (k0_pay11 (iblk0 V c 0 t) (iblk0 V c 1 t) (iblk0 V c 3 t) (iblk0 V c 4 t)) := by
  rw [after0_8_store]; unfold out0_8
  rw [View.canon_unit_zero off_zero]
  simp only [View.ld_unit_zero (S := S256x2048) off_zero, View.ld_unit_zero (S := S256x1024) off_zero,
    View.ld_unit_zero (S := S1024x2048) off_zero, View.ld_unit_zero (S := S1024x1024) off_zero]
theorem after0_9 (c : Dev nD) (t : Fin cfg0.N) : (dat0 V c).after 9 t = k0_pay3 (k0_pay9 (iblk0 V c 0 t) (iblk0 V c 5 t)) := by
  rw [after0_9_store]; unfold out0_9
  rw [View.canon_unit_zero off_zero]
  simp only [View.ld_unit_zero (S := S256x2048) off_zero, View.ld_unit_zero (S := S2048x2048) off_zero]
theorem after0_10 (c : Dev nD) (t : Fin cfg0.N) : (dat0 V c).after 10 t = k0_pay4 (k0_pay8 (iblk0 V c 0 t) (iblk0 V c 5 t)) := by
  rw [after0_10_store]; unfold out0_10
  rw [View.canon_unit_zero off_zero]
  simp only [View.ld_unit_zero (S := S256x2048) off_zero, View.ld_unit_zero (S := S2048x2048) off_zero]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation at a generic point -/

/-- What the body is called with at point `t`: the invariant, what is owed, and every window's current staging
    buffer at what it holds before the body; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns: the same with every buffer at what it holds after. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the inputs' buffers hold their blocks, so the body's triple applies with the blocks
    for `x0 … x5`; the invariant and what is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5,
    after0_6_store, after0_7_store, after0_8_store, after0_9_store, after0_10_store]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the region's proof data, at every point. -/
theorem body_obligation0 (c : Dev nD) : BodyObligation (dat0 (F := F) V c) (defs₀ (F := F)) Variants.none () Set.univ := fun t => by
  rw [bigSep_W0, bigSep_W0]
  exact sound_body0 V c t

end Cert.Kernel.Hand0

end
-- ==== Proof.BitsRegion1.lean ====
import proofs.«180393_j10222022164698_1_alg».proof.Proof.Gen.Kernel.Launch
import proofs.«180393_j10222022164698_1_alg».proof.Proof.Gen.Kernel.Skeleton
import proofs.«180393_j10222022164698_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: a matrix product accumulated over the innermost grid axis

The grid is `(i, j, kk)` with `kk` innermost, four steps long. The body keeps a running sum in a scratch block that
survives from one grid point to the next: at `kk = 0` it clears the scratch, at every point it adds the product of
the two input blocks (the first transposed) to it, and at `kk = 3` it scales the sum by `2⁻¹³` and stores it into
the output block, which is written back only there. This module states, for every grid point, what the scratch and
the output block hold after the body, and proves the body's separation-logic obligation against those contents, for
arbitrary contents `V` of the arrays when the region is entered. -/

section Region
variable (V : (c : Dev nD) → (b : Ref sig .tc) → Buf (Elt F) ((c : Thread nD τ).loc b))

/-! ## Blocks of the input arrays -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, whether or not it was fetched there (an
    unfetched point has the same block index as the one before), for any proof data over `V` whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the second input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The two branch conditions, in closed form over the linear point index

The innermost coordinate of point `t` is `t mod 4`: the clearing branch is taken iff `t ≡ 0`, the storing branch iff
`t ≡ 3 (mod 4)`. Both are decided by evaluation over the 16 points of the grid. -/

/-- "This is the first step of a sum": the body's first conditional, as it computes it from the coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last step of a sum": the body's second conditional. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are live

The inputs are read at every point. The output block is stored only at the last step of a sum; at the other points
the body leaves its buffer alone and the block is not written back. -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, t.val % 4 ≠ 3 → cfg1.idle 2 (grid1.coords t) = true := by decide +kernel
theorem liveAt1_2 : ∀ t : Fin cfg1.N, t.val % 4 = 3 → cfg1.idle 2 (grid1.coords t) = false := by decide +kernel
theorem noFlush1_2 (t : Fin cfg1.N) (h : t.val % 4 ≠ 3) : (cfg1.win 2).flush t = false := by
  cases hf : (cfg1.win 2).flush t with
  | false => rfl
  | true => exact absurd ((flush1_2 t).mp hf) h

/-! ## The scratch block and the region's invariant -/

/-- The scratch block holding the running sum, as a whole buffer. -/
abbrev scM1_0 : Memref sig .tc .vmem S512x1024 .f32 := Memref.whole cc1_scratch0

/-- What the region is entered with, the scratch block split off the core's other private buffers: the scratch at
    some contents, the remaining private buffers unopened, the generator register at some state. -/
theorem PhiA1_eq (c : Dev nD) :
    (Pipeline.ΦA spec1 c : sProp 𝕄)
      = iprop(iprop(iprop((∃ d, owns (c : Thread nD τ) scM1_0 fullShare d)) ∗ Pipeline.scopedRestBut spec1 c [cc1_scratch0]) ∗ (∃ r, prngReg c r)) := by
  unfold Pipeline.ΦA; rw [scopedRest1_split]; simp only [scM1_0, owns_whole]; try rfl

/-! ## The body, case by case

Every load and store of the body goes through the whole-block rectangle at offset zero, so a load reads the buffer's
contents and a store replaces them. -/

theorem hz2 : (![0, 0] : Fin 2 → ℕ) = fun _ => 0 := by funext a; fin_cases a <;> rfl

/-- A list of stores into the scratch or output block whose last store is a whole-block one covers the block. -/
theorem coverO (p : S512x1024.Idx → Elt F .f32) (L : List (View.Piece (Elt F) S512x1024 .f32)) (y : S512x1024.Idx) :
    ∃ pc ∈ ((⟨Rect.unit (s := S512x1024) ![0, 0] S512x1024.size inb_S512x1024_S512x1024_0_0, p⟩ : View.Piece (Elt F) S512x1024 .f32) :: L), y ∈ pc.1.set :=
  ⟨_, List.mem_cons_self, View.mem_set_unit_zero hz2 inb_S512x1024_S512x1024_0_0 y⟩

set_option maxHeartbeats 1000000 in
/-- FIRST STEP of a sum (`kk = 0`): whatever the scratch held, the body clears it and adds the product of the input
    blocks `x0`, `x1`; the output block's buffer (`xi`) is not touched. -/
theorem run1_A (c : Dev nD) (i : grid1.Coords) (arg3 : Memref sig .tc .vmem S2048x512 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S512x1024 .f32) (harg6 : arg6.IsWhole)
    (hc0 : cond1_0 i) (hc1 : ¬cond1_1 i)
    (x0 : Vec F S2048x512 .f32) (x1 : Vec F S2048x1024 .bf16) (xi : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare xi ∗ (∃ d, owns (c : Thread nD τ) arg6 fullShare d)
        ∗ (iprop(owns (c : Thread nD τ) arg3 fullShare x0 ∗ owns (c : Thread nD τ) arg4 fullShare x1 ∗ owns (c : Thread nD τ) arg5 fullShare xi ∗ owns (c : Thread nD τ) arg6 fullShare (k1_pay2 x0 x1 (k1_pay1 (F := F)))) -∗ K ⟨⟩))
      ⊢ wp frame (wpE (defs₀ (F := F)) Variants.none c none) E (cc1__kernel_b i arg3 harg3 arg4 harg4 arg5 harg5 arg6 harg6) K := by
  simp only [cc1__kernel_b_eq_skeleton]; unfold cc1__kernel_b_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  sl_unfold_words
  rw [View.read_writes_eq_canon _ _ _ (coverO _ _)]
  rw [View.canon_cons_unit_zero hz2]
  rw [View.readCov_unit_zero (S := S512x1024) arg6.view hz2]
  rw [View.readAt_eq_ld, View.readAt_eq_ld, harg3.read_unread, harg4.read_unread, View.ld_unit_zero (S := S2048x512) hz2, View.ld_unit_zero (S := S2048x1024) hz2]

set_option maxHeartbeats 1000000 in
/-- MIDDLE STEP (`kk = 1, 2`): the scratch holds the sum so far (`xs`); the body adds the product of the input blocks
    to it; the output block's buffer is not touched. -/
theorem run1_B (c : Dev nD) (i : grid1.Coords) (arg3 : Memref sig .tc .vmem S2048x512 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S512x1024 .f32) (harg6 : arg6.IsWhole)
    (hc0 : ¬cond1_0 i) (hc1 : ¬cond1_1 i)
    (x0 : Vec F S2048x512 .f32) (x1 : Vec F S2048x1024 .bf16) (xi : Vec F S512x1024 .f32) (xs : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare xi ∗ owns (c : Thread nD τ) arg6 fullShare (k1_pay2 x0 x1 xs)) -∗ K ⟨⟩))
      ⊢ wp frame (wpE (defs₀ (F := F)) Variants.none c none) E (cc1__kernel_b i arg3 harg3 arg4 harg4 arg5 harg5 arg6 harg6) K := by
  simp only [cc1__kernel_b_eq_skeleton]; unfold cc1__kernel_b_skel
  unfold owns
  iintro ⟨⟨%f0, %hf0, H0⟩, ⟨%f1, %hf1, H1⟩, ⟨%f2, %hf2, H2⟩, ⟨%fs0, %hfs0, HS0⟩, Hk⟩
  obtain rfl := harg3.eq_unread hf0; obtain rfl := harg4.eq_unread hf1; obtain rfl := harg5.eq_unread hf2; obtain rfl := harg6.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  sl_unfold_words
  rw [View.read_writes_eq_canon _ _ _ (coverO _ _)]
  rw [View.canon_cons_unit_zero hz2]
  rw [View.readAt_eq_ld, View.readAt_eq_ld, View.readAt_eq_ld, harg3.read_unread, harg4.read_unread, harg6.read_unread, View.ld_unit_zero (S := S2048x512) hz2, View.ld_unit_zero (S := S2048x1024) hz2, View.ld_unit_zero (S := S512x1024) hz2]

set_option maxHeartbeats 1000000 in
/-- LAST STEP (`kk = 3`): the body adds the product of the input blocks to the sum so far (`xs`), then stores the
    scaled sum into the output block, whatever that buffer held. -/
theorem run1_C (c : Dev nD) (i : grid1.Coords) (arg3 : Memref sig .tc .vmem S2048x512 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S512x1024 .f32) (harg6 : arg6.IsWhole)
    (hc0 : ¬cond1_0 i) (hc1 : cond1_1 i)
    (x0 : Vec F S2048x512 .f32) (x1 : Vec F S2048x1024 .bf16) (xs : Vec F S512x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k1_pay3 (k1_pay2 x0 x1 xs)) ∗ owns (c : Thread nD τ) arg6 fullShare (k1_pay2 x0 x1 xs)) -∗ K ⟨⟩))
      ⊢ wp frame (wpE (defs₀ (F := F)) Variants.none c none) E (cc1__kernel_b i arg3 harg3 arg4 harg4 arg5 harg5 arg6 harg6) K := by
  simp only [cc1__kernel_b_eq_skeleton]; unfold cc1__kernel_b_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  have hsum : View.readAt (Elt F) arg6.view (Rect.unit (s := S512x1024) ![0, 0] S512x1024.size inb_S512x1024_S512x1024_0_0).toLoadRect (harg6.unread xs) = xs := by
    rw [View.readAt_eq_ld, harg6.read_unread, View.ld_unit_zero (S := S512x1024) hz2]
  isplitl [H2]
  · iexists _; isplitr
    swap; · iexact H2
    ipureintro
    sl_unfold_words
    rw [View.read_writes_eq_canon _ _ _ (coverO _ _)]
    rw [View.canon_cons_unit_zero hz2]
    rw [View.readCov_unit_zero (S := S512x1024) arg6.view hz2, hsum]
    rw [View.readAt_eq_ld, View.readAt_eq_ld, harg3.read_unread, harg4.read_unread, View.ld_unit_zero (S := S2048x512) hz2, View.ld_unit_zero (S := S2048x1024) hz2]
  iexists _; isplitr
  swap; · iexact HS0
  ipureintro
  sl_unfold_words
  rw [View.read_writes_eq_canon _ _ _ (coverO _ _)]
  rw [View.canon_cons_unit_zero hz2, hsum]
  rw [View.readAt_eq_ld, View.readAt_eq_ld, harg3.read_unread, harg4.read_unread, View.ld_unit_zero (S := S2048x512) hz2, View.ld_unit_zero (S := S2048x1024) hz2]

section Region
variable (V : (c : Dev nD) → (b : Ref sig .tc) → Buf (Elt F) ((c : Thread nD τ).loc b))

/-! ## The running sum, point by point -/

/-- The scratch block after the body at position `n` of the grid: at the first step of a sum the product of the
    point's input blocks added to the cleared block, otherwise added to what the point before left. -/
def accAt1 (c : Dev nD) : (n : ℕ) → n < cfg1.N → Vec F S512x1024 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

/-- The scratch block after grid point `t`. -/
def acc1 (c : Dev nD) (t : Fin cfg1.N) : Vec F S512x1024 .f32 := accAt1 V c t.val t.isLt

theorem accAt1_first (c : Dev nD) (t : Fin cfg1.N) (h0 : t.val % 4 = 0) :
    accAt1 V c t.val t.isLt = k1_pay2 (iblk1 V c 0 t) (iblk1 V c 1 t) (k1_pay1 (F := F)) := by
  obtain ⟨n, hn⟩ := t
  cases n with
  | zero => rfl
  | succ n => exact if_pos h0

theorem accAt1_next (c : Dev nD) (t : Fin cfg1.N) (h0 : t.val % 4 ≠ 0) :
    accAt1 V c t.val t.isLt
      = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- At the first step of a sum the scratch holds the product of the point's blocks added to the cleared block. -/
theorem acc1_first (c : Dev nD) (t : Fin cfg1.N) (h0 : t.val % 4 = 0) :
    acc1 V c t = k1_pay2 (iblk1 V c 0 t) (iblk1 V c 1 t) (k1_pay1 (F := F)) :=
  accAt1_first V c t h0

/-- At a later step, the product added to what the point before left. -/
theorem acc1_next (c : Dev nD) (t : Fin cfg1.N) (h0 : t.val % 4 ≠ 0) :
    acc1 V c t = k1_pay2 (iblk1 V c 0 t) (iblk1 V c 1 t) (acc1 V c ⟨t.val - 1, by omega⟩) :=
  accAt1_next V c t h0

/-! ## The invariant between points -/

/-- Before position `n`: at the region's entry what the launch hands over; afterwards the scratch block at the
    running sum the point before left, the core's other private buffers unopened, the generator register at some
    state. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (accAt1 V c n hn) ∗ Pipeline.scopedRestBut spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (accAt1 V c (n - 1) (by omega)) ∗ Pipeline.scopedRestBut spec1 c [cc1_scratch0]) ∗ (∃ r, prngReg c r)) := by
  cases n with
  | zero => exact absurd rfl hz
  | succ n => rfl

/-! ## The proof data -/

/-- The proof data of the region on core `c`: the arrays as the region finds them; after the body each input's buffer
    at its block and the output's at the scaled running sum (consulted only at the last step of a sum, the only points
    where the output block is stored and written back); the invariant `PhiS1`; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t) := by dsimp only [dat1]

/-- What the output block's buffer holds after a point that writes it back: the scaled running sum. -/
theorem after1_2_flush (c : Dev nD) (t : Fin cfg1.N) (h3 : t.val % 4 = 3) : (dat1 V c).after 2 t = k1_pay3 (acc1 V c t) :=
  after1_2 V c t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; `t mod 4` says which of the three cases the point
    is in; the invariant hands over the scratch block at the running sum so far (at anything, at the region's very
    first point) and takes it back at this point's; at the first and middle steps the output block's buffer is handed
    back as found, at the last step it is left at the scaled sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 16 := lt_of_lt_of_eq t.isLt (show cfg1.N = 16 from N_1)
  by_cases h0 : t.val % 4 = 0
  · have h1 : t.val % 4 ≠ 3 := by omega
    rw [Dat.leavesExact_idle (dat1 V c) 2 t (idleAt1_2 t h1) (noFlush1_2 t h1)]
    rw [accAt1_first V c t h0]
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩⟩
      iapply (run1_A c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hr⟩, Hg⟩, Ho, ⟨%d0, H0⟩, ⟨%d1, H1⟩, ⟨%d2, H2⟩⟩
      iapply (run1_A c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
  · have hz : t.val ≠ 0 := fun e => h0 (by rw [e])
    rw [accAt1_next V c t h0]
    rw [PhiS1_castSucc V c t, PhiS1_pos V c _ _ hz]
    by_cases h1 : t.val % 4 = 3
    · rw [show (dat1 V c).leavesExact 2 t = owns (c : Thread nD τ) (st1_2 t) fullShare ((dat1 V c).after 2 t) from by
        unfold Dat.leavesExact; rw [liveAt1_2 t h1], after1_2]
      unfold acc1
      rw [accAt1_next V c t h0]
      iintro ⟨⟨⟨HS0, Hr⟩, Hg⟩, Ho, ⟨%d0, H0⟩, ⟨%d1, H1⟩, ⟨%d2, H2⟩⟩
      iapply (run1_C c (grid1.coords t) _ _ _ _ _ _ _ _ (fun h => h0 ((hcond1_0 t).mp h)) ((hcond1_1 t).mpr h1) (iblk1 V c 0 t) (iblk1 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexact H2
    · rw [Dat.leavesExact_idle (dat1 V c) 2 t (idleAt1_2 t h1) (noFlush1_2 t h1)]
      iintro ⟨⟨⟨HS0, Hr⟩, Hg⟩, Ho, ⟨%d0, H0⟩, ⟨%d1, H1⟩, ⟨%d2, H2⟩⟩
      iapply (run1_B c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Region

end Cert.Kernel.Hand1

end
-- ==== Proof.BitsRegion2.lean ====
import proofs.«180393_j10222022164698_1_alg».proof.Proof.Gen.Kernel.Launch
import proofs.«180393_j10222022164698_1_alg».proof.Proof.Gen.Kernel.Skeleton
import proofs.«180393_j10222022164698_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: a matrix product accumulated over the innermost grid axis

The grid is `(i, j, kk)` with `kk` innermost, four steps long. The body keeps a running sum in a scratch block that
survives from one grid point to the next: at `kk = 0` it clears the scratch, at every point it adds the product of
the two input blocks (the first transposed) to it, and at `kk = 3` it scales the sum by `2⁻¹³` and stores it into
the output block, which is written back only there. This module states, for every grid point, what the scratch and
the output block hold after the body, and proves the body's separation-logic obligation against those contents, for
arbitrary contents `V` of the arrays when the region is entered. -/

section Region
variable (V : (c : Dev nD) → (b : Ref sig .tc) → Buf (Elt F) ((c : Thread nD τ).loc b))

/-! ## Blocks of the input arrays -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point, whether or not it was fetched there (an
    unfetched point has the same block index as the one before), for any proof data over `V` whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the second input. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Region

/-! ## The two branch conditions, in closed form over the linear point index

The innermost coordinate of point `t` is `t mod 4`: the clearing branch is taken iff `t ≡ 0`, the storing branch iff
`t ≡ 3 (mod 4)`. Both are decided by evaluation over the 64 points of the grid. -/

/-- "This is the first step of a sum": the body's first conditional, as it computes it from the coordinates. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "This is the last step of a sum": the body's second conditional. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are live

The inputs are read at every point. The output block is stored only at the last step of a sum; at the other points
the body leaves its buffer alone and the block is not written back. -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, t.val % 4 ≠ 3 → cfg2.idle 2 (grid2.coords t) = true := by decide +kernel
theorem liveAt2_2 : ∀ t : Fin cfg2.N, t.val % 4 = 3 → cfg2.idle 2 (grid2.coords t) = false := by decide +kernel
theorem noFlush2_2 (t : Fin cfg2.N) (h : t.val % 4 ≠ 3) : (cfg2.win 2).flush t = false := by
  cases hf : (cfg2.win 2).flush t with
  | false => rfl
  | true => exact absurd ((flush2_2 t).mp hf) h

/-! ## The scratch block and the region's invariant -/

/-- The scratch block holding the running sum, as a whole buffer. -/
abbrev scM2_0 : Memref sig .tc .vmem S512x512 .f32 := Memref.whole cc2_scratch0

/-- What the region is entered with, the scratch block split off the core's other private buffers: the scratch at
    some contents, the remaining private buffers unopened, the generator register at some state. -/
theorem PhiA2_eq (c : Dev nD) :
    (Pipeline.ΦA spec2 c : sProp 𝕄)
      = iprop(iprop(iprop((∃ d, owns (c : Thread nD τ) scM2_0 fullShare d)) ∗ Pipeline.scopedRestBut spec2 c [cc2_scratch0]) ∗ (∃ r, prngReg c r)) := by
  unfold Pipeline.ΦA; rw [scopedRest2_split]; simp only [scM2_0, owns_whole]; try rfl

/-! ## The body, case by case

Every load and store of the body goes through the whole-block rectangle at offset zero, so a load reads the buffer's
contents and a store replaces them. -/

theorem hz2 : (![0, 0] : Fin 2 → ℕ) = fun _ => 0 := by funext a; fin_cases a <;> rfl

/-- A list of stores into the scratch or output block whose last store is a whole-block one covers the block. -/
theorem coverO (p : S512x512.Idx → Elt F .f32) (L : List (View.Piece (Elt F) S512x512 .f32)) (y : S512x512.Idx) :
    ∃ pc ∈ ((⟨Rect.unit (s := S512x512) ![0, 0] S512x512.size inb_S512x512_S512x512_0_0, p⟩ : View.Piece (Elt F) S512x512 .f32) :: L), y ∈ pc.1.set :=
  ⟨_, List.mem_cons_self, View.mem_set_unit_zero hz2 inb_S512x512_S512x512_0_0 y⟩

set_option maxHeartbeats 1000000 in
/-- FIRST STEP of a sum (`kk = 0`): whatever the scratch held, the body clears it and adds the product of the input
    blocks `x0`, `x1`; the output block's buffer (`xi`) is not touched. -/
theorem run2_A (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S512x512 .f32) (harg5 : arg5.IsWhole) (arg6 : Memref sig .tc .vmem S512x512 .f32) (harg6 : arg6.IsWhole)
    (hc0 : cond2_0 i) (hc1 : ¬cond2_1 i)
    (x0 : Vec F S2048x512 .bf16) (x1 : Vec F S2048x512 .bf16) (xi : Vec F S512x512 .f32) (E : Set ℕ) (K : PUnit → sProp 𝕄) :
    iprop(owns (c : Thread nD τ) arg3 fullShare x0 ∗ owns (c : Thread nD τ) arg4 fullShare x1 ∗ owns (c : Thread nD τ) arg5 fullShare xi ∗ (∃ d, owns (c : Thread nD τ) arg6 fullShare d)
        ∗ (iprop(owns (c : Thread nD τ) arg3 fullShare x0 ∗ owns (c : Thread nD τ) arg4 fullShare x1 ∗ owns (c : Thread nD τ) arg5 fullShare xi ∗ owns (c : Thread nD τ) arg6 fullShare (k2_pay2 x0 x1 (k2_pay1 (F := F)))) -∗ K ⟨⟩))
      ⊢ wp frame (wpE (defs₀ (F := F)) Variants.none c none) E (cc2__kernel_c i arg3 harg3 arg4 harg4 arg5 harg5 arg6 harg6) K := by
  simp only [cc2__kernel_c_eq_skeleton]; unfold cc2__kernel_c_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  sl_unfold_words
  rw [View.read_writes_eq_canon _ _ _ (coverO _ _)]
  rw [View.canon_cons_unit_zero hz2]
  rw [View.readCov_unit_zero (S := S512x512) arg6.view hz2]
  rw [View.readAt_eq_ld, View.readAt_eq_ld, harg3.read_unread, harg4.read_unread, View.ld_unit_zero (S := S2048x512) hz2, View.ld_unit_zero (S := S2048x512) hz2]

set_option maxHeartbeats 1000000 in
/-- MIDDLE STEP (`kk = 1, 2`): the scratch holds the sum so far (`xs`); the body adds the product of the input blocks
    to it; the output block's buffer is not touched. -/
theorem run2_B (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S512x512 .f32) (harg5 : arg5.IsWhole) (arg6 : Memref sig .tc .vmem S512x512 .f32) (harg6 : arg6.IsWhole)
    (hc0 : ¬cond2_0 i) (hc1 : ¬cond2_1 i)
    (x0 : Vec F S2048x512 .bf16) (x1 : Vec F S2048x512 .bf16) (xi : Vec F S512x512 .f32) (xs : Vec F S512x512 .f32) (E : Set ℕ) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare xi ∗ owns (c : Thread nD τ) arg6 fullShare (k2_pay2 x0 x1 xs)) -∗ K ⟨⟩))
      ⊢ wp frame (wpE (defs₀ (F := F)) Variants.none c none) E (cc2__kernel_c i arg3 harg3 arg4 harg4 arg5 harg5 arg6 harg6) K := by
  simp only [cc2__kernel_c_eq_skeleton]; unfold cc2__kernel_c_skel
  unfold owns
  iintro ⟨⟨%f0, %hf0, H0⟩, ⟨%f1, %hf1, H1⟩, ⟨%f2, %hf2, H2⟩, ⟨%fs0, %hfs0, HS0⟩, Hk⟩
  obtain rfl := harg3.eq_unread hf0; obtain rfl := harg4.eq_unread hf1; obtain rfl := harg5.eq_unread hf2; obtain rfl := harg6.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  sl_unfold_words
  rw [View.read_writes_eq_canon _ _ _ (coverO _ _)]
  rw [View.canon_cons_unit_zero hz2]
  rw [View.readAt_eq_ld, View.readAt_eq_ld, View.readAt_eq_ld, harg3.read_unread, harg4.read_unread, harg6.read_unread, View.ld_unit_zero (S := S2048x512) hz2, View.ld_unit_zero (S := S2048x512) hz2, View.ld_unit_zero (S := S512x512) hz2]

set_option maxHeartbeats 1000000 in
/-- LAST STEP (`kk = 3`): the body adds the product of the input blocks to the sum so far (`xs`), then stores the
    scaled sum into the output block, whatever that buffer held. -/
theorem run2_C (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S512x512 .f32) (harg5 : arg5.IsWhole) (arg6 : Memref sig .tc .vmem S512x512 .f32) (harg6 : arg6.IsWhole)
    (hc0 : ¬cond2_0 i) (hc1 : cond2_1 i)
    (x0 : Vec F S2048x512 .bf16) (x1 : Vec F S2048x512 .bf16) (xs : Vec F S512x512 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k2_pay3 (k2_pay2 x0 x1 xs)) ∗ owns (c : Thread nD τ) arg6 fullShare (k2_pay2 x0 x1 xs)) -∗ K ⟨⟩))
      ⊢ wp frame (wpE (defs₀ (F := F)) Variants.none c none) E (cc2__kernel_c i arg3 harg3 arg4 harg4 arg5 harg5 arg6 harg6) K := by
  simp only [cc2__kernel_c_eq_skeleton]; unfold cc2__kernel_c_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  have hsum : View.readAt (Elt F) arg6.view (Rect.unit (s := S512x512) ![0, 0] S512x512.size inb_S512x512_S512x512_0_0).toLoadRect (harg6.unread xs) = xs := by
    rw [View.readAt_eq_ld, harg6.read_unread, View.ld_unit_zero (S := S512x512) hz2]
  isplitl [H2]
  · iexists _; isplitr
    swap; · iexact H2
    ipureintro
    sl_unfold_words
    rw [View.read_writes_eq_canon _ _ _ (coverO _ _)]
    rw [View.canon_cons_unit_zero hz2]
    rw [View.readCov_unit_zero (S := S512x512) arg6.view hz2, hsum]
    rw [View.readAt_eq_ld, View.readAt_eq_ld, harg3.read_unread, harg4.read_unread, View.ld_unit_zero (S := S2048x512) hz2, View.ld_unit_zero (S := S2048x512) hz2]
  iexists _; isplitr
  swap; · iexact HS0
  ipureintro
  sl_unfold_words
  rw [View.read_writes_eq_canon _ _ _ (coverO _ _)]
  rw [View.canon_cons_unit_zero hz2, hsum]
  rw [View.readAt_eq_ld, View.readAt_eq_ld, harg3.read_unread, harg4.read_unread, View.ld_unit_zero (S := S2048x512) hz2, View.ld_unit_zero (S := S2048x512) hz2]

section Region
variable (V : (c : Dev nD) → (b : Ref sig .tc) → Buf (Elt F) ((c : Thread nD τ).loc b))

/-! ## The running sum, point by point -/

/-- The scratch block after the body at position `n` of the grid: at the first step of a sum the product of the
    point's input blocks added to the cleared block, otherwise added to what the point before left. -/
def accAt2 (c : Dev nD) : (n : ℕ) → n < cfg2.N → Vec F S512x512 .f32
  | 0, hn => k2_pay2 (iblk2 V c 0 ⟨0, hn⟩) (iblk2 V c 1 ⟨0, hn⟩) (k2_pay1 (F := F))
  | n + 1, hn =>
    if (n + 1) % 4 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (accAt2 c n (Nat.lt_of_succ_lt hn))

/-- The scratch block after grid point `t`. -/
def acc2 (c : Dev nD) (t : Fin cfg2.N) : Vec F S512x512 .f32 := accAt2 V c t.val t.isLt

theorem accAt2_first (c : Dev nD) (t : Fin cfg2.N) (h0 : t.val % 4 = 0) :
    accAt2 V c t.val t.isLt = k2_pay2 (iblk2 V c 0 t) (iblk2 V c 1 t) (k2_pay1 (F := F)) := by
  obtain ⟨n, hn⟩ := t
  cases n with
  | zero => rfl
  | succ n => exact if_pos h0

theorem accAt2_next (c : Dev nD) (t : Fin cfg2.N) (h0 : t.val % 4 ≠ 0) :
    accAt2 V c t.val t.isLt
      = k2_pay2 (iblk2 V c 0 t) (iblk2 V c 1 t) (accAt2 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- At the first step of a sum the scratch holds the product of the point's blocks added to the cleared block. -/
theorem acc2_first (c : Dev nD) (t : Fin cfg2.N) (h0 : t.val % 4 = 0) :
    acc2 V c t = k2_pay2 (iblk2 V c 0 t) (iblk2 V c 1 t) (k2_pay1 (F := F)) :=
  accAt2_first V c t h0

/-- At a later step, the product added to what the point before left. -/
theorem acc2_next (c : Dev nD) (t : Fin cfg2.N) (h0 : t.val % 4 ≠ 0) :
    acc2 V c t = k2_pay2 (iblk2 V c 0 t) (iblk2 V c 1 t) (acc2 V c ⟨t.val - 1, by omega⟩) :=
  accAt2_next V c t h0

/-! ## The invariant between points -/

/-- Before position `n`: at the region's entry what the launch hands over; afterwards the scratch block at the
    running sum the point before left, the core's other private buffers unopened, the generator register at some
    state. -/
def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ Pipeline.scopedRestBut spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (accAt2 V c n hn) ∗ Pipeline.scopedRestBut spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (accAt2 V c (n - 1) (by omega)) ∗ Pipeline.scopedRestBut spec2 c [cc2_scratch0]) ∗ (∃ r, prngReg c r)) := by
  cases n with
  | zero => exact absurd rfl hz
  | succ n => rfl

/-! ## The proof data -/

/-- The proof data of the region on core `c`: the arrays as the region finds them; after the body each input's buffer
    at its block and the output's at the scaled running sum (consulted only at the last step of a sum, the only points
    where the output block is stored and written back); the invariant `PhiS2`; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (acc2 V c t) := by dsimp only [dat2]

/-- What the output block's buffer holds after a point that writes it back: the scaled running sum. -/
theorem after2_2_flush (c : Dev nD) (t : Fin cfg2.N) (h3 : t.val % 4 = 3) : (dat2 V c).after 2 t = k2_pay3 (acc2 V c t) :=
  after2_2 V c t

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' buffers hold their blocks; `t mod 4` says which of the three cases the point
    is in; the invariant hands over the scratch block at the running sum so far (at anything, at the region's very
    first point) and takes it back at this point's; at the first and middle steps the output block's buffer is handed
    back as found, at the last step it is left at the scaled sum. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 64 := lt_of_lt_of_eq t.isLt (show cfg2.N = 64 from N_2)
  by_cases h0 : t.val % 4 = 0
  · have h1 : t.val % 4 ≠ 3 := by omega
    rw [Dat.leavesExact_idle (dat2 V c) 2 t (idleAt2_2 t h1) (noFlush2_2 t h1)]
    rw [accAt2_first V c t h0]
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩⟩
      iapply (run2_A c (grid2.coords t) _ _ _ _ _ _ _ _ ((hcond2_0 t).mpr h0) (fun h => h1 ((hcond2_1 t).mp h)) (iblk2 V c 0 t) (iblk2 V c 1 t) _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, Hr⟩, Hg⟩, Ho, ⟨%d0, H0⟩, ⟨%d1, H1⟩, ⟨%d2, H2⟩⟩
      iapply (run2_A c (grid2.coords t) _ _ _ _ _ _ _ _ ((hcond2_0 t).mpr h0) (fun h => h1 ((hcond2_1 t).mp h)) (iblk2 V c 0 t) (iblk2 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
  · have hz : t.val ≠ 0 := fun e => h0 (by rw [e])
    rw [accAt2_next V c t h0]
    rw [PhiS2_castSucc V c t, PhiS2_pos V c _ _ hz]
    by_cases h1 : t.val % 4 = 3
    · rw [show (dat2 V c).leavesExact 2 t = owns (c : Thread nD τ) (st2_2 t) fullShare ((dat2 V c).after 2 t) from by
        unfold Dat.leavesExact; rw [liveAt2_2 t h1], after2_2]
      unfold acc2
      rw [accAt2_next V c t h0]
      iintro ⟨⟨⟨HS0, Hr⟩, Hg⟩, Ho, ⟨%d0, H0⟩, ⟨%d1, H1⟩, ⟨%d2, H2⟩⟩
      iapply (run2_C c (grid2.coords t) _ _ _ _ _ _ _ _ (fun h => h0 ((hcond2_0 t).mp h)) ((hcond2_1 t).mpr h1) (iblk2 V c 0 t) (iblk2 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexact H2
    · rw [Dat.leavesExact_idle (dat2 V c) 2 t (idleAt2_2 t h1) (noFlush2_2 t h1)]
      iintro ⟨⟨⟨HS0, Hr⟩, Hg⟩, Ho, ⟨%d0, H0⟩, ⟨%d1, H1⟩, ⟨%d2, H2⟩⟩
      iapply (run2_B c (grid2.coords t) _ _ _ _ _ _ _ _ (fun h => h0 ((hcond2_0 t).mp h)) (fun h => h1 ((hcond2_1 t).mp h)) (iblk2 V c 0 t) (iblk2 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

/-- The body obligation of the region, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: the scratch's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Region

end Cert.Kernel.Hand2

end
-- ==== Proof.BitsRun.lean ====
/-
  The run of the whole entry function, for any float instance: three conversions, three kernel regions, two subtractions.
  Between two items a core holds every unscoped buffer at a known valuation — the launch contents carried through each
  item in turn: a conversion or subtraction applies its operation, a region overwrites its output arrays with what its
  grid points wrote back and leaves every other buffer alone. Each region is entered with the generator register and
  nothing owed, and hands both back. From the run: the six argument arrays end as launched (no item writes one).
-/
import proofs.«180393_j10222022164698_1_alg».proof.Proof.Gen.Kernel.Launch
import proofs.«180393_j10222022164698_1_alg».proof.Proof.Gen.Kernel.Skeleton
import proofs.«180393_j10222022164698_1_alg».proof.Proof.Gen.Kernel.Points
import proofs.«180393_j10222022164698_1_alg».proof.Proof.BitsRegion0
import proofs.«180393_j10222022164698_1_alg».proof.Proof.BitsRegion1
import proofs.«180393_j10222022164698_1_alg».proof.Proof.BitsRegion2
import proofs.«180393_j10222022164698_1_alg».proof.Proof.Gen.Kernel.Regions
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of the entry function -/

/-- A valuation of every buffer read at the TensorCore's references. -/
abbrev Vt (W : Dev nD → Valuation τ sig (Elt F)) : (c : Dev nD) → (b : Ref sig .tc) → Buf (Elt F) ((c : Thread nD τ).loc b) := fun c b => W c b

/-- At launch. -/
abbrev W0 : Dev nD → Valuation τ sig (Elt F) := fun c b => (s₀ m ρ).mem ((c : Dev nD), b)
/-- After the three conversions that precede the first region. -/
abbrev W1 : Dev nD → Valuation τ sig (Elt F) := fun c => StableHlo.after hostOps0 (W0 m ρ c)

/-- The buffers when region 0 is left: its windows' arrays at what the write-backs leave, every other buffer as entered. -/
def W2 (c : Dev nD) : Valuation τ sig (Elt F) :=
  Pipeline.withArrays spec0 c (W1 m ρ c) fun w => (Hand0.dat0 (Vt (W1 m ρ)) c).arrAt w cfg0.N
theorem W2_arr (c : Dev nD) (w : Fin cfg0.W) :
    W2 m ρ c (Proc.devRef .tc (Pipeline.arrRef spec0 w)) = (Hand0.dat0 (Vt (W1 m ρ)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (Hand0.dat0 (Vt (W1 m ρ)) c).arrAt w cfg0.N = Vt (W2 m ρ) c (Pipeline.arrRef spec0 w) :=
  (W2_arr m ρ c w).symm
theorem hrest0 (c : Dev nD) : ∀ b, b ∉ Finset.univ.image (Pipeline.arrRef spec0) → Vt (W2 m ρ) c b = Vt (W1 m ρ) c b :=
  fun b hb => W2_of_ne m ρ c b fun w e => hb (Finset.mem_image.mpr ⟨w, Finset.mem_univ _, e⟩)

/-- The buffers when region 1 is left: its windows' arrays at what the write-backs leave, every other buffer as entered. -/
def W3 (c : Dev nD) : Valuation τ sig (Elt F) :=
  Pipeline.withArrays spec1 c (W2 m ρ c) fun w => (Hand1.dat1 (Vt (W2 m ρ)) c).arrAt w cfg1.N
theorem W3_arr (c : Dev nD) (w : Fin cfg1.W) :
    W3 m ρ c (Proc.devRef .tc (Pipeline.arrRef spec1 w)) = (Hand1.dat1 (Vt (W2 m ρ)) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem hF1 (c : Dev nD) (w : Fin cfg1.W) : (Hand1.dat1 (Vt (W2 m ρ)) c).arrAt w cfg1.N = Vt (W3 m ρ) c (Pipeline.arrRef spec1 w) :=
  (W3_arr m ρ c w).symm
theorem hrest1 (c : Dev nD) : ∀ b, b ∉ Finset.univ.image (Pipeline.arrRef spec1) → Vt (W3 m ρ) c b = Vt (W2 m ρ) c b :=
  fun b hb => W3_of_ne m ρ c b fun w e => hb (Finset.mem_image.mpr ⟨w, Finset.mem_univ _, e⟩)

/-- The buffers when region 2 is left: its windows' arrays at what the write-backs leave, every other buffer as entered. -/
def W4 (c : Dev nD) : Valuation τ sig (Elt F) :=
  Pipeline.withArrays spec2 c (W3 m ρ c) fun w => (Hand2.dat2 (Vt (W3 m ρ)) c).arrAt w cfg2.N
theorem W4_arr (c : Dev nD) (w : Fin cfg2.W) :
    W4 m ρ c (Proc.devRef .tc (Pipeline.arrRef spec2 w)) = (Hand2.dat2 (Vt (W3 m ρ)) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem hF2 (c : Dev nD) (w : Fin cfg2.W) : (Hand2.dat2 (Vt (W3 m ρ)) c).arrAt w cfg2.N = Vt (W4 m ρ) c (Pipeline.arrRef spec2 w) :=
  (W4_arr m ρ c w).symm
theorem hrest2 (c : Dev nD) : ∀ b, b ∉ Finset.univ.image (Pipeline.arrRef spec2) → Vt (W4 m ρ) c b = Vt (W3 m ρ) c b :=
  fun b hb => W4_of_ne m ρ c b fun w e => hb (Finset.mem_image.mpr ⟨w, Finset.mem_univ _, e⟩)

/-- After the two subtractions that follow the last region. -/
abbrev W5 : Dev nD → Valuation τ sig (Elt F) := fun c => StableHlo.after hostOps3 (W4 m ρ c)

/-! ## The proof data of the three regions, and what rides beside the buffers -/

abbrev adm : (p : Fin 3) → (pcfgs (F := F) p).Adm := fun p => (cfgs p).toPCfg_adm
/-- Each region's proof data at the contents it is entered with. -/
def pdats : (p : Fin 3) → (c : Dev nD) → Dat τ (Elt F) Unit ℕ (UR sig nD τ) ℕ (Pipeline.pin (pcfgs (F := F)) adm p) c
  | ⟨0, _⟩ => fun c => Hand0.dat0 (Vt (W1 m ρ)) c
  | ⟨1, _⟩ => fun c => Hand1.dat1 (Vt (W2 m ρ)) c
  | ⟨2, _⟩ => fun c => Hand2.dat2 (Vt (W3 m ρ)) c
abbrev 𝒱₀ : Variants := Variants.none
abbrev L : GSem nD τ sig → Finset Unit := fun _ => ∅
abbrev lv : GSem nD τ sig → Unit → ℕ := fun _ _ => 0
/-- Beside the buffers a core carries its generator register, at some state, and owes nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without what is owed: every unscoped buffer at `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 as a segment: entered with every unscoped buffer at `W1`, left with them at `W2`. Its windows'
    arrays are split out of the unscoped buffers on entry and put back, at what the write-backs leave, on exit; the
    generator register passes through the region's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Hand0.body_obligation0 (Vt (W1 m ρ)) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vt (W1 m ρ) c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt (W1 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact key
  hout c := by
    rw [Pipeline.ownSems0_none]
    have key : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact key
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt (W1 m ρ) c) (Vt (W2 m ρ) c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W2`, left with them at `W3`. Its windows'
    arrays are split out of the unscoped buffers on entry and put back, at what the write-backs leave, on exit; the
    generator register passes through the region's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Hand1.body_obligation1 (Vt (W2 m ρ)) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vt (W2 m ρ) c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt (W2 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact key.trans (Hand1.hin1 (Vt (W2 m ρ)) c)
  hout c := by
    rw [Pipeline.ownSems0_none]
    have key : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (Hand1.hout1 (Vt (W2 m ρ)) c).trans key
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt (W2 m ρ) c) (Vt (W3 m ρ) c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W3`, left with them at `W4`. Its windows'
    arrays are split out of the unscoped buffers on entry and put back, at what the write-backs leave, on exit; the
    generator register passes through the region's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Hand2.body_obligation2 (Vt (W3 m ρ)) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (Vt (W3 m ρ) c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vt (W3 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : iprop((∃ r, prngReg c r) ∗ Pipeline.prefHeld (pcfgs (F := F) 2).pre c (fun _ => fullShare) (adm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact key.trans (Hand2.hin2 (Vt (W3 m ρ)) c)
  hout c := by
    rw [Pipeline.ownSems0_none]
    have key : (Pipeline.ΦA spec2 c : sProp 𝕄) ⊢ iprop((∃ r, prngReg c r) ∗ emp ∗ Pipeline.scopedRest spec2 c) := by
      unfold Pipeline.ΦA
      iintro ⟨Hr, Hp⟩
      isplitl [Hp]; · iexact Hp
      isplitr; · iempintro
      iexact Hr
    exact (Hand2.hout2 (Vt (W3 m ρ)) c).trans key
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vt (W3 m ρ) c) (Vt (W4 m ρ) c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

set_option backward.isDefEq.respectTransparency.types false in
/-- THE RUN. From any memory with zero counters every weakly fair execution of the entry function terminates without a
    fault, and in the final memory every unscoped buffer of every core holds what the fold `W5` says: the launch contents
    carried through the three conversions, the three regions' write-backs and the two subtractions. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Run

namespace Cert.Kernel.Run
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The arguments end as launched -/

/-- Argument 0 reaches the end as launched: no conversion or subtraction writes it and no region writes it back. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((Hand0.dat0 (Vt (W1 m ρ)) c).arrAt_in 0 rfl _).trans (Hand0.A_eq0 (Vt (W1 m ρ)) c 0))
    _ = W0 m ρ c (Proc.devRef .tc main_arg0) := StableHlo.after_of_writes_sub hostOps0 _ hostOps0_writes (by decide)
    _ = m ((c : Thread nD τ).loc main_arg0) := rfl

/-- Argument 1 reaches the end as launched: no conversion or subtraction writes it and no region writes it back. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 1).trans (((Hand0.dat0 (Vt (W1 m ρ)) c).arrAt_in 1 rfl _).trans (Hand0.A_eq0 (Vt (W1 m ρ)) c 1))
    _ = W0 m ρ c (Proc.devRef .tc main_arg1) := StableHlo.after_of_writes_sub hostOps0 _ hostOps0_writes (by decide)
    _ = m ((c : Thread nD τ).loc main_arg1) := rfl

/-- Argument 2 reaches the end as launched: no conversion or subtraction writes it and no region writes it back. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 2).trans (((Hand0.dat0 (Vt (W1 m ρ)) c).arrAt_in 2 rfl _).trans (Hand0.A_eq0 (Vt (W1 m ρ)) c 2))
    _ = W0 m ρ c (Proc.devRef .tc main_arg2) := StableHlo.after_of_writes_sub hostOps0 _ hostOps0_writes (by decide)
    _ = m ((c : Thread nD τ).loc main_arg2) := rfl

/-- Argument 3 reaches the end as launched: no conversion or subtraction writes it and no region writes it back. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps3 _ hostOps3_writes (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- Argument 4 reaches the end as launched: no conversion or subtraction writes it and no region writes it back. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps3 _ hostOps3_writes (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- Argument 5 reaches the end as launched: no conversion or subtraction writes it and no region writes it back. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps3 _ hostOps3_writes (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- THE FRAME: every weakly fair execution terminates without a fault and leaves the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c)⟩) (run_all m ρ)

end Cert.Kernel.Run

end
-- ==== Proof.IdealRegion0.lean ====
import proofs.«180393_j10222022164698_1_alg».proof.Proof.Gen.KernelIdeal.Launch
import proofs.«180393_j10222022164698_1_alg».proof.Proof.Gen.KernelIdeal.Skeleton
import proofs.«180393_j10222022164698_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-!
# The first grid region, at the contents it is entered with

The region walks the 32 row blocks of the activations. At row block `t` its body reads the block of
each of the three row-blocked inputs and the whole of each of the three weight matrices, and writes one
block of each of its five results: the prediction error, the gain, the updated state and the two
normalised projections. This module states what every staging buffer holds before and after the body at
a point, as a closed function of the arrays the region is entered with, and proves that the body meets
that description.
-/

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at row block `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' row block): its current staging buffer holds its block at every point, whether or not
    a fetch happened there — where none did, the block index is the one of the point before, and the body left
    that block in place. For any proof data over the region's arrays whose body keeps this input. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- Input window 1 (the state's row block): its current staging buffer holds its block at every point, whether or not
    a fetch happened there — where none did, the block index is the one of the point before, and the body left
    that block in place. For any proof data over the region's arrays whose body keeps this input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-- Input window 2 (the target's row block): its current staging buffer holds its block at every point, whether or not
    a fetch happened there — where none did, the block index is the one of the point before, and the body left
    that block in place. For any proof data over the region's arrays whose body keeps this input. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-- Input window 3 (the first weight matrix, whole): its current staging buffer holds its block at every point, whether or not
    a fetch happened there — where none did, the block index is the one of the point before, and the body left
    that block in place. For any proof data over the region's arrays whose body keeps this input. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

/-- Input window 4 (the second weight matrix, whole): its current staging buffer holds its block at every point, whether or not
    a fetch happened there — where none did, the block index is the one of the point before, and the body left
    that block in place. For any proof data over the region's arrays whose body keeps this input. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

/-- Input window 5 (the projection matrix, whole): its current staging buffer holds its block at every point, whether or not
    a fetch happened there — where none did, the block index is the one of the point before, and the body left
    that block in place. For any proof data over the region's arrays whose body keeps this input. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl)
      (fun t => by rw [hafter]; unfold Dat.blockOf iblk0; rw [hA]; try rfl) t d).trans
    (by unfold Dat.fetched Dat.blockOf iblk0; rw [hA]; try rfl)

/-! ## The rectangles the body reads and writes through: each the whole of its buffer -/

abbrev rX : Rect S256x2048 := Rect.unit (s := S256x2048) ![0, 0] S256x2048.size inb_S256x2048_S256x2048_0_0
abbrev rS : Rect S256x1024 := Rect.unit (s := S256x1024) ![0, 0] S256x1024.size inb_S256x1024_S256x1024_0_0
abbrev rWin : Rect S1024x2048 := Rect.unit (s := S1024x2048) ![0, 0] S1024x2048.size inb_S1024x2048_S1024x2048_0_0
abbrev rWr : Rect S1024x1024 := Rect.unit (s := S1024x1024) ![0, 0] S1024x1024.size inb_S1024x1024_S1024x1024_0_0
abbrev rP : Rect S2048x2048 := Rect.unit (s := S2048x2048) ![0, 0] S2048x2048.size inb_S2048x2048_S2048x2048_0_0

/-- The offsets of all of them are zero. -/
theorem off_zero : (![0, 0] : Fin 2 → Nat) = fun _ => 0 := by
  funext a; fin_cases a <;> rfl

/-! ## What the body leaves in each output buffer

Each output is written once, through the whole-buffer rectangle, with a value computed from what the body
loaded of the six inputs (each through its whole-buffer rectangle). -/

/-- The prediction error `x̂ - y`, where `x̂` is the sum of the two projected products. -/
def out0_6 (x0 : Vec F S256x2048 .f32) (x1 x2 : Vec F S256x1024 .f32) (x3 : Vec F S1024x2048 .bf16) (x4 : Vec F S1024x1024 .bf16) : Vec F S256x1024 .f32 :=
  View.canon [⟨rS, k0_pay7 (View.ld x0 rX) (View.ld x1 rS) (View.ld x2 rS) (View.ld x3 rWin) (View.ld x4 rWr)⟩]

/-- The gain, from the scaled drive and the mask of its small entries. -/
def out0_7 (x0 : Vec F S256x2048 .f32) (x1 : Vec F S256x1024 .f32) (x3 : Vec F S1024x2048 .bf16) (x4 : Vec F S1024x1024 .bf16) : Vec F S256x1024 .f32 :=
  View.canon [⟨rS, k0_pay1 (k0_pay10 (View.ld x0 rX) (View.ld x1 rS) (View.ld x3 rWin) (View.ld x4 rWr))
    (k0_pay11 (View.ld x0 rX) (View.ld x1 rS) (View.ld x3 rWin) (View.ld x4 rWr))⟩]

/-- The updated state: the state plus its rate of change. -/
def out0_8 (x0 : Vec F S256x2048 .f32) (x1 : Vec F S256x1024 .f32) (x3 : Vec F S1024x2048 .bf16) (x4 : Vec F S1024x1024 .bf16) : Vec F S256x1024 .f32 :=
  View.canon [⟨rS, k0_pay2 (View.ld x1 rS) (k0_pay10 (View.ld x0 rX) (View.ld x1 rS) (View.ld x3 rWin) (View.ld x4 rWr))
    (k0_pay11 (View.ld x0 rX) (View.ld x1 rS) (View.ld x3 rWin) (View.ld x4 rWr))⟩]

/-- The projected activations divided by their normaliser, rounded to the short format. -/
def out0_9 (x0 : Vec F S256x2048 .f32) (x5 : Vec F S2048x2048 .bf16) : Vec F S256x2048 .bf16 :=
  View.canon [⟨rX, k0_pay3 (k0_pay9 (View.ld x0 rX) (View.ld x5 rP))⟩]

/-- The projected activations themselves, rounded to the short format. -/
def out0_10 (x0 : Vec F S256x2048 .f32) (x5 : Vec F S2048x2048 .bf16) : Vec F S256x2048 .bf16 :=
  View.canon [⟨rX, k0_pay4 (k0_pay8 (View.ld x0 rX) (View.ld x5 rP))⟩]

/-- One whole-buffer store covers the buffer. -/
theorem coverS {e : EltTy} (p : S256x1024.Idx → Elt F e) (y : S256x1024.Idx) :
    ∃ pc ∈ ([⟨rS, p⟩] : List (View.Piece (Elt F) S256x1024 e)), y ∈ pc.1.set :=
  ⟨_, List.mem_singleton_self _, View.mem_set_unit_zero off_zero inb_S256x1024_S256x1024_0_0 y⟩

theorem coverX {e : EltTy} (p : S256x2048.Idx → Elt F e) (y : S256x2048.Idx) :
    ∃ pc ∈ ([⟨rX, p⟩] : List (View.Piece (Elt F) S256x2048 e)), y ∈ pc.1.set :=
  ⟨_, List.mem_singleton_self _, View.mem_set_unit_zero off_zero inb_S256x2048_S256x2048_0_0 y⟩

/-! ## The body's triple -/

set_option maxHeartbeats 4000000 in
/-- The body, called on whole staging buffers — the six inputs' holding `x0 … x5`, the five outputs' anything —,
    runs to a state where the inputs' buffers are as they were and each output's holds its `out0_w` of the
    inputs: it loads the six inputs, computes, and for each output loads the buffer (the value goes nowhere) and
    then overwrites all of it. -/
theorem sound_kernel0 (c : Dev nD) (E : Set ℕ) (i : grid0.Coords) (arg1 : Memref sig .tc .vmem S256x2048 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S2048x2048 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x2048 .bf16) (harg10 : arg10.IsWhole) (arg11 : Memref sig .tc .vmem S256x2048 .bf16) (harg11 : arg11.IsWhole)
    (x0 : Vec F S256x2048 .f32) (x1 : Vec F S256x1024 .f32) (x2 : Vec F S256x1024 .f32) (x3 : Vec F S1024x2048 .bf16) (x4 : Vec F S1024x1024 .bf16) (x5 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4) ∗ owns (c : Thread nD τ) arg8 fullShare (out0_7 x0 x1 x3 x4) ∗ owns (c : Thread nD τ) arg9 fullShare (out0_8 x0 x1 x3 x4) ∗ owns (c : Thread nD τ) arg10 fullShare (out0_9 x0 x5) ∗ owns (c : Thread nD τ) arg11 fullShare (out0_10 x0 x5)) -∗ K ⟨⟩))
      ⊢ wp frame (wpE (defs₀ (F := F)) Variants.none c none) E (cc0__kernel_a i arg1 harg1 arg2 harg2 arg3 harg3 arg4 harg4 arg5 harg5 arg6 harg6 arg7 harg7 arg8 harg8 arg9 harg9 arg10 harg10 arg11 harg11) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverS _)
  isplitl [H7]
  · iexists _; isplitr
    swap; · iexact H7
    ipureintro
    exact View.read_writes_eq_canon _ _ _ (coverS _)
  isplitl [H8]
  · iexists _; isplitr
    swap; · iexact H8
    ipureintro
    exact View.read_writes_eq_canon _ _ _ (coverS _)
  isplitl [H9]
  · iexists _; isplitr
    swap; · iexact H9
    ipureintro
    exact View.read_writes_eq_canon _ _ _ (coverX _)
  iexists _; isplitr
  swap; · iexact H10
  ipureintro
  exact View.read_writes_eq_canon _ _ _ (coverX _)

/-! ## The region's proof data -/

/-- The proof data of the region on core `c`: the arrays as the region finds them; after the body at point `t`
    each input's buffer still at its block and each output's at its `out0_w` of the input blocks; as invariant
    the buffers and the generator register the region does not touch; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 3 t) (iblk0 V c 4 t)
    | ⟨8, _⟩ => out0_8 (iblk0 V c 0 t) (iblk0 V c 1 t) (iblk0 V c 3 t) (iblk0 V c 4 t)
    | ⟨9, _⟩ => out0_9 (iblk0 V c 0 t) (iblk0 V c 5 t)
    | ⟨10, _⟩ => out0_10 (iblk0 V c 0 t) (iblk0 V c 5 t)
  Φ _ := Pipeline.ΦA spec0 c
  q _ := fullShare
  owed _ := 0

/-- Its arrays are the contents the region is entered with. -/
theorem A_eq0 (c : Dev nD) (w : Fin cfg0.W) : (dat0 V c).A w = V c (Pipeline.arrRef spec0 w) := by
  dsimp only [dat0]

/-- What the body leaves in the inputs' buffers: their blocks. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

/-- What the body leaves in the outputs' buffers, as the single whole-buffer store of each. -/
theorem after0_6_store (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7_store (c : Dev nD) (t : Fin cfg0.N) : (dat0 V c).after 7 t = out0_7 (iblk0 V c 0 t) (iblk0 V c 1 t) (iblk0 V c 3 t) (iblk0 V c 4 t) := by dsimp only [dat0]
theorem after0_8_store (c : Dev nD) (t : Fin cfg0.N) : (dat0 V c).after 8 t = out0_8 (iblk0 V c 0 t) (iblk0 V c 1 t) (iblk0 V c 3 t) (iblk0 V c 4 t) := by dsimp only [dat0]
theorem after0_9_store (c : Dev nD) (t : Fin cfg0.N) : (dat0 V c).after 9 t = out0_9 (iblk0 V c 0 t) (iblk0 V c 5 t) := by dsimp only [dat0]
theorem after0_10_store (c : Dev nD) (t : Fin cfg0.N) : (dat0 V c).after 10 t = out0_10 (iblk0 V c 0 t) (iblk0 V c 5 t) := by dsimp only [dat0]

/-- The same as values: a whole-buffer store leaves its payload, and a whole-buffer load reads the contents, so
    each output block is the body's arithmetic applied to the input blocks. -/
theorem after0_6 (c : Dev nD) (t : Fin cfg0.N) : (dat0 V c).after 6 t = k0_pay7 (iblk0 V c 0 t) (iblk0 V c 1 t) (iblk0 V c 2 t) (iblk0 V c 3 t) (iblk0 V c 4 t) := by
  rw [after0_6_store]; unfold out0_6
  rw [View.canon_unit_zero off_zero]
  simp only [View.ld_unit_zero (S := S256x2048) off_zero, View.ld_unit_zero (S := S256x1024) off_zero,
    View.ld_unit_zero (S := S1024x2048) off_zero, View.ld_unit_zero (S := S1024x1024) off_zero]
theorem after0_7 (c : Dev nD) (t : Fin cfg0.N) : (dat0 V c).after 7 t = k0_pay1 (k0_pay10 (iblk0 V c 0 t) (iblk0 V c 1 t) (iblk0 V c 3 t) (iblk0 V c 4 t)) (k0_pay11 (iblk0 V c 0 t) (iblk0 V c 1 t) (iblk0 V c 3 t) (iblk0 V c 4 t)) := by
  rw [after0_7_store]; unfold out0_7
  rw [View.canon_unit_zero off_zero]
  simp only [View.ld_unit_zero (S := S256x2048) off_zero, View.ld_unit_zero (S := S256x1024) off_zero,
    View.ld_unit_zero (S := S1024x2048) off_zero, View.ld_unit_zero (S := S1024x1024) off_zero]
theorem after0_8 (c : Dev nD) (t : Fin cfg0.N) : (dat0 V c).after 8 t = k0_pay2 (iblk0 V c 1 t) (k0_pay10 (iblk0 V c 0 t) (iblk0 V c 1 t) (iblk0 V c 3 t) (iblk0 V c 4 t)) (k0_pay11 (iblk0 V c 0 t) (iblk0 V c 1 t) (iblk0 V c 3 t) (iblk0 V c 4 t)) := by
  rw [after0_8_store]; unfold out0_8
  rw [View.canon_unit_zero off_zero]
  simp only [View.ld_unit_zero (S := S256x2048) off_zero, View.ld_unit_zero (S := S256x1024) off_zero,
    View.ld_unit_zero (S := S1024x2048) off_zero, View.ld_unit_zero (S := S1024x1024) off_zero]
theorem after0_9 (c : Dev nD) (t : Fin cfg0.N) : (dat0 V c).after 9 t = k0_pay3 (k0_pay9 (iblk0 V c 0 t) (iblk0 V c 5 t)) := by
  rw [after0_9_store]; unfold out0_9
  rw [View.canon_unit_zero off_zero]
  simp only [View.ld_unit_zero (S := S256x2048) off_zero, View.ld_unit_zero (S := S2048x2048) off_zero]
theorem after0_10 (c : Dev nD) (t : Fin cfg0.N) : (dat0 V c).after 10 t = k0_pay4 (k0_pay8 (iblk0 V c 0 t) (iblk0 V c 5 t)) := by
  rw [after0_10_store]; unfold out0_10
  rw [View.canon_unit_zero off_zero]
  simp only [View.ld_unit_zero (S := S256x2048) off_zero, View.ld_unit_zero (S := S2048x2048) off_zero]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation at a generic point -/

/-- What the body is called with at point `t`: the invariant, what is owed, and every window's current staging
    buffer at what it holds before the body; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns: the same with every buffer at what it holds after. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the inputs' buffers hold their blocks, so the body's triple applies with the blocks
    for `x0 … x5`; the invariant and what is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5,
    after0_6_store, after0_7_store, after0_8_store, after0_9_store, after0_10_store]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the region's proof data, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand0

end
-- ==== Proof.IdealRegion1.lean ====
import proofs.«180393_j10222022164698_1_alg».proof.Proof.Gen.KernelIdeal.Launch
import proofs.«180393_j10222022164698_1_alg».proof.Proof.Gen.KernelIdeal.Skeleton
import proofs.«180393_j10222022164698_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: a matrix product accumulated over the innermost grid axis

The grid is `(i, j, kk)` with `kk` innermost, four steps long. The body keeps a running sum in a scratch block that
survives from one grid point to the next: at `kk = 0` it clears the scratch, at every point it adds the product of
the two input blocks (the first transposed) to it, and at `kk = 3` it scales the sum by `2⁻¹³` and stores it into
the output block, which is written back only there. This module states, for every grid point, what the scratch and
the output block hold after the body, and proves the body's separation-logic obligation against those contents, for
arbitrary contents `V` of the arrays when the region is entered. -/

section Region
variable (V : (c : Dev nD) → (b : Ref sig .tc) → Buf (Elt F) ((c : Thread nD τ).loc b))

/-! ## Blocks of the input arrays -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, whether or not it was fetched there (an
    unfetched point has the same block index as the one before), for any proof data over `V` whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the second input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The two branch conditions, in closed form over the linear point index

The innermost coordinate of point `t` is `t mod 4`: the clearing branch is taken iff `t ≡ 0`, the storing branch iff
`t ≡ 3 (mod 4)`. Both are decided by evaluation over the 16 points of the grid. -/

/-- "This is the first step of a sum": the body's first conditional, as it computes it from the coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last step of a sum": the body's second conditional. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are live

The inputs are read at every point. The output block is stored only at the last step of a sum; at the other points
the body leaves its buffer alone and the block is not written back. -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, t.val % 4 ≠ 3 → cfg1.idle 2 (grid1.coords t) = true := by decide +kernel
theorem liveAt1_2 : ∀ t : Fin cfg1.N, t.val % 4 = 3 → cfg1.idle 2 (grid1.coords t) = false := by decide +kernel
theorem noFlush1_2 (t : Fin cfg1.N) (h : t.val % 4 ≠ 3) : (cfg1.win 2).flush t = false := by
  cases hf : (cfg1.win 2).flush t with
  | false => rfl
  | true => exact absurd ((flush1_2 t).mp hf) h

/-! ## The scratch block and the region's invariant -/

/-- The scratch block holding the running sum, as a whole buffer. -/
abbrev scM1_0 : Memref sig .tc .vmem S512x1024 .f32 := Memref.whole cc1_scratch0

/-- What the region is entered with, the scratch block split off the core's other private buffers: the scratch at
    some contents, the remaining private buffers unopened, the generator register at some state. -/
theorem PhiA1_eq (c : Dev nD) :
    (Pipeline.ΦA spec1 c : sProp 𝕄)
      = iprop(iprop(iprop((∃ d, owns (c : Thread nD τ) scM1_0 fullShare d)) ∗ Pipeline.scopedRestBut spec1 c [cc1_scratch0]) ∗ (∃ r, prngReg c r)) := by
  unfold Pipeline.ΦA; rw [scopedRest1_split]; simp only [scM1_0, owns_whole]; try rfl

/-! ## The body, case by case

Every load and store of the body goes through the whole-block rectangle at offset zero, so a load reads the buffer's
contents and a store replaces them. -/

theorem hz2 : (![0, 0] : Fin 2 → ℕ) = fun _ => 0 := by funext a; fin_cases a <;> rfl

/-- A list of stores into the scratch or output block whose last store is a whole-block one covers the block. -/
theorem coverO (p : S512x1024.Idx → Elt F .f32) (L : List (View.Piece (Elt F) S512x1024 .f32)) (y : S512x1024.Idx) :
    ∃ pc ∈ ((⟨Rect.unit (s := S512x1024) ![0, 0] S512x1024.size inb_S512x1024_S512x1024_0_0, p⟩ : View.Piece (Elt F) S512x1024 .f32) :: L), y ∈ pc.1.set :=
  ⟨_, List.mem_cons_self, View.mem_set_unit_zero hz2 inb_S512x1024_S512x1024_0_0 y⟩

set_option maxHeartbeats 1000000 in
/-- FIRST STEP of a sum (`kk = 0`): whatever the scratch held, the body clears it and adds the product of the input
    blocks `x0`, `x1`; the output block's buffer (`xi`) is not touched. -/
theorem run1_A (c : Dev nD) (i : grid1.Coords) (arg3 : Memref sig .tc .vmem S2048x512 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S512x1024 .f32) (harg6 : arg6.IsWhole)
    (hc0 : cond1_0 i) (hc1 : ¬cond1_1 i)
    (x0 : Vec F S2048x512 .f32) (x1 : Vec F S2048x1024 .bf16) (xi : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare xi ∗ (∃ d, owns (c : Thread nD τ) arg6 fullShare d)
        ∗ (iprop(owns (c : Thread nD τ) arg3 fullShare x0 ∗ owns (c : Thread nD τ) arg4 fullShare x1 ∗ owns (c : Thread nD τ) arg5 fullShare xi ∗ owns (c : Thread nD τ) arg6 fullShare (k1_pay2 x0 x1 (k1_pay1 (F := F)))) -∗ K ⟨⟩))
      ⊢ wp frame (wpE (defs₀ (F := F)) Variants.none c none) E (cc1__kernel_b i arg3 harg3 arg4 harg4 arg5 harg5 arg6 harg6) K := by
  simp only [cc1__kernel_b_eq_skeleton]; unfold cc1__kernel_b_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  sl_unfold_words
  rw [View.read_writes_eq_canon _ _ _ (coverO _ _)]
  rw [View.canon_cons_unit_zero hz2]
  rw [View.readCov_unit_zero (S := S512x1024) arg6.view hz2]
  rw [View.readAt_eq_ld, View.readAt_eq_ld, harg3.read_unread, harg4.read_unread, View.ld_unit_zero (S := S2048x512) hz2, View.ld_unit_zero (S := S2048x1024) hz2]

set_option maxHeartbeats 1000000 in
/-- MIDDLE STEP (`kk = 1, 2`): the scratch holds the sum so far (`xs`); the body adds the product of the input blocks
    to it; the output block's buffer is not touched. -/
theorem run1_B (c : Dev nD) (i : grid1.Coords) (arg3 : Memref sig .tc .vmem S2048x512 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S512x1024 .f32) (harg6 : arg6.IsWhole)
    (hc0 : ¬cond1_0 i) (hc1 : ¬cond1_1 i)
    (x0 : Vec F S2048x512 .f32) (x1 : Vec F S2048x1024 .bf16) (xi : Vec F S512x1024 .f32) (xs : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare xi ∗ owns (c : Thread nD τ) arg6 fullShare (k1_pay2 x0 x1 xs)) -∗ K ⟨⟩))
      ⊢ wp frame (wpE (defs₀ (F := F)) Variants.none c none) E (cc1__kernel_b i arg3 harg3 arg4 harg4 arg5 harg5 arg6 harg6) K := by
  simp only [cc1__kernel_b_eq_skeleton]; unfold cc1__kernel_b_skel
  unfold owns
  iintro ⟨⟨%f0, %hf0, H0⟩, ⟨%f1, %hf1, H1⟩, ⟨%f2, %hf2, H2⟩, ⟨%fs0, %hfs0, HS0⟩, Hk⟩
  obtain rfl := harg3.eq_unread hf0; obtain rfl := harg4.eq_unread hf1; obtain rfl := harg5.eq_unread hf2; obtain rfl := harg6.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  sl_unfold_words
  rw [View.read_writes_eq_canon _ _ _ (coverO _ _)]
  rw [View.canon_cons_unit_zero hz2]
  rw [View.readAt_eq_ld, View.readAt_eq_ld, View.readAt_eq_ld, harg3.read_unread, harg4.read_unread, harg6.read_unread, View.ld_unit_zero (S := S2048x512) hz2, View.ld_unit_zero (S := S2048x1024) hz2, View.ld_unit_zero (S := S512x1024) hz2]

set_option maxHeartbeats 1000000 in
/-- LAST STEP (`kk = 3`): the body adds the product of the input blocks to the sum so far (`xs`), then stores the
    scaled sum into the output block, whatever that buffer held. -/
theorem run1_C (c : Dev nD) (i : grid1.Coords) (arg3 : Memref sig .tc .vmem S2048x512 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S512x1024 .f32) (harg6 : arg6.IsWhole)
    (hc0 : ¬cond1_0 i) (hc1 : cond1_1 i)
    (x0 : Vec F S2048x512 .f32) (x1 : Vec F S2048x1024 .bf16) (xs : Vec F S512x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k1_pay3 (k1_pay2 x0 x1 xs)) ∗ owns (c : Thread nD τ) arg6 fullShare (k1_pay2 x0 x1 xs)) -∗ K ⟨⟩))
      ⊢ wp frame (wpE (defs₀ (F := F)) Variants.none c none) E (cc1__kernel_b i arg3 harg3 arg4 harg4 arg5 harg5 arg6 harg6) K := by
  simp only [cc1__kernel_b_eq_skeleton]; unfold cc1__kernel_b_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  have hsum : View.readAt (Elt F) arg6.view (Rect.unit (s := S512x1024) ![0, 0] S512x1024.size inb_S512x1024_S512x1024_0_0).toLoadRect (harg6.unread xs) = xs := by
    rw [View.readAt_eq_ld, harg6.read_unread, View.ld_unit_zero (S := S512x1024) hz2]
  isplitl [H2]
  · iexists _; isplitr
    swap; · iexact H2
    ipureintro
    sl_unfold_words
    rw [View.read_writes_eq_canon _ _ _ (coverO _ _)]
    rw [View.canon_cons_unit_zero hz2]
    rw [View.readCov_unit_zero (S := S512x1024) arg6.view hz2, hsum]
    rw [View.readAt_eq_ld, View.readAt_eq_ld, harg3.read_unread, harg4.read_unread, View.ld_unit_zero (S := S2048x512) hz2, View.ld_unit_zero (S := S2048x1024) hz2]
  iexists _; isplitr
  swap; · iexact HS0
  ipureintro
  sl_unfold_words
  rw [View.read_writes_eq_canon _ _ _ (coverO _ _)]
  rw [View.canon_cons_unit_zero hz2, hsum]
  rw [View.readAt_eq_ld, View.readAt_eq_ld, harg3.read_unread, harg4.read_unread, View.ld_unit_zero (S := S2048x512) hz2, View.ld_unit_zero (S := S2048x1024) hz2]

section Region
variable (V : (c : Dev nD) → (b : Ref sig .tc) → Buf (Elt F) ((c : Thread nD τ).loc b))

/-! ## The running sum, point by point -/

/-- The scratch block after the body at position `n` of the grid: at the first step of a sum the product of the
    point's input blocks added to the cleared block, otherwise added to what the point before left. -/
def accAt1 (c : Dev nD) : (n : ℕ) → n < cfg1.N → Vec F S512x1024 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

/-- The scratch block after grid point `t`. -/
def acc1 (c : Dev nD) (t : Fin cfg1.N) : Vec F S512x1024 .f32 := accAt1 V c t.val t.isLt

theorem accAt1_first (c : Dev nD) (t : Fin cfg1.N) (h0 : t.val % 4 = 0) :
    accAt1 V c t.val t.isLt = k1_pay2 (iblk1 V c 0 t) (iblk1 V c 1 t) (k1_pay1 (F := F)) := by
  obtain ⟨n, hn⟩ := t
  cases n with
  | zero => rfl
  | succ n => exact if_pos h0

theorem accAt1_next (c : Dev nD) (t : Fin cfg1.N) (h0 : t.val % 4 ≠ 0) :
    accAt1 V c t.val t.isLt
      = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- At the first step of a sum the scratch holds the product of the point's blocks added to the cleared block. -/
theorem acc1_first (c : Dev nD) (t : Fin cfg1.N) (h0 : t.val % 4 = 0) :
    acc1 V c t = k1_pay2 (iblk1 V c 0 t) (iblk1 V c 1 t) (k1_pay1 (F := F)) :=
  accAt1_first V c t h0

/-- At a later step, the product added to what the point before left. -/
theorem acc1_next (c : Dev nD) (t : Fin cfg1.N) (h0 : t.val % 4 ≠ 0) :
    acc1 V c t = k1_pay2 (iblk1 V c 0 t) (iblk1 V c 1 t) (acc1 V c ⟨t.val - 1, by omega⟩) :=
  accAt1_next V c t h0

/-! ## The invariant between points -/

/-- Before position `n`: at the region's entry what the launch hands over; afterwards the scratch block at the
    running sum the point before left, the core's other private buffers unopened, the generator register at some
    state. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (accAt1 V c n hn) ∗ Pipeline.scopedRestBut spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (accAt1 V c (n - 1) (by omega)) ∗ Pipeline.scopedRestBut spec1 c [cc1_scratch0]) ∗ (∃ r, prngReg c r)) := by
  cases n with
  | zero => exact absurd rfl hz
  | succ n => rfl

/-! ## The proof data -/

/-- The proof data of the region on core `c`: the arrays as the region finds them; after the body each input's buffer
    at its block and the output's at the scaled running sum (consulted only at the last step of a sum, the only points
    where the output block is stored and written back); the invariant `PhiS1`; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t) := by dsimp only [dat1]

/-- What the output block's buffer holds after a point that writes it back: the scaled running sum. -/
theorem after1_2_flush (c : Dev nD) (t : Fin cfg1.N) (h3 : t.val % 4 = 3) : (dat1 V c).after 2 t = k1_pay3 (acc1 V c t) :=
  after1_2 V c t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; `t mod 4` says which of the three cases the point
    is in; the invariant hands over the scratch block at the running sum so far (at anything, at the region's very
    first point) and takes it back at this point's; at the first and middle steps the output block's buffer is handed
    back as found, at the last step it is left at the scaled sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 16 := lt_of_lt_of_eq t.isLt (show cfg1.N = 16 from N_1)
  by_cases h0 : t.val % 4 = 0
  · have h1 : t.val % 4 ≠ 3 := by omega
    rw [Dat.leavesExact_idle (dat1 V c) 2 t (idleAt1_2 t h1) (noFlush1_2 t h1)]
    rw [accAt1_first V c t h0]
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩⟩
      iapply (run1_A c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hr⟩, Hg⟩, Ho, ⟨%d0, H0⟩, ⟨%d1, H1⟩, ⟨%d2, H2⟩⟩
      iapply (run1_A c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
  · have hz : t.val ≠ 0 := fun e => h0 (by rw [e])
    rw [accAt1_next V c t h0]
    rw [PhiS1_castSucc V c t, PhiS1_pos V c _ _ hz]
    by_cases h1 : t.val % 4 = 3
    · rw [show (dat1 V c).leavesExact 2 t = owns (c : Thread nD τ) (st1_2 t) fullShare ((dat1 V c).after 2 t) from by
        unfold Dat.leavesExact; rw [liveAt1_2 t h1], after1_2]
      unfold acc1
      rw [accAt1_next V c t h0]
      iintro ⟨⟨⟨HS0, Hr⟩, Hg⟩, Ho, ⟨%d0, H0⟩, ⟨%d1, H1⟩, ⟨%d2, H2⟩⟩
      iapply (run1_C c (grid1.coords t) _ _ _ _ _ _ _ _ (fun h => h0 ((hcond1_0 t).mp h)) ((hcond1_1 t).mpr h1) (iblk1 V c 0 t) (iblk1 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexact H2
    · rw [Dat.leavesExact_idle (dat1 V c) 2 t (idleAt1_2 t h1) (noFlush1_2 t h1)]
      iintro ⟨⟨⟨HS0, Hr⟩, Hg⟩, Ho, ⟨%d0, H0⟩, ⟨%d1, H1⟩, ⟨%d2, H2⟩⟩
      iapply (run1_B c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Region

end Cert.KernelIdeal.Hand1

end
-- ==== Proof.IdealRegion2.lean ====
import proofs.«180393_j10222022164698_1_alg».proof.Proof.Gen.KernelIdeal.Launch
import proofs.«180393_j10222022164698_1_alg».proof.Proof.Gen.KernelIdeal.Skeleton
import proofs.«180393_j10222022164698_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: a matrix product accumulated over the innermost grid axis

The grid is `(i, j, kk)` with `kk` innermost, four steps long. The body keeps a running sum in a scratch block that
survives from one grid point to the next: at `kk = 0` it clears the scratch, at every point it adds the product of
the two input blocks (the first transposed) to it, and at `kk = 3` it scales the sum by `2⁻¹³` and stores it into
the output block, which is written back only there. This module states, for every grid point, what the scratch and
the output block hold after the body, and proves the body's separation-logic obligation against those contents, for
arbitrary contents `V` of the arrays when the region is entered. -/

section Region
variable (V : (c : Dev nD) → (b : Ref sig .tc) → Buf (Elt F) ((c : Thread nD τ).loc b))

/-! ## Blocks of the input arrays -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point, whether or not it was fetched there (an
    unfetched point has the same block index as the one before), for any proof data over `V` whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the second input. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Region

/-! ## The two branch conditions, in closed form over the linear point index

The innermost coordinate of point `t` is `t mod 4`: the clearing branch is taken iff `t ≡ 0`, the storing branch iff
`t ≡ 3 (mod 4)`. Both are decided by evaluation over the 64 points of the grid. -/

/-- "This is the first step of a sum": the body's first conditional, as it computes it from the coordinates. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "This is the last step of a sum": the body's second conditional. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are live

The inputs are read at every point. The output block is stored only at the last step of a sum; at the other points
the body leaves its buffer alone and the block is not written back. -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, t.val % 4 ≠ 3 → cfg2.idle 2 (grid2.coords t) = true := by decide +kernel
theorem liveAt2_2 : ∀ t : Fin cfg2.N, t.val % 4 = 3 → cfg2.idle 2 (grid2.coords t) = false := by decide +kernel
theorem noFlush2_2 (t : Fin cfg2.N) (h : t.val % 4 ≠ 3) : (cfg2.win 2).flush t = false := by
  cases hf : (cfg2.win 2).flush t with
  | false => rfl
  | true => exact absurd ((flush2_2 t).mp hf) h

/-! ## The scratch block and the region's invariant -/

/-- The scratch block holding the running sum, as a whole buffer. -/
abbrev scM2_0 : Memref sig .tc .vmem S512x512 .f32 := Memref.whole cc2_scratch0

/-- What the region is entered with, the scratch block split off the core's other private buffers: the scratch at
    some contents, the remaining private buffers unopened, the generator register at some state. -/
theorem PhiA2_eq (c : Dev nD) :
    (Pipeline.ΦA spec2 c : sProp 𝕄)
      = iprop(iprop(iprop((∃ d, owns (c : Thread nD τ) scM2_0 fullShare d)) ∗ Pipeline.scopedRestBut spec2 c [cc2_scratch0]) ∗ (∃ r, prngReg c r)) := by
  unfold Pipeline.ΦA; rw [scopedRest2_split]; simp only [scM2_0, owns_whole]; try rfl

/-! ## The body, case by case

Every load and store of the body goes through the whole-block rectangle at offset zero, so a load reads the buffer's
contents and a store replaces them. -/

theorem hz2 : (![0, 0] : Fin 2 → ℕ) = fun _ => 0 := by funext a; fin_cases a <;> rfl

/-- A list of stores into the scratch or output block whose last store is a whole-block one covers the block. -/
theorem coverO (p : S512x512.Idx → Elt F .f32) (L : List (View.Piece (Elt F) S512x512 .f32)) (y : S512x512.Idx) :
    ∃ pc ∈ ((⟨Rect.unit (s := S512x512) ![0, 0] S512x512.size inb_S512x512_S512x512_0_0, p⟩ : View.Piece (Elt F) S512x512 .f32) :: L), y ∈ pc.1.set :=
  ⟨_, List.mem_cons_self, View.mem_set_unit_zero hz2 inb_S512x512_S512x512_0_0 y⟩

set_option maxHeartbeats 1000000 in
/-- FIRST STEP of a sum (`kk = 0`): whatever the scratch held, the body clears it and adds the product of the input
    blocks `x0`, `x1`; the output block's buffer (`xi`) is not touched. -/
theorem run2_A (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S512x512 .f32) (harg5 : arg5.IsWhole) (arg6 : Memref sig .tc .vmem S512x512 .f32) (harg6 : arg6.IsWhole)
    (hc0 : cond2_0 i) (hc1 : ¬cond2_1 i)
    (x0 : Vec F S2048x512 .bf16) (x1 : Vec F S2048x512 .bf16) (xi : Vec F S512x512 .f32) (E : Set ℕ) (K : PUnit → sProp 𝕄) :
    iprop(owns (c : Thread nD τ) arg3 fullShare x0 ∗ owns (c : Thread nD τ) arg4 fullShare x1 ∗ owns (c : Thread nD τ) arg5 fullShare xi ∗ (∃ d, owns (c : Thread nD τ) arg6 fullShare d)
        ∗ (iprop(owns (c : Thread nD τ) arg3 fullShare x0 ∗ owns (c : Thread nD τ) arg4 fullShare x1 ∗ owns (c : Thread nD τ) arg5 fullShare xi ∗ owns (c : Thread nD τ) arg6 fullShare (k2_pay2 x0 x1 (k2_pay1 (F := F)))) -∗ K ⟨⟩))
      ⊢ wp frame (wpE (defs₀ (F := F)) Variants.none c none) E (cc2__kernel_c i arg3 harg3 arg4 harg4 arg5 harg5 arg6 harg6) K := by
  simp only [cc2__kernel_c_eq_skeleton]; unfold cc2__kernel_c_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  sl_unfold_words
  rw [View.read_writes_eq_canon _ _ _ (coverO _ _)]
  rw [View.canon_cons_unit_zero hz2]
  rw [View.readCov_unit_zero (S := S512x512) arg6.view hz2]
  rw [View.readAt_eq_ld, View.readAt_eq_ld, harg3.read_unread, harg4.read_unread, View.ld_unit_zero (S := S2048x512) hz2, View.ld_unit_zero (S := S2048x512) hz2]

set_option maxHeartbeats 1000000 in
/-- MIDDLE STEP (`kk = 1, 2`): the scratch holds the sum so far (`xs`); the body adds the product of the input blocks
    to it; the output block's buffer is not touched. -/
theorem run2_B (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S512x512 .f32) (harg5 : arg5.IsWhole) (arg6 : Memref sig .tc .vmem S512x512 .f32) (harg6 : arg6.IsWhole)
    (hc0 : ¬cond2_0 i) (hc1 : ¬cond2_1 i)
    (x0 : Vec F S2048x512 .bf16) (x1 : Vec F S2048x512 .bf16) (xi : Vec F S512x512 .f32) (xs : Vec F S512x512 .f32) (E : Set ℕ) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare xi ∗ owns (c : Thread nD τ) arg6 fullShare (k2_pay2 x0 x1 xs)) -∗ K ⟨⟩))
      ⊢ wp frame (wpE (defs₀ (F := F)) Variants.none c none) E (cc2__kernel_c i arg3 harg3 arg4 harg4 arg5 harg5 arg6 harg6) K := by
  simp only [cc2__kernel_c_eq_skeleton]; unfold cc2__kernel_c_skel
  unfold owns
  iintro ⟨⟨%f0, %hf0, H0⟩, ⟨%f1, %hf1, H1⟩, ⟨%f2, %hf2, H2⟩, ⟨%fs0, %hfs0, HS0⟩, Hk⟩
  obtain rfl := harg3.eq_unread hf0; obtain rfl := harg4.eq_unread hf1; obtain rfl := harg5.eq_unread hf2; obtain rfl := harg6.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  sl_unfold_words
  rw [View.read_writes_eq_canon _ _ _ (coverO _ _)]
  rw [View.canon_cons_unit_zero hz2]
  rw [View.readAt_eq_ld, View.readAt_eq_ld, View.readAt_eq_ld, harg3.read_unread, harg4.read_unread, harg6.read_unread, View.ld_unit_zero (S := S2048x512) hz2, View.ld_unit_zero (S := S2048x512) hz2, View.ld_unit_zero (S := S512x512) hz2]

set_option maxHeartbeats 1000000 in
/-- LAST STEP (`kk = 3`): the body adds the product of the input blocks to the sum so far (`xs`), then stores the
    scaled sum into the output block, whatever that buffer held. -/
theorem run2_C (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S512x512 .f32) (harg5 : arg5.IsWhole) (arg6 : Memref sig .tc .vmem S512x512 .f32) (harg6 : arg6.IsWhole)
    (hc0 : ¬cond2_0 i) (hc1 : cond2_1 i)
    (x0 : Vec F S2048x512 .bf16) (x1 : Vec F S2048x512 .bf16) (xs : Vec F S512x512 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k2_pay3 (k2_pay2 x0 x1 xs)) ∗ owns (c : Thread nD τ) arg6 fullShare (k2_pay2 x0 x1 xs)) -∗ K ⟨⟩))
      ⊢ wp frame (wpE (defs₀ (F := F)) Variants.none c none) E (cc2__kernel_c i arg3 harg3 arg4 harg4 arg5 harg5 arg6 harg6) K := by
  simp only [cc2__kernel_c_eq_skeleton]; unfold cc2__kernel_c_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  have hsum : View.readAt (Elt F) arg6.view (Rect.unit (s := S512x512) ![0, 0] S512x512.size inb_S512x512_S512x512_0_0).toLoadRect (harg6.unread xs) = xs := by
    rw [View.readAt_eq_ld, harg6.read_unread, View.ld_unit_zero (S := S512x512) hz2]
  isplitl [H2]
  · iexists _; isplitr
    swap; · iexact H2
    ipureintro
    sl_unfold_words
    rw [View.read_writes_eq_canon _ _ _ (coverO _ _)]
    rw [View.canon_cons_unit_zero hz2]
    rw [View.readCov_unit_zero (S := S512x512) arg6.view hz2, hsum]
    rw [View.readAt_eq_ld, View.readAt_eq_ld, harg3.read_unread, harg4.read_unread, View.ld_unit_zero (S := S2048x512) hz2, View.ld_unit_zero (S := S2048x512) hz2]
  iexists _; isplitr
  swap; · iexact HS0
  ipureintro
  sl_unfold_words
  rw [View.read_writes_eq_canon _ _ _ (coverO _ _)]
  rw [View.canon_cons_unit_zero hz2, hsum]
  rw [View.readAt_eq_ld, View.readAt_eq_ld, harg3.read_unread, harg4.read_unread, View.ld_unit_zero (S := S2048x512) hz2, View.ld_unit_zero (S := S2048x512) hz2]

section Region
variable (V : (c : Dev nD) → (b : Ref sig .tc) → Buf (Elt F) ((c : Thread nD τ).loc b))

/-! ## The running sum, point by point -/

/-- The scratch block after the body at position `n` of the grid: at the first step of a sum the product of the
    point's input blocks added to the cleared block, otherwise added to what the point before left. -/
def accAt2 (c : Dev nD) : (n : ℕ) → n < cfg2.N → Vec F S512x512 .f32
  | 0, hn => k2_pay2 (iblk2 V c 0 ⟨0, hn⟩) (iblk2 V c 1 ⟨0, hn⟩) (k2_pay1 (F := F))
  | n + 1, hn =>
    if (n + 1) % 4 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (accAt2 c n (Nat.lt_of_succ_lt hn))

/-- The scratch block after grid point `t`. -/
def acc2 (c : Dev nD) (t : Fin cfg2.N) : Vec F S512x512 .f32 := accAt2 V c t.val t.isLt

theorem accAt2_first (c : Dev nD) (t : Fin cfg2.N) (h0 : t.val % 4 = 0) :
    accAt2 V c t.val t.isLt = k2_pay2 (iblk2 V c 0 t) (iblk2 V c 1 t) (k2_pay1 (F := F)) := by
  obtain ⟨n, hn⟩ := t
  cases n with
  | zero => rfl
  | succ n => exact if_pos h0

theorem accAt2_next (c : Dev nD) (t : Fin cfg2.N) (h0 : t.val % 4 ≠ 0) :
    accAt2 V c t.val t.isLt
      = k2_pay2 (iblk2 V c 0 t) (iblk2 V c 1 t) (accAt2 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- At the first step of a sum the scratch holds the product of the point's blocks added to the cleared block. -/
theorem acc2_first (c : Dev nD) (t : Fin cfg2.N) (h0 : t.val % 4 = 0) :
    acc2 V c t = k2_pay2 (iblk2 V c 0 t) (iblk2 V c 1 t) (k2_pay1 (F := F)) :=
  accAt2_first V c t h0

/-- At a later step, the product added to what the point before left. -/
theorem acc2_next (c : Dev nD) (t : Fin cfg2.N) (h0 : t.val % 4 ≠ 0) :
    acc2 V c t = k2_pay2 (iblk2 V c 0 t) (iblk2 V c 1 t) (acc2 V c ⟨t.val - 1, by omega⟩) :=
  accAt2_next V c t h0

/-! ## The invariant between points -/

/-- Before position `n`: at the region's entry what the launch hands over; afterwards the scratch block at the
    running sum the point before left, the core's other private buffers unopened, the generator register at some
    state. -/
def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ Pipeline.scopedRestBut spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (accAt2 V c n hn) ∗ Pipeline.scopedRestBut spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (accAt2 V c (n - 1) (by omega)) ∗ Pipeline.scopedRestBut spec2 c [cc2_scratch0]) ∗ (∃ r, prngReg c r)) := by
  cases n with
  | zero => exact absurd rfl hz
  | succ n => rfl

/-! ## The proof data -/

/-- The proof data of the region on core `c`: the arrays as the region finds them; after the body each input's buffer
    at its block and the output's at the scaled running sum (consulted only at the last step of a sum, the only points
    where the output block is stored and written back); the invariant `PhiS2`; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (acc2 V c t) := by dsimp only [dat2]

/-- What the output block's buffer holds after a point that writes it back: the scaled running sum. -/
theorem after2_2_flush (c : Dev nD) (t : Fin cfg2.N) (h3 : t.val % 4 = 3) : (dat2 V c).after 2 t = k2_pay3 (acc2 V c t) :=
  after2_2 V c t

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' buffers hold their blocks; `t mod 4` says which of the three cases the point
    is in; the invariant hands over the scratch block at the running sum so far (at anything, at the region's very
    first point) and takes it back at this point's; at the first and middle steps the output block's buffer is handed
    back as found, at the last step it is left at the scaled sum. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 64 := lt_of_lt_of_eq t.isLt (show cfg2.N = 64 from N_2)
  by_cases h0 : t.val % 4 = 0
  · have h1 : t.val % 4 ≠ 3 := by omega
    rw [Dat.leavesExact_idle (dat2 V c) 2 t (idleAt2_2 t h1) (noFlush2_2 t h1)]
    rw [accAt2_first V c t h0]
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩⟩
      iapply (run2_A c (grid2.coords t) _ _ _ _ _ _ _ _ ((hcond2_0 t).mpr h0) (fun h => h1 ((hcond2_1 t).mp h)) (iblk2 V c 0 t) (iblk2 V c 1 t) _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, Hr⟩, Hg⟩, Ho, ⟨%d0, H0⟩, ⟨%d1, H1⟩, ⟨%d2, H2⟩⟩
      iapply (run2_A c (grid2.coords t) _ _ _ _ _ _ _ _ ((hcond2_0 t).mpr h0) (fun h => h1 ((hcond2_1 t).mp h)) (iblk2 V c 0 t) (iblk2 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
  · have hz : t.val ≠ 0 := fun e => h0 (by rw [e])
    rw [accAt2_next V c t h0]
    rw [PhiS2_castSucc V c t, PhiS2_pos V c _ _ hz]
    by_cases h1 : t.val % 4 = 3
    · rw [show (dat2 V c).leavesExact 2 t = owns (c : Thread nD τ) (st2_2 t) fullShare ((dat2 V c).after 2 t) from by
        unfold Dat.leavesExact; rw [liveAt2_2 t h1], after2_2]
      unfold acc2
      rw [accAt2_next V c t h0]
      iintro ⟨⟨⟨HS0, Hr⟩, Hg⟩, Ho, ⟨%d0, H0⟩, ⟨%d1, H1⟩, ⟨%d2, H2⟩⟩
      iapply (run2_C c (grid2.coords t) _ _ _ _ _ _ _ _ (fun h => h0 ((hcond2_0 t).mp h)) ((hcond2_1 t).mpr h1) (iblk2 V c 0 t) (iblk2 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexact H2
    · rw [Dat.leavesExact_idle (dat2 V c) 2 t (idleAt2_2 t h1) (noFlush2_2 t h1)]
      iintro ⟨⟨⟨HS0, Hr⟩, Hg⟩, Ho, ⟨%d0, H0⟩, ⟨%d1, H1⟩, ⟨%d2, H2⟩⟩
      iapply (run2_B c (grid2.coords t) _ _ _ _ _ _ _ _ (fun h => h0 ((hcond2_0 t).mp h)) (fun h => h1 ((hcond2_1 t).mp h)) (iblk2 V c 0 t) (iblk2 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

/-- The body obligation of the region, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: the scratch's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Region

end Cert.KernelIdeal.Hand2

end
-- ==== Proof.IdealRun.lean ====
/-
  The run of the whole entry function, for any float instance: three conversions, three kernel regions, two subtractions.
  Between two items a core holds every unscoped buffer at a known valuation — the launch contents carried through each
  item in turn: a conversion or subtraction applies its operation, a region overwrites its output arrays with what its
  grid points wrote back and leaves every other buffer alone. Each region is entered with the generator register and
  nothing owed, and hands both back. From the run: the six argument arrays end as launched (no item writes one), and
  each result array is named as a function of the regions' final arrays.
-/
import proofs.«180393_j10222022164698_1_alg».proof.Proof.Gen.KernelIdeal.Launch
import proofs.«180393_j10222022164698_1_alg».proof.Proof.Gen.KernelIdeal.Skeleton
import proofs.«180393_j10222022164698_1_alg».proof.Proof.Gen.KernelIdeal.Points
import proofs.«180393_j10222022164698_1_alg».proof.Proof.IdealRegion0
import proofs.«180393_j10222022164698_1_alg».proof.Proof.IdealRegion1
import proofs.«180393_j10222022164698_1_alg».proof.Proof.IdealRegion2
import proofs.«180393_j10222022164698_1_alg».proof.Proof.Gen.KernelIdeal.Regions
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of the entry function -/

/-- A valuation of every buffer read at the TensorCore's references. -/
abbrev Vt (W : Dev nD → Valuation τ sig (Elt F)) : (c : Dev nD) → (b : Ref sig .tc) → Buf (Elt F) ((c : Thread nD τ).loc b) := fun c b => W c b

/-- At launch. -/
abbrev W0 : Dev nD → Valuation τ sig (Elt F) := fun c b => (s₀ m ρ).mem ((c : Dev nD), b)
/-- After the three conversions that precede the first region. -/
abbrev W1 : Dev nD → Valuation τ sig (Elt F) := fun c => StableHlo.after hostOps0 (W0 m ρ c)

/-- The buffers when region 0 is left: its windows' arrays at what the write-backs leave, every other buffer as entered. -/
def W2 (c : Dev nD) : Valuation τ sig (Elt F) :=
  Pipeline.withArrays spec0 c (W1 m ρ c) fun w => (Hand0.dat0 (Vt (W1 m ρ)) c).arrAt w cfg0.N
theorem W2_arr (c : Dev nD) (w : Fin cfg0.W) :
    W2 m ρ c (Proc.devRef .tc (Pipeline.arrRef spec0 w)) = (Hand0.dat0 (Vt (W1 m ρ)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (Hand0.dat0 (Vt (W1 m ρ)) c).arrAt w cfg0.N = Vt (W2 m ρ) c (Pipeline.arrRef spec0 w) :=
  (W2_arr m ρ c w).symm
theorem hrest0 (c : Dev nD) : ∀ b, b ∉ Finset.univ.image (Pipeline.arrRef spec0) → Vt (W2 m ρ) c b = Vt (W1 m ρ) c b :=
  fun b hb => W2_of_ne m ρ c b fun w e => hb (Finset.mem_image.mpr ⟨w, Finset.mem_univ _, e⟩)

/-- The buffers when region 1 is left: its windows' arrays at what the write-backs leave, every other buffer as entered. -/
def W3 (c : Dev nD) : Valuation τ sig (Elt F) :=
  Pipeline.withArrays spec1 c (W2 m ρ c) fun w => (Hand1.dat1 (Vt (W2 m ρ)) c).arrAt w cfg1.N
theorem W3_arr (c : Dev nD) (w : Fin cfg1.W) :
    W3 m ρ c (Proc.devRef .tc (Pipeline.arrRef spec1 w)) = (Hand1.dat1 (Vt (W2 m ρ)) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem hF1 (c : Dev nD) (w : Fin cfg1.W) : (Hand1.dat1 (Vt (W2 m ρ)) c).arrAt w cfg1.N = Vt (W3 m ρ) c (Pipeline.arrRef spec1 w) :=
  (W3_arr m ρ c w).symm
theorem hrest1 (c : Dev nD) : ∀ b, b ∉ Finset.univ.image (Pipeline.arrRef spec1) → Vt (W3 m ρ) c b = Vt (W2 m ρ) c b :=
  fun b hb => W3_of_ne m ρ c b fun w e => hb (Finset.mem_image.mpr ⟨w, Finset.mem_univ _, e⟩)

/-- The buffers when region 2 is left: its windows' arrays at what the write-backs leave, every other buffer as entered. -/
def W4 (c : Dev nD) : Valuation τ sig (Elt F) :=
  Pipeline.withArrays spec2 c (W3 m ρ c) fun w => (Hand2.dat2 (Vt (W3 m ρ)) c).arrAt w cfg2.N
theorem W4_arr (c : Dev nD) (w : Fin cfg2.W) :
    W4 m ρ c (Proc.devRef .tc (Pipeline.arrRef spec2 w)) = (Hand2.dat2 (Vt (W3 m ρ)) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem hF2 (c : Dev nD) (w : Fin cfg2.W) : (Hand2.dat2 (Vt (W3 m ρ)) c).arrAt w cfg2.N = Vt (W4 m ρ) c (Pipeline.arrRef spec2 w) :=
  (W4_arr m ρ c w).symm
theorem hrest2 (c : Dev nD) : ∀ b, b ∉ Finset.univ.image (Pipeline.arrRef spec2) → Vt (W4 m ρ) c b = Vt (W3 m ρ) c b :=
  fun b hb => W4_of_ne m ρ c b fun w e => hb (Finset.mem_image.mpr ⟨w, Finset.mem_univ _, e⟩)

/-- After the two subtractions that follow the last region. -/
abbrev W5 : Dev nD → Valuation τ sig (Elt F) := fun c => StableHlo.after hostOps3 (W4 m ρ c)

/-! ## The proof data of the three regions, and what rides beside the buffers -/

abbrev adm : (p : Fin 3) → (pcfgs (F := F) p).Adm := fun p => (cfgs p).toPCfg_adm
/-- Each region's proof data at the contents it is entered with. -/
def pdats : (p : Fin 3) → (c : Dev nD) → Dat τ (Elt F) Unit ℕ (UR sig nD τ) ℕ (Pipeline.pin (pcfgs (F := F)) adm p) c
  | ⟨0, _⟩ => fun c => Hand0.dat0 (Vt (W1 m ρ)) c
  | ⟨1, _⟩ => fun c => Hand1.dat1 (Vt (W2 m ρ)) c
  | ⟨2, _⟩ => fun c => Hand2.dat2 (Vt (W3 m ρ)) c
abbrev 𝒱₀ : Variants := Variants.none
abbrev L : GSem nD τ sig → Finset Unit := fun _ => ∅
abbrev lv : GSem nD τ sig → Unit → ℕ := fun _ _ => 0
/-- Beside the buffers a core carries its generator register, at some state, and owes nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without what is owed: every unscoped buffer at `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 as a segment: entered with every unscoped buffer at `W1`, left with them at `W2`. Its windows'
    arrays are split out of the unscoped buffers on entry and put back, at what the write-backs leave, on exit; the
    generator register passes through the region's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Hand0.body_obligation0 (Vt (W1 m ρ)) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vt (W1 m ρ) c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt (W1 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact key
  hout c := by
    rw [Pipeline.ownSems0_none]
    have key : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact key
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt (W1 m ρ) c) (Vt (W2 m ρ) c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W2`, left with them at `W3`. Its windows'
    arrays are split out of the unscoped buffers on entry and put back, at what the write-backs leave, on exit; the
    generator register passes through the region's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Hand1.body_obligation1 (Vt (W2 m ρ)) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vt (W2 m ρ) c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt (W2 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact key.trans (Hand1.hin1 (Vt (W2 m ρ)) c)
  hout c := by
    rw [Pipeline.ownSems0_none]
    have key : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (Hand1.hout1 (Vt (W2 m ρ)) c).trans key
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt (W2 m ρ) c) (Vt (W3 m ρ) c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W3`, left with them at `W4`. Its windows'
    arrays are split out of the unscoped buffers on entry and put back, at what the write-backs leave, on exit; the
    generator register passes through the region's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Hand2.body_obligation2 (Vt (W3 m ρ)) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (Vt (W3 m ρ) c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vt (W3 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : iprop((∃ r, prngReg c r) ∗ Pipeline.prefHeld (pcfgs (F := F) 2).pre c (fun _ => fullShare) (adm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact key.trans (Hand2.hin2 (Vt (W3 m ρ)) c)
  hout c := by
    rw [Pipeline.ownSems0_none]
    have key : (Pipeline.ΦA spec2 c : sProp 𝕄) ⊢ iprop((∃ r, prngReg c r) ∗ emp ∗ Pipeline.scopedRest spec2 c) := by
      unfold Pipeline.ΦA
      iintro ⟨Hr, Hp⟩
      isplitl [Hp]; · iexact Hp
      isplitr; · iempintro
      iexact Hr
    exact (Hand2.hout2 (Vt (W3 m ρ)) c).trans key
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vt (W3 m ρ) c) (Vt (W4 m ρ) c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

set_option backward.isDefEq.respectTransparency.types false in
/-- THE RUN. From any memory with zero counters every weakly fair execution of the entry function terminates without a
    fault, and in the final memory every unscoped buffer of every core holds what the fold `W5` says: the launch contents
    carried through the three conversions, the three regions' write-backs and the two subtractions. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Run

namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The arguments end as launched -/

/-- Argument 0 reaches the end as launched: no conversion or subtraction writes it and no region writes it back. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((Hand0.dat0 (Vt (W1 m ρ)) c).arrAt_in 0 rfl _).trans (Hand0.A_eq0 (Vt (W1 m ρ)) c 0))
    _ = W0 m ρ c (Proc.devRef .tc main_arg0) := StableHlo.after_of_writes_sub hostOps0 _ hostOps0_writes (by decide)
    _ = m ((c : Thread nD τ).loc main_arg0) := rfl

/-- Argument 1 reaches the end as launched: no conversion or subtraction writes it and no region writes it back. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 1).trans (((Hand0.dat0 (Vt (W1 m ρ)) c).arrAt_in 1 rfl _).trans (Hand0.A_eq0 (Vt (W1 m ρ)) c 1))
    _ = W0 m ρ c (Proc.devRef .tc main_arg1) := StableHlo.after_of_writes_sub hostOps0 _ hostOps0_writes (by decide)
    _ = m ((c : Thread nD τ).loc main_arg1) := rfl

/-- Argument 2 reaches the end as launched: no conversion or subtraction writes it and no region writes it back. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 2).trans (((Hand0.dat0 (Vt (W1 m ρ)) c).arrAt_in 2 rfl _).trans (Hand0.A_eq0 (Vt (W1 m ρ)) c 2))
    _ = W0 m ρ c (Proc.devRef .tc main_arg2) := StableHlo.after_of_writes_sub hostOps0 _ hostOps0_writes (by decide)
    _ = m ((c : Thread nD τ).loc main_arg2) := rfl

/-- Argument 3 reaches the end as launched: no conversion or subtraction writes it and no region writes it back. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps3 _ hostOps3_writes (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- Argument 4 reaches the end as launched: no conversion or subtraction writes it and no region writes it back. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps3 _ hostOps3_writes (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- Argument 5 reaches the end as launched: no conversion or subtraction writes it and no region writes it back. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps3 _ hostOps3_writes (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- THE FRAME: every weakly fair execution terminates without a fault and leaves the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c)⟩) (run_all m ρ)

end Cert.KernelIdeal.Run

namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## What each region is entered with, and what the results end holding -/

/-- Region 0 finds the three batch arrays as launched … -/
theorem W1_main_arg0 (c : Dev nD) : W1 m ρ c (Proc.devRef .tc main_arg0) = m ((c : Thread nD τ).loc main_arg0) :=
  StableHlo.after_of_writes_sub hostOps0 _ hostOps0_writes (by decide)
theorem W1_main_arg1 (c : Dev nD) : W1 m ρ c (Proc.devRef .tc main_arg1) = m ((c : Thread nD τ).loc main_arg1) :=
  StableHlo.after_of_writes_sub hostOps0 _ hostOps0_writes (by decide)
theorem W1_main_arg2 (c : Dev nD) : W1 m ρ c (Proc.devRef .tc main_arg2) = m ((c : Thread nD τ).loc main_arg2) :=
  StableHlo.after_of_writes_sub hostOps0 _ hostOps0_writes (by decide)
/-- … and the three weight matrices converted to the narrow format. -/
theorem W1_main_v0 (c : Dev nD) : (W1 m ρ c (Proc.devRef .tc main_v0) : S1024x2048.Idx → Elt F .bf16)
    = truncf .bf16 (m ((c : Thread nD τ).loc main_arg4)) bitsLt_bf16_f32 := by
  dsimp only [W1, hostOps0]; after_results
theorem W1_main_v1 (c : Dev nD) : (W1 m ρ c (Proc.devRef .tc main_v1) : S1024x1024.Idx → Elt F .bf16)
    = truncf .bf16 (m ((c : Thread nD τ).loc main_arg5)) bitsLt_bf16_f32 := by
  dsimp only [W1, hostOps0]; after_results
theorem W1_main_v2 (c : Dev nD) : (W1 m ρ c (Proc.devRef .tc main_v2) : S2048x2048.Idx → Elt F .bf16)
    = truncf .bf16 (m ((c : Thread nD τ).loc main_arg3)) bitsLt_bf16_f32 := by
  dsimp only [W1, hostOps0]; after_results

/-- Region 1 finds the error array and the gain array as region 0 left them. -/
theorem W2_main_v3_0 (c : Dev nD) : W2 m ρ c (Proc.devRef .tc main_v3_0) = (Hand0.dat0 (Vt (W1 m ρ)) c).arrAt 6 cfg0.N := W2_arr m ρ c 6
theorem W2_main_v3_3 (c : Dev nD) : W2 m ρ c (Proc.devRef .tc main_v3_3) = (Hand0.dat0 (Vt (W1 m ρ)) c).arrAt 9 cfg0.N := W2_arr m ρ c 9
/-- Region 2 finds the gain array and the unnormalised gain array as region 0 left them (region 1 only reads the first). -/
theorem W3_main_v3_3 (c : Dev nD) : W3 m ρ c (Proc.devRef .tc main_v3_3) = (Hand0.dat0 (Vt (W1 m ρ)) c).arrAt 9 cfg0.N :=
  ((W3_arr m ρ c 1).trans (((Hand1.dat1 (Vt (W2 m ρ)) c).arrAt_in 1 rfl _).trans (Hand1.A_eq1 (Vt (W2 m ρ)) c 1))).trans (W2_main_v3_3 m ρ c)
theorem W3_main_v3_4 (c : Dev nD) : W3 m ρ c (Proc.devRef .tc main_v3_4) = (Hand0.dat0 (Vt (W1 m ρ)) c).arrAt 10 cfg0.N :=
  (W3_of_ne m ρ c main_v3_4 (by decide)).trans (W2_arr m ρ c 10)

/-- The first three results are region 0's error, rate and state arrays: no later item writes them. -/
theorem W5_main_v3_0 (c : Dev nD) : W5 m ρ c (Proc.devRef .tc main_v3_0) = (Hand0.dat0 (Vt (W1 m ρ)) c).arrAt 6 cfg0.N :=
  calc W5 m ρ c (Proc.devRef .tc main_v3_0)
    _ = W4 m ρ c (Proc.devRef .tc main_v3_0) := StableHlo.after_of_writes_sub hostOps3 _ hostOps3_writes (by decide)
    _ = W3 m ρ c (Proc.devRef .tc main_v3_0) := W4_of_ne m ρ c main_v3_0 (by decide)
    _ = W2 m ρ c (Proc.devRef .tc main_v3_0) := (W3_arr m ρ c 0).trans (((Hand1.dat1 (Vt (W2 m ρ)) c).arrAt_in 0 rfl _).trans (Hand1.A_eq1 (Vt (W2 m ρ)) c 0))
    _ = _ := W2_main_v3_0 m ρ c
theorem W5_main_v3_1 (c : Dev nD) : W5 m ρ c (Proc.devRef .tc main_v3_1) = (Hand0.dat0 (Vt (W1 m ρ)) c).arrAt 7 cfg0.N :=
  calc W5 m ρ c (Proc.devRef .tc main_v3_1)
    _ = W4 m ρ c (Proc.devRef .tc main_v3_1) := StableHlo.after_of_writes_sub hostOps3 _ hostOps3_writes (by decide)
    _ = W3 m ρ c (Proc.devRef .tc main_v3_1) := W4_of_ne m ρ c main_v3_1 (by decide)
    _ = W2 m ρ c (Proc.devRef .tc main_v3_1) := W3_of_ne m ρ c main_v3_1 (by decide)
    _ = _ := W2_arr m ρ c 7
theorem W5_main_v3_2 (c : Dev nD) : W5 m ρ c (Proc.devRef .tc main_v3_2) = (Hand0.dat0 (Vt (W1 m ρ)) c).arrAt 8 cfg0.N :=
  calc W5 m ρ c (Proc.devRef .tc main_v3_2)
    _ = W4 m ρ c (Proc.devRef .tc main_v3_2) := StableHlo.after_of_writes_sub hostOps3 _ hostOps3_writes (by decide)
    _ = W3 m ρ c (Proc.devRef .tc main_v3_2) := W4_of_ne m ρ c main_v3_2 (by decide)
    _ = W2 m ρ c (Proc.devRef .tc main_v3_2) := W3_of_ne m ρ c main_v3_2 (by decide)
    _ = _ := W2_arr m ρ c 8

theorem W4_main_arg4 (c : Dev nD) : W4 m ρ c (Proc.devRef .tc main_arg4) = m ((c : Thread nD τ).loc main_arg4) :=
  ((W4_of_ne m ρ c main_arg4 (by decide)).trans ((W3_of_ne m ρ c main_arg4 (by decide)).trans ((W2_of_ne m ρ c main_arg4 (by decide)).trans
    (StableHlo.after_of_writes_sub hostOps0 _ hostOps0_writes (by decide)))))
theorem W4_main_arg3 (c : Dev nD) : W4 m ρ c (Proc.devRef .tc main_arg3) = m ((c : Thread nD τ).loc main_arg3) :=
  ((W4_of_ne m ρ c main_arg3 (by decide)).trans ((W3_of_ne m ρ c main_arg3 (by decide)).trans ((W2_of_ne m ρ c main_arg3 (by decide)).trans
    (StableHlo.after_of_writes_sub hostOps0 _ hostOps0_writes (by decide)))))
theorem W4_main_v4 (c : Dev nD) : W4 m ρ c (Proc.devRef .tc main_v4) = (Hand1.dat1 (Vt (W2 m ρ)) c).arrAt 2 cfg1.N :=
  (W4_of_ne m ρ c main_v4 (by decide)).trans (W3_arr m ρ c 2)
theorem W4_main_v5 (c : Dev nD) : W4 m ρ c (Proc.devRef .tc main_v5) = (Hand2.dat2 (Vt (W3 m ρ)) c).arrAt 2 cfg2.N := W4_arr m ρ c 2

/-- The last two results: the input-weight matrix less region 1's array, the correlation matrix less region 2's. -/
theorem W5_main_v6 (c : Dev nD) : (W5 m ρ c (Proc.devRef .tc main_v6) : S1024x2048.Idx → Elt F .f32)
    = subf (m ((c : Thread nD τ).loc main_arg4)) ((Hand1.dat1 (Vt (W2 m ρ)) c).arrAt 2 cfg1.N) := by
  rw [← W4_main_arg4 m ρ c, ← W4_main_v4 m ρ c]
  dsimp only [W5, hostOps3]; after_results
theorem W5_main_v7 (c : Dev nD) : (W5 m ρ c (Proc.devRef .tc main_v7) : S2048x2048.Idx → Elt F .f32)
    = subf (m ((c : Thread nD τ).loc main_arg3)) ((Hand2.dat2 (Vt (W3 m ρ)) c).arrAt 2 cfg2.N) := by
  rw [← W4_main_arg3 m ρ c, ← W4_main_v5 m ρ c]
  dsimp only [W5, hostOps3]; after_results

end Cert.KernelIdeal.Run

end
-- ==== Proof.LibPlainMatmul.lean ====
/-
  Two readings at one entry, over the extended reals, for any extents and element formats.

  The product of an `[M, K]` array by a `[K, N]` array, accumulated into a block of zeros, is at entry `(p, q)` the sum
  over the contracted axis `k` of `lhs (p, k) * rhs (k, q)`: at a position `k` of the contracted axis the left operand is
  read at `(p, k)` and the right one at `(k, q)`, and the zero accumulator adds nothing.

  The sum along the second axis of an `[a, b]` array, from the neutral initial value, is at row `p` the sum over the
  columns `k` of the entry `(p, k)`.
-/
import Idealize.ShloMosaic.Lib.ValueIdx
import Idealize.ShloMosaic.PureOps.Ideal.Laws

noncomputable section

namespace LibPlainMatmul

open Idealize.ShloMosaic Idealize.ShloMosaic.ValueIdx
open scoped BigOperators

/-! ## A plain matrix product into a zero accumulator, read at an index -/

section Plain
variable {M K N : Nat}

/-- On its rows the left operand is read at the output's row. -/
theorem plain_lhs_0 (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- On its columns the left operand is read at the position on the contracted axis. -/
theorem plain_lhs_1 (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- On its rows the right operand is read at the position on the contracted axis. -/
theorem plain_rhs_0 (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- On its columns the right operand is read at the output's column. -/
theorem plain_rhs_1 (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` matrix product accumulated into zeros is, at `(p, q)`, the sum over the contracted axis of the
    operands' products. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

end Plain

/-! ## A sum along the rows of a matrix, read at a row -/

/-- The sum over the second axis of an `[a, b]` array is, at row `p`, the sum over the columns `k` of the entry `(p, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c
  refine Fin.ext ?_
  match c with
  | ⟨0, _⟩ => rfl
  | ⟨1, _⟩ => rfl

end LibPlainMatmul
-- ==== Proof.Payloads12.lean ====
/-
  The arithmetic of the two accumulating kernels read at one entry, over the extended reals.

  For each of the two kernels: the block its accumulator is reset to is zero; one accumulation step adds to the
  accumulator, at `(p, q)`, the sum over the rows `b` of the two loaded blocks of `first (b, p) * second (b, q)` (the
  first block enters transposed, and a plain matrix product into a zero block is the sum over the contracted axis of the
  operands' products); the final write multiplies each entry by one constant word.
-/
import proofs.«180393_j10222022164698_1_alg».proof.Proof.Gen.KernelIdeal.Skeleton
import proofs.«180393_j10222022164698_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.SL.Sem Idealize.ShloMosaic.ValueIdx
open LibPlainMatmul
open scoped BigOperators

open Cert.KernelIdeal.Gen

/-! ## Kernels B and C: the accumulator's zero block, one accumulation step, the final scaling -/

/-- The block the accumulator is reset to is zero everywhere. -/
theorem k1_pay1_apply (p : Fin 512) (q : Fin 1024) : k1_pay1 (F := Ideal) (ix2 p q) = 0 := by
  unfold k1_pay1
  refine (congrFun (shapeCast_self _ _) _).trans ?_
  exact Ideal.ofBits_zero_f32

/-- One accumulation step adds, at `(p, q)`, the product of the first block transposed with the second:
    the sum over the 2048 rows `b` of `v3 (b, p) * v6 (b, q)`. -/
theorem k1_pay2_apply (v3 : Vec Ideal S2048x512 .f32) (v6 : Vec Ideal S2048x1024 .bf16) (v8 : Vec Ideal S512x1024 .f32)
    (p : Fin 512) (q : Fin 1024) :
    k1_pay2 v3 v6 v8 (ix2 p q) = v8 (ix2 p q) + ∑ b : Fin 2048, v3 (ix2 b p) * v6 (ix2 b q) := by
  unfold k1_pay2
  refine (congrFun (shapeCast_self _ _) _).trans ?_
  refine congrArg (v8 (ix2 p q) + ·) ?_
  refine (matmul_plain_zero_apply none _ _ p q).trans ?_
  refine Finset.sum_congr rfl fun b _ => ?_
  refine congrArg₂ (· * ·) ?_ ?_
  · refine (transpose_ix2_apply _ _ p b).trans ?_
    exact congrFun (shapeCast_self v3 _) _
  · exact congrFun (shapeCast_self v6 _) _

/-- The final scaling multiplies each entry by the constant word `0x39000000` (2⁻¹³). -/
theorem k1_pay3_apply (v : Vec Ideal S512x1024 .f32) (p : Fin 512) (q : Fin 1024) :
    k1_pay3 v (ix2 p q) = v (ix2 p q) * Ideal.ofBits .f32 0x39000000#32 := rfl

theorem k2_pay1_apply (p : Fin 512) (q : Fin 512) : k2_pay1 (F := Ideal) (ix2 p q) = 0 := by
  unfold k2_pay1
  refine (congrFun (shapeCast_self _ _) _).trans ?_
  exact Ideal.ofBits_zero_f32

theorem k2_pay2_apply (v3 : Vec Ideal S2048x512 .bf16) (v5 : Vec Ideal S2048x512 .bf16) (v7 : Vec Ideal S512x512 .f32)
    (p : Fin 512) (q : Fin 512) :
    k2_pay2 v3 v5 v7 (ix2 p q) = v7 (ix2 p q) + ∑ b : Fin 2048, v3 (ix2 b p) * v5 (ix2 b q) := by
  unfold k2_pay2
  refine (congrFun (shapeCast_self _ _) _).trans ?_
  refine congrArg (v7 (ix2 p q) + ·) ?_
  refine (matmul_plain_zero_apply none _ _ p q).trans ?_
  refine Finset.sum_congr rfl fun b _ => ?_
  refine congrArg₂ (· * ·) ?_ ?_
  · refine (transpose_ix2_apply _ _ p b).trans ?_
    exact congrFun (shapeCast_self v3 _) _
  · exact congrFun (shapeCast_self v5 _) _

theorem k2_pay3_apply (v : Vec Ideal S512x512 .f32) (p : Fin 512) (q : Fin 512) :
    k2_pay3 v (ix2 p q) = v (ix2 p q) * Ideal.ofBits .f32 0x39000000#32 := rfl

end Cert.KernelIdeal.Pay
-- ==== Proof.LibColumn.lean ====
/-
  A vector read as a column. For a vector x of length a, the cast of x to shape [a, 1] and the broadcast of x
  along axis 0 into shape [a, 1] are the same array: entry (r, 0) of either is x(r). Stated for any element
  type and any length.
-/
import Idealize.ShloMosaic.Lib.Pipeline.Value
import Idealize.ShloMosaic.Lib.ValueIdx

namespace Cert.LibColumn

open Idealize.ShloMosaic Idealize.ShloMosaic.ValueIdx

variable {α : Type}

/-- Entry (r, 0) of the cast of a length-a vector to shape [a, 1] is the vector's entry r. -/
theorem shapeCast_col_apply {a : ℕ} (x : (⟨1, ![a]⟩ : Shape).Idx → α)
    (h : (⟨1, ![a]⟩ : Shape).ShapeCasts ⟨2, ![a, 1]⟩) (j : (⟨2, ![a, 1]⟩ : Shape).Idx) :
    shapeCast ⟨2, ![a, 1]⟩ x h j = x (ix1 (j 0)) := by
  have h1 : (j 1).val = 0 := by
    have := (j 1).isLt
    simp only [Matrix.cons_val_one, Matrix.cons_val_zero] at this
    omega
  refine shapeCast_apply x h j (ix1 (j 0)) ?_
  rw [Shape.rowMajor_val_one, Shape.rowMajor_val_two, h1]
  simp
  rfl

/-- Entry (r, 0) of the broadcast of a length-a vector along axis 0 into shape [a, 1] is the vector's entry r. -/
theorem broadcastInDim_col_apply {a : ℕ} (x : (⟨1, ![a]⟩ : Shape).Idx → α)
    (hb : (⟨1, ![a]⟩ : Shape).BroadcastsInDim ⟨2, ![a, 1]⟩ ![0]) (j : (⟨2, ![a, 1]⟩ : Shape).Idx) :
    broadcastInDim ⟨2, ![a, 1]⟩ ![0] hb x j = x (ix1 (j 0)) := by
  refine broadcastInDim_apply ![0] hb x j (ix1 (j 0)) ?_
  intro d
  match d with
  | ⟨0, _⟩ =>
    show (j 0).val = if a = 1 then 0 else (j 0).val
    split_ifs with ha
    · have := (j 0).isLt
      simp only [Matrix.cons_val_zero] at this
      omega
    · rfl

/-- The cast to a column and the broadcast to a column are one array. -/
theorem shapeCast_col_eq_broadcastInDim {a : ℕ} (x : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x h = broadcastInDim ⟨2, ![a, 1]⟩ ![0] hb x :=
  funext fun j => (shapeCast_col_apply x h j).trans (broadcastInDim_col_apply x hb j).symm

end Cert.LibColumn
-- ==== Proof.LibColumnSpread.lean ====
/-
  A column and a row spread over a matrix, read at an entry.

  Spreading a one-column array over b columns gives, at (p, q), the column's entry of row p; spreading a vector of
  length b over a rows (first viewed as one row, then repeated) gives, at (p, q), the vector's entry q. Both hold for
  any element type and any extents.
-/
import Idealize.ShloMosaic.Lib.Pipeline.Value
import Idealize.ShloMosaic.Lib.ValueIdx
import Idealize.ShloMosaic.Lib.ValueLayout

namespace Cert.LibColumnSpread

open Idealize.ShloMosaic Idealize.ShloMosaic.ValueIdx

variable {α : Type}

/-- A column [a, 1] spread to [a, b] reads, at (p, q), the column's entry of row p: on the row axis the coordinate is
    kept (also when a = 1, where it can only be 0), on the unit axis it is 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] viewed as one row [1, b] and spread to [a, b] reads, at (p, q), the vector's entry q: the repeated
    row is the vector, whatever the row p. -/
theorem broadcastTo_shapeCast_b_ab_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) := by
  rw [broadcastTo_1b_ab_apply, shapeCast_a_1a_apply]

end Cert.LibColumnSpread
-- ==== Proof.Payloads0.lean ====
/-
  The arithmetic of the first kernel read at one entry, over the extended reals.

  At entry `(p, q)` of a row block: the pre-activation is the sum of two row-against-row products plus the zero word;
  the error is the pre-activation minus the target; the numerator of the gain is a row-against-row product with the
  square matrix, and the gain divides it by one plus the row's sum of numerator times input (a sum along a row, cast to a
  column and spread back over the row); the rate and the new state are pointwise functions of the pre-activation and the
  old state, written here as functions on the extended reals with every literal kept as its word.
-/
import proofs.«180393_j10222022164698_1_alg».proof.Proof.Payloads12
import proofs.«180393_j10222022164698_1_alg».proof.Proof.LibColumn
import proofs.«180393_j10222022164698_1_alg».proof.Proof.LibColumnSpread

noncomputable section

namespace Cert.KernelIdeal.Pay

open Idealize.ShloMosaic Idealize.SL.Sem Idealize.ShloMosaic.ValueIdx
open Cert.KernelIdeal.Gen
open LibPlainMatmul
open scoped BigOperators

/-! ## Kernel A -/

section A
variable (x0 : Vec Ideal S256x2048 .f32) (x1 x2 : Vec Ideal S256x1024 .f32) (x3 : Vec Ideal S1024x2048 .bf16)
  (x4 : Vec Ideal S1024x1024 .bf16) (x5 : Vec Ideal S2048x2048 .bf16)

/-- The pre-activation at `(p, q)`: the row `p` of the first input against the row `q` of the first weight, plus the row
    `p` of the second input against the row `q` of the second weight, plus the zero word. -/
theorem pay6_apply (p : Fin 256) (q : Fin 1024) :
    k0_pay6 x0 x1 x3 x4 (ix2 p q)
      = ((∑ i : Fin 2048, x0 (ix2 p i) * x3 (ix2 q i)) + ∑ j : Fin 1024, x1 (ix2 p j) * x4 (ix2 q j)) + 0 := by
  unfold k0_pay6
  refine (addf_apply _ _ _).trans ?_
  refine congrArg₂ (· + ·) ?_ Ideal.ofBits_zero_f32
  refine (addf_apply _ _ _).trans ?_
  refine congrArg₂ (· + ·) ?_ ?_
  · refine (matmul_plain_zero_apply none _ _ p q).trans ?_
    refine Finset.sum_congr rfl fun i _ => ?_
    refine congrArg₂ (· * ·) rfl ?_
    refine (transpose_ix2_apply _ _ i q).trans ?_
    exact congrFun (shapeCast_self x3 _) _
  · refine (matmul_plain_zero_apply none _ _ p q).trans ?_
    refine Finset.sum_congr rfl fun j _ => ?_
    refine congrArg₂ (· * ·) rfl ?_
    refine (transpose_ix2_apply _ _ j q).trans ?_
    exact congrFun (shapeCast_self x4 _) _

/-- The error at `(p, q)` is the pre-activation minus the target. -/
theorem pay7_apply (p : Fin 256) (q : Fin 1024) :
    k0_pay7 x0 x1 x2 x3 x4 (ix2 p q) = k0_pay6 x0 x1 x3 x4 (ix2 p q) - x2 (ix2 p q) := rfl

/-- The numerator at `(p, i)`: row `p` of the first input against row `i` of the square matrix. -/
theorem pay8_apply (p : Fin 256) (i : Fin 2048) :
    k0_pay8 x0 x5 (ix2 p i) = ∑ j : Fin 2048, x0 (ix2 p j) * x5 (ix2 i j) := by
  unfold k0_pay8
  refine (matmul_plain_zero_apply none _ _ p i).trans ?_
  refine Finset.sum_congr rfl fun j _ => ?_
  refine congrArg₂ (· * ·) rfl ?_
  refine (transpose_ix2_apply _ _ j i).trans ?_
  exact congrFun (shapeCast_self x5 _) _

/-- The gain at `(p, i)`: the numerator divided by one plus the row's sum of numerator times input. -/
theorem pay9_apply (p : Fin 256) (i : Fin 2048) :
    k0_pay9 x0 x5 (ix2 p i)
      = Ideal.div (k0_pay8 x0 x5 (ix2 p i))
          (Ideal.ofBits .f32 0x3F800000#32 + ∑ i' : Fin 2048, k0_pay8 x0 x5 (ix2 p i') * x0 (ix2 p i')) := by
  unfold k0_pay9
  refine (divf_apply _ _ _).trans ?_
  refine congrArg (Ideal.div (k0_pay8 x0 x5 (ix2 p i))) ?_
  refine (Cert.LibColumnSpread.broadcastTo_a1_ab_apply _ _ p i).trans ?_
  refine (addf_apply _ _ _).trans ?_
  refine congrArg (Ideal.ofBits .f32 0x3F800000#32 + ·) ?_
  refine (Cert.LibColumn.shapeCast_col_apply _ _ _).trans ?_
  exact rowSum_apply _ _ _ _ _ p

/-- The two half-precision outputs are the values themselves. -/
theorem pay3_apply (v : FVec Ideal S256x2048 .f32) (p : Fin 256) (i : Fin 2048) : k0_pay3 v (ix2 p i) = v (ix2 p i) := rfl
theorem pay4_apply (v : FVec Ideal S256x2048 .f32) (p : Fin 256) (i : Fin 2048) : k0_pay4 v (ix2 p i) = v (ix2 p i) := rfl

end A

/-! ## The pointwise chain of kernel A, entry by entry

Every literal word is kept as the word itself. -/

/-- The scaled and shifted pre-activation: `c₃ * (c₁ * z - c₂)`. -/
def T (z : EReal) : EReal :=
  Ideal.ofBits .f32 0x3E1DB22D#32 * (Ideal.ofBits .f32 0x43870000#32 * z - Ideal.ofBits .f32 0x42D80000#32)

/-- The bit saying that `|t|` is below the threshold word. -/
def Small (t : EReal) : BitVec 1 := Ideal.cmp .olt (max t (-t)) (Ideal.ofBits .f32 0x358637BD#32)

/-- The rate from the bit `c` and the value `t`: with `u` the value (one where the bit is set),
    `u / (c₃ * (1 - exp (0 - u)))`, and a constant word where the bit is set. -/
def R (c : BitVec 1) (t : EReal) : EReal :=
  Scalar.select c (Ideal.ofBits .f32 0x40CFCACE#32)
    (Ideal.div (Scalar.select c (Ideal.ofBits .f32 0x3F800000#32) t)
      (Ideal.ofBits .f32 0x3E1DB22D#32 * (Ideal.ofBits .f32 0x3F800000#32
        - Ideal.exp (Ideal.ofBits .f32 0x00000000#32 - Scalar.select c (Ideal.ofBits .f32 0x3F800000#32) t))))

/-- The rate as a function of the pre-activation. -/
def LA (z : EReal) : EReal := R (Small (T z)) (T z)

/-- The new state from the old state `s` and the rate `r`: `s + c₄ * ((0 - s) + ((1 - s) * c₅) * r)`. -/
def SN (s r : EReal) : EReal :=
  s + Ideal.ofBits .f32 0x3C23D70A#32
      * ((Ideal.ofBits .f32 0x00000000#32 - s)
        + ((Ideal.ofBits .f32 0x3F800000#32 - s) * Ideal.ofBits .f32 0x3DCCCCCD#32) * r)

section A
variable (x0 : Vec Ideal S256x2048 .f32) (x1 : Vec Ideal S256x1024 .f32) (x3 : Vec Ideal S1024x2048 .bf16)
  (x4 : Vec Ideal S1024x1024 .bf16)

theorem pay10_apply (p : Fin 256) (q : Fin 1024) :
    k0_pay10 x0 x1 x3 x4 (ix2 p q) = T (k0_pay6 x0 x1 x3 x4 (ix2 p q)) := rfl

theorem pay11_apply (p : Fin 256) (q : Fin 1024) :
    k0_pay11 x0 x1 x3 x4 (ix2 p q) = Small (T (k0_pay6 x0 x1 x3 x4 (ix2 p q))) := rfl

/-- The rate payload over any value block and any bit block. -/
theorem pay1_apply' (v33 : FVec Ideal S256x1024 .f32) (v36 : IVec S256x1024 1) (p : Fin 256) (q : Fin 1024) :
    k0_pay1 v33 v36 (ix2 p q) = R (v36 (ix2 p q)) (v33 (ix2 p q)) := rfl

/-- The rate at `(p, q)` is `LA` of the pre-activation there. -/
theorem pay1_apply (p : Fin 256) (q : Fin 1024) :
    k0_pay1 (k0_pay10 x0 x1 x3 x4) (k0_pay11 x0 x1 x3 x4) (ix2 p q) = LA (k0_pay6 x0 x1 x3 x4 (ix2 p q)) :=
  (pay1_apply' _ _ p q).trans (congrArg₂ R (pay11_apply x0 x1 x3 x4 p q) (pay10_apply x0 x1 x3 x4 p q))

/-- The new-state payload over any state, value and bit blocks. -/
theorem pay2_apply' (v1 : Vec Ideal S256x1024 .f32) (v33 : FVec Ideal S256x1024 .f32) (v36 : IVec S256x1024 1)
    (p : Fin 256) (q : Fin 1024) :
    k0_pay2 v1 v33 v36 (ix2 p q) = SN (v1 (ix2 p q)) (R (v36 (ix2 p q)) (v33 (ix2 p q))) := rfl

/-- The new state at `(p, q)` is `SN` of the old state and the rate there. -/
theorem pay2_apply (p : Fin 256) (q : Fin 1024) :
    k0_pay2 x1 (k0_pay10 x0 x1 x3 x4) (k0_pay11 x0 x1 x3 x4) (ix2 p q)
      = SN (x1 (ix2 p q)) (LA (k0_pay6 x0 x1 x3 x4 (ix2 p q))) :=
  (pay2_apply' x1 _ _ p q).trans
    (congrArg (SN (x1 (ix2 p q))) (congrArg₂ R (pay11_apply x0 x1 x3 x4 p q) (pay10_apply x0 x1 x3 x4 p q)))

end A

end Cert.KernelIdeal.Pay
-- ==== Proof.IdealValue0.lean ====
import proofs.«180393_j10222022164698_1_alg».proof.Proof.IdealRegion0
import proofs.«180393_j10222022164698_1_alg».proof.Proof.Payloads0
import Idealize.ShloMosaic.Lib.Pipeline.Value
import Idealize.ShloMosaic.Lib.ValueIdx
import Idealize.ShloMosaic.Lib.Tactic

/-!
# The first grid region: from row blocks to whole arrays, over the extended reals

The region's five results are written one row block per grid point. This module reads each input block as rows
of the array it is a window of, shows that what a point writes back is that point's row block of one function of
the whole input arrays, and — since the 32 row blocks tile the 8192 rows — concludes that each result array
ends holding that function.
-/

noncomputable section

namespace Cert.KernelIdeal.Val0

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The index maps -/

/-- At grid point `t` every row-blocked window is on row block `t` (and column block 0), and the three whole
    windows are on their only block: read off the index maps at each of the 32 points. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-! ## The input blocks as rows of their arrays -/

/-- Entry `(p, q)` of the activations' block at point `t` is entry `(256 t + p, q)` of the activations. -/
theorem iblk0_0_apply (c : Dev nD) (t : Fin cfg0.N) (y : S256x2048.Idx) (k : S8192x2048.Idx)
    (hk0 : (k 0).val = 256 * t.val + (y 0).val) (hk1 : (k 1).val = (y 1).val) :
    (Hand0.iblk0 V c 0 t : Vec Ideal S256x2048 .f32) y = (V c main_arg0 : S8192x2048.Idx → Elt Ideal .f32) k := by
  obtain ⟨⟨e0, e1⟩, -⟩ := idx_facts t
  unfold Hand0.iblk0
  rw [View.read_apply]
  show V c main_arg0 _ = V c main_arg0 _
  congr 1
  funext a
  apply Fin.ext
  match a with
  | ⟨0, _⟩ => show win0_0.index t 0 * 256 + 1 * (y 0).val = (k 0).val; rw [e0, hk0]; omega
  | ⟨1, _⟩ => show win0_0.index t 1 * 2048 + 1 * (y 1).val = (k 1).val; rw [e1, hk1]; omega

/-- Entry `(p, q)` of the state's block at point `t` is entry `(256 t + p, q)` of the state. -/
theorem iblk0_1_apply (c : Dev nD) (t : Fin cfg0.N) (y : S256x1024.Idx) (k : S8192x1024.Idx)
    (hk0 : (k 0).val = 256 * t.val + (y 0).val) (hk1 : (k 1).val = (y 1).val) :
    (Hand0.iblk0 V c 1 t : Vec Ideal S256x1024 .f32) y = (V c main_arg1 : S8192x1024.Idx → Elt Ideal .f32) k := by
  obtain ⟨-, ⟨e0, e1⟩, -⟩ := idx_facts t
  unfold Hand0.iblk0
  rw [View.read_apply]
  show V c main_arg1 _ = V c main_arg1 _
  congr 1
  funext a
  apply Fin.ext
  match a with
  | ⟨0, _⟩ => show win0_1.index t 0 * 256 + 1 * (y 0).val = (k 0).val; rw [e0, hk0]; omega
  | ⟨1, _⟩ => show win0_1.index t 1 * 1024 + 1 * (y 1).val = (k 1).val; rw [e1, hk1]; omega

/-- Entry `(p, q)` of the target's block at point `t` is entry `(256 t + p, q)` of the target. -/
theorem iblk0_2_apply (c : Dev nD) (t : Fin cfg0.N) (y : S256x1024.Idx) (k : S8192x1024.Idx)
    (hk0 : (k 0).val = 256 * t.val + (y 0).val) (hk1 : (k 1).val = (y 1).val) :
    (Hand0.iblk0 V c 2 t : Vec Ideal S256x1024 .f32) y = (V c main_arg2 : S8192x1024.Idx → Elt Ideal .f32) k := by
  obtain ⟨-, -, ⟨e0, e1⟩, -⟩ := idx_facts t
  unfold Hand0.iblk0
  rw [View.read_apply]
  show V c main_arg2 _ = V c main_arg2 _
  congr 1
  funext a
  apply Fin.ext
  match a with
  | ⟨0, _⟩ => show win0_2.index t 0 * 256 + 1 * (y 0).val = (k 0).val; rw [e0, hk0]; omega
  | ⟨1, _⟩ => show win0_2.index t 1 * 1024 + 1 * (y 1).val = (k 1).val; rw [e1, hk1]; omega

/-- The block of each weight matrix, at every point, is the whole matrix. -/
theorem iblk0_3_eq (c : Dev nD) (t : Fin cfg0.N) :
    (Hand0.iblk0 V c 3 t : Vec Ideal S1024x2048 .bf16) = (V c main_v0 : S1024x2048.Idx → Elt Ideal .bf16) := by
  obtain ⟨-, -, -, ⟨e0, e1⟩, -⟩ := idx_facts t
  funext y
  unfold Hand0.iblk0
  rw [View.read_apply]
  show V c main_v0 _ = V c main_v0 _
  congr 1
  funext a
  apply Fin.ext
  match a with
  | ⟨0, _⟩ => show win0_3.index t 0 * 1024 + 1 * (y 0).val = (y 0).val; rw [e0]; omega
  | ⟨1, _⟩ => show win0_3.index t 1 * 2048 + 1 * (y 1).val = (y 1).val; rw [e1]; omega

theorem iblk0_4_eq (c : Dev nD) (t : Fin cfg0.N) :
    (Hand0.iblk0 V c 4 t : Vec Ideal S1024x1024 .bf16) = (V c main_v1 : S1024x1024.Idx → Elt Ideal .bf16) := by
  obtain ⟨-, -, -, -, ⟨e0, e1⟩, -⟩ := idx_facts t
  funext y
  unfold Hand0.iblk0
  rw [View.read_apply]
  show V c main_v1 _ = V c main_v1 _
  congr 1
  funext a
  apply Fin.ext
  match a with
  | ⟨0, _⟩ => show win0_4.index t 0 * 1024 + 1 * (y 0).val = (y 0).val; rw [e0]; omega
  | ⟨1, _⟩ => show win0_4.index t 1 * 1024 + 1 * (y 1).val = (y 1).val; rw [e1]; omega

theorem iblk0_5_eq (c : Dev nD) (t : Fin cfg0.N) :
    (Hand0.iblk0 V c 5 t : Vec Ideal S2048x2048 .bf16) = (V c main_v2 : S2048x2048.Idx → Elt Ideal .bf16) := by
  obtain ⟨-, -, -, -, -, ⟨e0, e1⟩, -⟩ := idx_facts t
  funext y
  unfold Hand0.iblk0
  rw [View.read_apply]
  show V c main_v2 _ = V c main_v2 _
  congr 1
  funext a
  apply Fin.ext
  match a with
  | ⟨0, _⟩ => show win0_5.index t 0 * 2048 + 1 * (y 0).val = (y 0).val; rw [e0]; omega
  | ⟨1, _⟩ => show win0_5.index t 1 * 2048 + 1 * (y 1).val = (y 1).val; rw [e1]; omega

/-! ## The output blocks tile their arrays -/

/-- An index of result array 0 is in point `t`'s block iff each coordinate lies in the block's range. -/
theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v3_0).slice (win0_6.rect t)).set ↔ _
  rw [View.set_slice_whole, Rect.mem_set_unit]
  exact Iff.rfl

/-- Row `r` of it is written back by point `r / 256`. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, ⟨e0, e1⟩, -⟩ := idx_facts t
  refine ⟨t, flush0_6 t, ?_⟩
  rw [mem_blk6]
  intro a
  match a with
  | ⟨0, _⟩ => show win0_6.index t 0 * 256 ≤ (i 0).val ∧ (i 0).val < win0_6.index t 0 * 256 + 256; rw [e0, ht]; omega
  | ⟨1, _⟩ => show win0_6.index t 1 * 1024 ≤ (i 1).val ∧ (i 1).val < win0_6.index t 1 * 1024 + 1024; rw [e1]; omega

/-- An index of result array 1 is in point `t`'s block iff each coordinate lies in the block's range. -/
theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v3_1).slice (win0_7.rect t)).set ↔ _
  rw [View.set_slice_whole, Rect.mem_set_unit]
  exact Iff.rfl

/-- Row `r` of it is written back by point `r / 256`. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, -, ⟨e0, e1⟩, -⟩ := idx_facts t
  refine ⟨t, flush0_7 t, ?_⟩
  rw [mem_blk7]
  intro a
  match a with
  | ⟨0, _⟩ => show win0_7.index t 0 * 256 ≤ (i 0).val ∧ (i 0).val < win0_7.index t 0 * 256 + 256; rw [e0, ht]; omega
  | ⟨1, _⟩ => show win0_7.index t 1 * 1024 ≤ (i 1).val ∧ (i 1).val < win0_7.index t 1 * 1024 + 1024; rw [e1]; omega

/-- An index of result array 2 is in point `t`'s block iff each coordinate lies in the block's range. -/
theorem mem_blk8 (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v3_2).slice (win0_8.rect t)).set ↔ _
  rw [View.set_slice_whole, Rect.mem_set_unit]
  exact Iff.rfl

/-- Row `r` of it is written back by point `r / 256`. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, -, -, ⟨e0, e1⟩, -⟩ := idx_facts t
  refine ⟨t, flush0_8 t, ?_⟩
  rw [mem_blk8]
  intro a
  match a with
  | ⟨0, _⟩ => show win0_8.index t 0 * 256 ≤ (i 0).val ∧ (i 0).val < win0_8.index t 0 * 256 + 256; rw [e0, ht]; omega
  | ⟨1, _⟩ => show win0_8.index t 1 * 1024 ≤ (i 1).val ∧ (i 1).val < win0_8.index t 1 * 1024 + 1024; rw [e1]; omega

/-- An index of result array 3 is in point `t`'s block iff each coordinate lies in the block's range. -/
theorem mem_blk9 (t : Fin cfg0.N) (i : S8192x2048.Idx) :
    i ∈ ((cfg0.win 9).blk t).view.set ↔ ∀ a : Fin 2, win0_9.index t a * S256x2048.size a ≤ (i a).val ∧ (i a).val < win0_9.index t a * S256x2048.size a + S256x2048.size a := by
  show i ∈ ((View.whole main_v3_3).slice (win0_9.rect t)).set ↔ _
  rw [View.set_slice_whole, Rect.mem_set_unit]
  exact Iff.rfl

/-- Row `r` of it is written back by point `r / 256`. -/
theorem cover9 (i : S8192x2048.Idx) : ∃ t : Fin cfg0.N, (cfg0.win 9).flush t = true ∧ i ∈ ((cfg0.win 9).blk t).view.set := by
  have hi0 : (i 0).val < 8192 := (i 0).isLt
  have hi1 : (i 1).val < 2048 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, -, -, -, ⟨e0, e1⟩, -⟩ := idx_facts t
  refine ⟨t, flush0_9 t, ?_⟩
  rw [mem_blk9]
  intro a
  match a with
  | ⟨0, _⟩ => show win0_9.index t 0 * 256 ≤ (i 0).val ∧ (i 0).val < win0_9.index t 0 * 256 + 256; rw [e0, ht]; omega
  | ⟨1, _⟩ => show win0_9.index t 1 * 2048 ≤ (i 1).val ∧ (i 1).val < win0_9.index t 1 * 2048 + 2048; rw [e1]; omega

/-- An index of result array 4 is in point `t`'s block iff each coordinate lies in the block's range. -/
theorem mem_blk10 (t : Fin cfg0.N) (i : S8192x2048.Idx) :
    i ∈ ((cfg0.win 10).blk t).view.set ↔ ∀ a : Fin 2, win0_10.index t a * S256x2048.size a ≤ (i a).val ∧ (i a).val < win0_10.index t a * S256x2048.size a + S256x2048.size a := by
  show i ∈ ((View.whole main_v3_4).slice (win0_10.rect t)).set ↔ _
  rw [View.set_slice_whole, Rect.mem_set_unit]
  exact Iff.rfl

/-- Row `r` of it is written back by point `r / 256`. -/
theorem cover10 (i : S8192x2048.Idx) : ∃ t : Fin cfg0.N, (cfg0.win 10).flush t = true ∧ i ∈ ((cfg0.win 10).blk t).view.set := by
  have hi0 : (i 0).val < 8192 := (i 0).isLt
  have hi1 : (i 1).val < 2048 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, -, -, -, -, ⟨e0, e1⟩⟩ := idx_facts t
  refine ⟨t, flush0_10 t, ?_⟩
  rw [mem_blk10]
  intro a
  match a with
  | ⟨0, _⟩ => show win0_10.index t 0 * 256 ≤ (i 0).val ∧ (i 0).val < win0_10.index t 0 * 256 + 256; rw [e0, ht]; omega
  | ⟨1, _⟩ => show win0_10.index t 1 * 2048 ≤ (i 1).val ∧ (i 1).val < win0_10.index t 1 * 2048 + 2048; rw [e1]; omega

/-! ## The results as functions of the whole input arrays

`X` the activations, `S` the state, `Y` the target (row-blocked); `WB`, `RB`, `PB` the three weight
matrices after rounding to the short format. -/

/-- The pre-activation: row `j 0` of the activations against row `j 1` of the first weight matrix, plus the same
    of the state and the second weight matrix, plus zero. -/
def gRx (X : S8192x2048.Idx → EReal) (S : S8192x1024.Idx → EReal) (WB : S1024x2048.Idx → EReal) (RB : S1024x1024.Idx → EReal) :
    S8192x1024.Idx → EReal := fun j =>
  ((∑ i : Fin 2048, X (ix2 (j 0) i) * WB (ix2 (j 1) i)) + ∑ i' : Fin 1024, S (ix2 (j 0) i') * RB (ix2 (j 1) i')) + 0

/-- The prediction error: the pre-activation minus the target. -/
def gErr (X : S8192x2048.Idx → EReal) (S Y : S8192x1024.Idx → EReal) (WB : S1024x2048.Idx → EReal) (RB : S1024x1024.Idx → EReal) :
    S8192x1024.Idx → EReal := fun j => gRx X S WB RB j - Y j

/-- The projected activations: row `j 0` of the activations against row `j 1` of the projection matrix. -/
def gKf (X : S8192x2048.Idx → EReal) (PB : S2048x2048.Idx → EReal) : S8192x2048.Idx → EReal := fun j =>
  ∑ i : Fin 2048, X (ix2 (j 0) i) * PB (ix2 (j 1) i)

/-- The normalised projection: the projection divided by one plus its row's inner product with the activations. -/
def gK (X : S8192x2048.Idx → EReal) (PB : S2048x2048.Idx → EReal) : S8192x2048.Idx → EReal := fun j =>
  Ideal.div (gKf X PB j) (Ideal.ofBits .f32 0x3F800000#32 + ∑ i' : Fin 2048, gKf X PB (ix2 (j 0) i') * X (ix2 (j 0) i'))

/-- The rate: the pointwise rate function of the pre-activation. -/
def gR (X : S8192x2048.Idx → EReal) (S : S8192x1024.Idx → EReal) (WB : S1024x2048.Idx → EReal) (RB : S1024x1024.Idx → EReal) :
    S8192x1024.Idx → EReal := fun j => Pay.LA (gRx X S WB RB j)

/-- The new state: the pointwise update of the state by the rate. -/
def gSnew (X : S8192x2048.Idx → EReal) (S : S8192x1024.Idx → EReal) (WB : S1024x2048.Idx → EReal) (RB : S1024x1024.Idx → EReal) :
    S8192x1024.Idx → EReal := fun j => Pay.SN (S j) (Pay.LA (gRx X S WB RB j))

/-! ## What a point writes back is its row block of the whole-array function -/

/-- The projection block at a point, entry by entry: if the activations' block is rows `r0 …` of `X` and the
    matrix block is `PB`, entry `y` of the body's value is entry `k = (r0 + y 0, y 1)` of `gKf X PB`. -/
theorem point10 (x0 : Vec Ideal S256x2048 .f32) (x5 : Vec Ideal S2048x2048 .bf16)
    (X : S8192x2048.Idx → EReal) (PB : S2048x2048.Idx → EReal) (r0 : Nat)
    (h0 : ∀ (y : S256x2048.Idx) (k : S8192x2048.Idx), (k 0).val = r0 + (y 0).val → (k 1).val = (y 1).val → x0 y = X k)
    (h5 : x5 = PB) (y : S256x2048.Idx) (k : S8192x2048.Idx) (hk0 : (k 0).val = r0 + (y 0).val) (hk1 : (k 1).val = (y 1).val) :
    k0_pay4 (k0_pay8 x0 x5) y = gKf X PB k := by
  obtain ⟨p, q, rfl⟩ : ∃ p q, y = ix2 p q := ⟨y 0, y 1, eq_ix2 y⟩
  refine (Pay.pay4_apply _ p q).trans ?_
  refine (Pay.pay8_apply x0 x5 p q).trans ?_
  unfold gKf
  refine Finset.sum_congr rfl fun j _ => ?_
  refine congrArg₂ (· * ·) ?_ ?_
  · exact h0 (ix2 p j) (ix2 (k 0) j) hk0 rfl
  · rw [h5, show k 1 = q from Fin.ext hk1]

theorem flushed10_eq (c : Dev nD) (t : Fin cfg0.N) :
    (Hand0.dat0 V c).flushed 10 t = ((cfg0.win 10).blk t).view.read (Elt Ideal) (gKf (V c main_arg0) (V c main_v2)) := by
  show (cfg0.win 10).cut (grid0.coords t) ((Hand0.dat0 V c).after 10 t) = _
  rw [Hand0.after0_10]
  obtain ⟨-, -, -, -, -, -, -, -, -, -, ⟨e0, e1⟩⟩ := idx_facts t
  funext y
  rw [View.read_apply]
  refine point10 _ _ _ _ (256 * t.val) (iblk0_0_apply V c t) (iblk0_5_eq V c t) y _ ?_ ?_
  · show win0_10.index t 0 * 256 + 1 * (y 0).val = 256 * t.val + (y 0).val; rw [e0]; omega
  · show win0_10.index t 1 * 2048 + 1 * (y 1).val = (y 1).val; rw [e1]; omega

/-- The fifth result array ends holding the projected activations. -/
theorem final0_10 (c : Dev nD) : (Hand0.dat0 V c).arrAt 10 cfg0.N = gKf (V c main_arg0) (V c main_v2) :=
  (Hand0.dat0 V c).arrAt_eq_of_cover 10 (gKf (V c main_arg0) (V c main_v2)) (fun t _ => flushed10_eq V c t) cover10

/-- The normalised projection block at a point, entry by entry. -/
theorem point9 (x0 : Vec Ideal S256x2048 .f32) (x5 : Vec Ideal S2048x2048 .bf16)
    (X : S8192x2048.Idx → EReal) (PB : S2048x2048.Idx → EReal) (r0 : Nat)
    (h0 : ∀ (y : S256x2048.Idx) (k : S8192x2048.Idx), (k 0).val = r0 + (y 0).val → (k 1).val = (y 1).val → x0 y = X k)
    (h5 : x5 = PB) (y : S256x2048.Idx) (k : S8192x2048.Idx) (hk0 : (k 0).val = r0 + (y 0).val) (hk1 : (k 1).val = (y 1).val) :
    k0_pay3 (k0_pay9 x0 x5) y = gK X PB k := by
  obtain ⟨p, q, rfl⟩ : ∃ p q, y = ix2 p q := ⟨y 0, y 1, eq_ix2 y⟩
  have h8 : ∀ i : Fin 2048, k0_pay8 x0 x5 (ix2 p i) = gKf X PB (ix2 (k 0) i) := fun i =>
    (Pay.pay4_apply _ p i).symm.trans (point10 x0 x5 X PB r0 h0 h5 (ix2 p i) (ix2 (k 0) i) hk0 rfl)
  have hk : (ix2 (k 0) q : S8192x2048.Idx) = k := by
    rw [show q = k 1 from (Fin.ext hk1).symm]; exact (eq_ix2 k).symm
  refine (Pay.pay3_apply _ p q).trans ?_
  refine (Pay.pay9_apply x0 x5 p q).trans ?_
  unfold gK
  refine congrArg₂ Ideal.div ((h8 q).trans (congrArg (gKf X PB) hk)) ?_
  refine congrArg (Ideal.ofBits .f32 0x3F800000#32 + ·) ?_
  refine Finset.sum_congr rfl fun i _ => ?_
  exact congrArg₂ (· * ·) (h8 i) (h0 (ix2 p i) (ix2 (k 0) i) hk0 rfl)

theorem flushed9_eq (c : Dev nD) (t : Fin cfg0.N) :
    (Hand0.dat0 V c).flushed 9 t = ((cfg0.win 9).blk t).view.read (Elt Ideal) (gK (V c main_arg0) (V c main_v2)) := by
  show (cfg0.win 9).cut (grid0.coords t) ((Hand0.dat0 V c).after 9 t) = _
  rw [Hand0.after0_9]
  obtain ⟨-, -, -, -, -, -, -, -, -, ⟨e0, e1⟩, -⟩ := idx_facts t
  funext y
  rw [View.read_apply]
  refine point9 _ _ _ _ (256 * t.val) (iblk0_0_apply V c t) (iblk0_5_eq V c t) y _ ?_ ?_
  · show win0_9.index t 0 * 256 + 1 * (y 0).val = 256 * t.val + (y 0).val; rw [e0]; omega
  · show win0_9.index t 1 * 2048 + 1 * (y 1).val = (y 1).val; rw [e1]; omega

/-- The fourth result array ends holding the normalised projection. -/
theorem final0_9 (c : Dev nD) : (Hand0.dat0 V c).arrAt 9 cfg0.N = gK (V c main_arg0) (V c main_v2) :=
  (Hand0.dat0 V c).arrAt_eq_of_cover 9 (gK (V c main_arg0) (V c main_v2)) (fun t _ => flushed9_eq V c t) cover9

/-- The pre-activation block at a point, entry by entry: with the activations' and the state's blocks rows `r0 …`
    of `X` and `S` and the weight blocks `WB`, `RB`, entry `y` is entry `k = (r0 + y 0, y 1)` of `gRx`. -/
theorem point_rx (x0 : Vec Ideal S256x2048 .f32) (x1 : Vec Ideal S256x1024 .f32) (x3 : Vec Ideal S1024x2048 .bf16) (x4 : Vec Ideal S1024x1024 .bf16)
    (X : S8192x2048.Idx → EReal) (S : S8192x1024.Idx → EReal) (WB : S1024x2048.Idx → EReal) (RB : S1024x1024.Idx → EReal) (r0 : Nat)
    (h0 : ∀ (y : S256x2048.Idx) (k : S8192x2048.Idx), (k 0).val = r0 + (y 0).val → (k 1).val = (y 1).val → x0 y = X k)
    (h1 : ∀ (y : S256x1024.Idx) (k : S8192x1024.Idx), (k 0).val = r0 + (y 0).val → (k 1).val = (y 1).val → x1 y = S k)
    (h3 : x3 = WB) (h4 : x4 = RB)
    (p : Fin 256) (q : Fin 1024) (k : S8192x1024.Idx) (hk0 : (k 0).val = r0 + p.val) (hk1 : (k 1).val = q.val) :
    k0_pay6 x0 x1 x3 x4 (ix2 p q) = gRx X S WB RB k := by
  have hq : k 1 = q := Fin.ext hk1
  refine (Pay.pay6_apply x0 x1 x3 x4 p q).trans ?_
  unfold gRx
  refine congrArg (· + (0 : EReal)) ?_
  refine congrArg₂ (· + ·) ?_ ?_
  · refine Finset.sum_congr rfl fun i _ => congrArg₂ (· * ·) (h0 (ix2 p i) (ix2 (k 0) i) hk0 rfl) ?_
    rw [h3, hq]
  · refine Finset.sum_congr rfl fun i _ => congrArg₂ (· * ·) (h1 (ix2 p i) (ix2 (k 0) i) hk0 rfl) ?_
    rw [h4, hq]

/-- The error block at a point. -/
theorem point6 (x0 : Vec Ideal S256x2048 .f32) (x1 x2 : Vec Ideal S256x1024 .f32) (x3 : Vec Ideal S1024x2048 .bf16) (x4 : Vec Ideal S1024x1024 .bf16)
    (X : S8192x2048.Idx → EReal) (S Y : S8192x1024.Idx → EReal) (WB : S1024x2048.Idx → EReal) (RB : S1024x1024.Idx → EReal) (r0 : Nat)
    (h0 : ∀ (y : S256x2048.Idx) (k : S8192x2048.Idx), (k 0).val = r0 + (y 0).val → (k 1).val = (y 1).val → x0 y = X k)
    (h1 : ∀ (y : S256x1024.Idx) (k : S8192x1024.Idx), (k 0).val = r0 + (y 0).val → (k 1).val = (y 1).val → x1 y = S k)
    (h2 : ∀ (y : S256x1024.Idx) (k : S8192x1024.Idx), (k 0).val = r0 + (y 0).val → (k 1).val = (y 1).val → x2 y = Y k)
    (h3 : x3 = WB) (h4 : x4 = RB)
    (y : S256x1024.Idx) (k : S8192x1024.Idx) (hk0 : (k 0).val = r0 + (y 0).val) (hk1 : (k 1).val = (y 1).val) :
    k0_pay7 x0 x1 x2 x3 x4 y = gErr X S Y WB RB k := by
  obtain ⟨p, q, rfl⟩ : ∃ p q, y = ix2 p q := ⟨y 0, y 1, eq_ix2 y⟩
  refine (Pay.pay7_apply x0 x1 x2 x3 x4 p q).trans ?_
  unfold gErr
  exact congrArg₂ (· - ·) (point_rx x0 x1 x3 x4 X S WB RB r0 h0 h1 h3 h4 p q k hk0 hk1) (h2 (ix2 p q) k hk0 hk1)

/-- The rate block at a point. -/
theorem point7 (x0 : Vec Ideal S256x2048 .f32) (x1 : Vec Ideal S256x1024 .f32) (x3 : Vec Ideal S1024x2048 .bf16) (x4 : Vec Ideal S1024x1024 .bf16)
    (X : S8192x2048.Idx → EReal) (S : S8192x1024.Idx → EReal) (WB : S1024x2048.Idx → EReal) (RB : S1024x1024.Idx → EReal) (r0 : Nat)
    (h0 : ∀ (y : S256x2048.Idx) (k : S8192x2048.Idx), (k 0).val = r0 + (y 0).val → (k 1).val = (y 1).val → x0 y = X k)
    (h1 : ∀ (y : S256x1024.Idx) (k : S8192x1024.Idx), (k 0).val = r0 + (y 0).val → (k 1).val = (y 1).val → x1 y = S k)
    (h3 : x3 = WB) (h4 : x4 = RB)
    (y : S256x1024.Idx) (k : S8192x1024.Idx) (hk0 : (k 0).val = r0 + (y 0).val) (hk1 : (k 1).val = (y 1).val) :
    k0_pay1 (k0_pay10 x0 x1 x3 x4) (k0_pay11 x0 x1 x3 x4) y = gR X S WB RB k := by
  obtain ⟨p, q, rfl⟩ : ∃ p q, y = ix2 p q := ⟨y 0, y 1, eq_ix2 y⟩
  refine (Pay.pay1_apply x0 x1 x3 x4 p q).trans ?_
  unfold gR
  exact congrArg Pay.LA (point_rx x0 x1 x3 x4 X S WB RB r0 h0 h1 h3 h4 p q k hk0 hk1)

/-- The new-state block at a point. -/
theorem point8 (x0 : Vec Ideal S256x2048 .f32) (x1 : Vec Ideal S256x1024 .f32) (x3 : Vec Ideal S1024x2048 .bf16) (x4 : Vec Ideal S1024x1024 .bf16)
    (X : S8192x2048.Idx → EReal) (S : S8192x1024.Idx → EReal) (WB : S1024x2048.Idx → EReal) (RB : S1024x1024.Idx → EReal) (r0 : Nat)
    (h0 : ∀ (y : S256x2048.Idx) (k : S8192x2048.Idx), (k 0).val = r0 + (y 0).val → (k 1).val = (y 1).val → x0 y = X k)
    (h1 : ∀ (y : S256x1024.Idx) (k : S8192x1024.Idx), (k 0).val = r0 + (y 0).val → (k 1).val = (y 1).val → x1 y = S k)
    (h3 : x3 = WB) (h4 : x4 = RB)
    (y : S256x1024.Idx) (k : S8192x1024.Idx) (hk0 : (k 0).val = r0 + (y 0).val) (hk1 : (k 1).val = (y 1).val) :
    k0_pay2 x1 (k0_pay10 x0 x1 x3 x4) (k0_pay11 x0 x1 x3 x4) y = gSnew X S WB RB k := by
  obtain ⟨p, q, rfl⟩ : ∃ p q, y = ix2 p q := ⟨y 0, y 1, eq_ix2 y⟩
  refine (Pay.pay2_apply x0 x1 x3 x4 p q).trans ?_
  unfold gSnew
  exact congrArg₂ Pay.SN (h1 (ix2 p q) k hk0 hk1)
    (congrArg Pay.LA (point_rx x0 x1 x3 x4 X S WB RB r0 h0 h1 h3 h4 p q k hk0 hk1))

/-- Writing a block back changes nothing of it: none of these windows is cut. -/
theorem cut6 (t : Fin cfg0.N) (f : Vec Ideal S256x1024 .f32) : (cfg0.win 6).cut (grid0.coords t) f = f := rfl
theorem cut7 (t : Fin cfg0.N) (f : Vec Ideal S256x1024 .f32) : (cfg0.win 7).cut (grid0.coords t) f = f := rfl
theorem cut8 (t : Fin cfg0.N) (f : Vec Ideal S256x1024 .f32) : (cfg0.win 8).cut (grid0.coords t) f = f := rfl

theorem flushed6_eq (c : Dev nD) (t : Fin cfg0.N) :
    (Hand0.dat0 V c).flushed 6 t = ((cfg0.win 6).blk t).view.read (Elt Ideal)
      (gErr (V c main_arg0) (V c main_arg1) (V c main_arg2) (V c main_v0) (V c main_v1)) := by
  show (cfg0.win 6).cut (grid0.coords t) ((Hand0.dat0 V c).after 6 t) = _
  rw [Hand0.after0_6, cut6]
  obtain ⟨-, -, -, -, -, -, ⟨e0, e1⟩, -⟩ := idx_facts t
  funext y
  rw [View.read_apply]
  refine point6 _ _ _ _ _ _ _ _ _ _ (256 * t.val) (iblk0_0_apply V c t) (iblk0_1_apply V c t) (iblk0_2_apply V c t)
    (iblk0_3_eq V c t) (iblk0_4_eq V c t) y _ ?_ ?_
  · show win0_6.index t 0 * 256 + 1 * (y 0).val = 256 * t.val + (y 0).val; rw [e0]; omega
  · show win0_6.index t 1 * 1024 + 1 * (y 1).val = (y 1).val; rw [e1]; omega

/-- The first result array ends holding the prediction error. -/
theorem final0_6 (c : Dev nD) : (Hand0.dat0 V c).arrAt 6 cfg0.N
    = gErr (V c main_arg0) (V c main_arg1) (V c main_arg2) (V c main_v0) (V c main_v1) :=
  (Hand0.dat0 V c).arrAt_eq_of_cover 6 _ (fun t _ => flushed6_eq V c t) cover6

theorem flushed7_eq (c : Dev nD) (t : Fin cfg0.N) :
    (Hand0.dat0 V c).flushed 7 t = ((cfg0.win 7).blk t).view.read (Elt Ideal)
      (gR (V c main_arg0) (V c main_arg1) (V c main_v0) (V c main_v1)) := by
  show (cfg0.win 7).cut (grid0.coords t) ((Hand0.dat0 V c).after 7 t) = _
  rw [Hand0.after0_7, cut7]
  obtain ⟨-, -, -, -, -, -, -, ⟨e0, e1⟩, -⟩ := idx_facts t
  funext y
  rw [View.read_apply]
  refine point7 _ _ _ _ _ _ _ _ (256 * t.val) (iblk0_0_apply V c t) (iblk0_1_apply V c t)
    (iblk0_3_eq V c t) (iblk0_4_eq V c t) y _ ?_ ?_
  · show win0_7.index t 0 * 256 + 1 * (y 0).val = 256 * t.val + (y 0).val; rw [e0]; omega
  · show win0_7.index t 1 * 1024 + 1 * (y 1).val = (y 1).val; rw [e1]; omega

/-- The second result array ends holding the rate. -/
theorem final0_7 (c : Dev nD) : (Hand0.dat0 V c).arrAt 7 cfg0.N
    = gR (V c main_arg0) (V c main_arg1) (V c main_v0) (V c main_v1) :=
  (Hand0.dat0 V c).arrAt_eq_of_cover 7 _ (fun t _ => flushed7_eq V c t) cover7

theorem flushed8_eq (c : Dev nD) (t : Fin cfg0.N) :
    (Hand0.dat0 V c).flushed 8 t = ((cfg0.win 8).blk t).view.read (Elt Ideal)
      (gSnew (V c main_arg0) (V c main_arg1) (V c main_v0) (V c main_v1)) := by
  show (cfg0.win 8).cut (grid0.coords t) ((Hand0.dat0 V c).after 8 t) = _
  rw [Hand0.after0_8, cut8]
  obtain ⟨-, -, -, -, -, -, -, -, ⟨e0, e1⟩, -⟩ := idx_facts t
  funext y
  rw [View.read_apply]
  refine point8 _ _ _ _ _ _ _ _ (256 * t.val) (iblk0_0_apply V c t) (iblk0_1_apply V c t)
    (iblk0_3_eq V c t) (iblk0_4_eq V c t) y _ ?_ ?_
  · show win0_8.index t 0 * 256 + 1 * (y 0).val = 256 * t.val + (y 0).val; rw [e0]; omega
  · show win0_8.index t 1 * 1024 + 1 * (y 1).val = (y 1).val; rw [e1]; omega

/-- The third result array ends holding the new state. -/
theorem final0_8 (c : Dev nD) : (Hand0.dat0 V c).arrAt 8 cfg0.N
    = gSnew (V c main_arg0) (V c main_arg1) (V c main_v0) (V c main_v1) :=
  (Hand0.dat0 V c).arrAt_eq_of_cover 8 _ (fun t _ => flushed8_eq V c t) cover8

end Cert.KernelIdeal.Val0

end
-- ==== Proof.LibBlockSum.lean ====
/-
  A sum over n·b consecutive indices taken block by block.

  If a sequence starts at zero and its k-th step adds the sum of the k-th block of b consecutive terms,
  then after n steps it holds the sum of all n·b terms.  Stated over any commutative additive monoid
  (the extended reals with their addition are one), so no finiteness is needed.
-/
import Mathlib.Algebra.BigOperators.Fin
import Mathlib.Algebra.BigOperators.Group.Finset.Basic

namespace Cert.Lib

/-- The a-th term of block k lies among the first n·b terms. -/
theorem blk_lt {n b k a : ℕ} (hk : k < n) (ha : a < b) : b * k + a < n * b :=
  calc b * k + a < b * k + b := by omega
    _ = b * (k + 1) := (Nat.mul_succ b k).symm
    _ ≤ b * n := Nat.mul_le_mul_left b hk
    _ = n * b := Nat.mul_comm b n

/-- Block-by-block accumulation is the whole sum: `s 0 = 0` and `s (k+1) = s k + Σ_{a<b} f (b·k + a)` for `k < n`
    give `s n = Σ_{i<N} f i` when `N = n·b`. -/
theorem sum_by_blocks {M : Type*} [AddCommMonoid M] {n b N : ℕ} (hN : n * b = N) (f : Fin N → M) (s : ℕ → M)
    (h0 : s 0 = 0)
    (hs : ∀ k (hk : k < n), s (k + 1) = s k + ∑ a : Fin b, f ⟨b * k + a, hN ▸ blk_lt hk a.isLt⟩) :
    s n = ∑ i : Fin N, f i := by
  subst hN
  -- the terms as a function on the naturals, zero past the end
  let g : ℕ → M := fun i => if h : i < n * b then f ⟨i, h⟩ else 0
  have key : ∀ k, k ≤ n → s k = ∑ i ∈ Finset.range (b * k), g i := by
    intro k
    induction k with
    | zero => intro _; simpa using h0
    | succ k ih =>
      intro hk
      have hk' : k < n := hk
      rw [hs k hk', ih (Nat.le_of_lt hk'), Nat.mul_succ, Finset.sum_range_add, Finset.sum_range (fun a => g (b * k + a))]
      refine congrArg (_ + ·) (Finset.sum_congr rfl fun a _ => ?_)
      show f ⟨b * k + a, _⟩ = g (b * k + a)
      simp only [g]
      rw [dif_pos (blk_lt hk' a.isLt)]
  rw [key n le_rfl, Nat.mul_comm b n, Finset.sum_range]
  refine Finset.sum_congr rfl fun i _ => ?_
  simp only [g]
  rw [dif_pos i.isLt]

end Cert.Lib
-- ==== Proof.IdealValue12.lean ====
/-
  From the blocks to the arrays, for the two accumulating kernels, over the extended reals.

  Each of the two kernels walks a grid whose last coordinate `kk` runs fastest over four steps. At a point it loads a
  block of 2048 rows of each of its two input arrays (rows `2048 kk + b`), and adds to an accumulator block the product
  of the first block transposed with the second; the accumulator is reset to zero at `kk = 0` and, at `kk = 3`, scaled
  by one constant word and written to the output block `(i, j)`. Entry `(p, q)` of that block therefore ends holding
  the sum over all 8192 rows `b` of `first (b, col_i + p) * second (b, col_j + q)`, scaled: the four partial sums of 2048
  terms each add up to the whole sum (addition on the extended reals is commutative and associative and `0 + a = a`), and
  the output blocks tile the output array. Stated for any per-point data that satisfy the three hypotheses: what is
  written back at `kk = 3`, the accumulator at `kk = 0`, the accumulator at the later steps.
-/
import proofs.«180393_j10222022164698_1_alg».proof.Proof.Payloads12
import proofs.«180393_j10222022164698_1_alg».proof.Proof.LibBlockSum
import proofs.«180393_j10222022164698_1_alg».proof.Proof.Gen.KernelIdeal.Launch
import proofs.«180393_j10222022164698_1_alg».proof.Proof.Gen.KernelIdeal.Points
import Idealize.ShloMosaic.Lib.Pipeline.Value

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal.Gen Cert.KernelIdeal.Pay
open scoped BigOperators

variable {c : Dev nD} (V : (c : Dev nD) → (b : Ref sig .tc) → Buf (Elt Ideal) ((c : Thread nD τ).loc b))

/-! ## Region 1 -/

/-- The block of window `w` at point `t`, read out of the array the window is over. -/
def blk1 (c : Dev nD) (w : Fin cfg1.W) (t : Fin cfg1.N) :
    ((cfg1.win w).xblock (cfg1.grid.coords t)).Idx → Elt Ideal (cfg1.win w).elt :=
  ((cfg1.win w).blk t).view.read (Elt Ideal) (V c (Pipeline.arrRef spec1 w))

/-- The product of the first array transposed with the second, scaled by the constant word. -/
def gWc (E : S8192x1024.Idx → EReal) (Kk : S8192x2048.Idx → EReal) : S1024x2048.Idx → EReal :=
  fun j => (∑ b : Fin 8192, E (ix2 b (j 0)) * Kk (ix2 b (j 1))) * Ideal.ofBits .f32 0x39000000#32

/-- The block indices at point `t = 8 i + 4 j + kk`: the inputs' are `(kk, i)` and `(kk, j)`, the output's `(i, j)`. -/
theorem idx1 : ∀ t : Fin cfg1.N, win1_0.index t (0 : Fin 2) = t.val % 4 ∧ win1_0.index t (1 : Fin 2) = t.val / 8 % 2
    ∧ win1_1.index t (0 : Fin 2) = t.val % 4 ∧ win1_1.index t (1 : Fin 2) = t.val / 4 % 2
    ∧ win1_2.index t (0 : Fin 2) = t.val / 8 % 2 ∧ win1_2.index t (1 : Fin 2) = t.val / 4 % 2 :=
  (by decide +kernel : ∀ t : Fin grid1.N, _)

/-- The first input's block at point `t` holds rows `2048 kk + b` and columns `512 i + p` of its array. -/
theorem blk1_0_apply (t : Fin cfg1.N) (b : Fin 2048) (p : Fin 512) :
    blk1 V c 0 t (ix2 b p)
      = V c main_v3_0 (ix2 (⟨2048 * (t.val % 4) + b.val, by omega⟩ : Fin 8192) (⟨512 * (t.val / 8 % 2) + p.val, by omega⟩ : Fin 1024)) := by
  obtain ⟨e0, e1, -, -, -, -⟩ := idx1 t
  unfold blk1
  rw [View.read_apply]
  show V c main_v3_0 _ = V c main_v3_0 _
  refine congrArg (V c main_v3_0) ?_
  funext a
  apply Fin.ext
  match a with
  | ⟨0, _⟩ => show win1_0.index t 0 * 2048 + 1 * b.val = 2048 * (t.val % 4) + b.val; rw [e0]; omega
  | ⟨1, _⟩ => show win1_0.index t 1 * 512 + 1 * p.val = 512 * (t.val / 8 % 2) + p.val; rw [e1]; omega

/-- The second input's block at point `t` holds rows `2048 kk + b` and columns `1024 j + q` of its array. -/
theorem blk1_1_apply (t : Fin cfg1.N) (b : Fin 2048) (q : Fin 1024) :
    blk1 V c 1 t (ix2 b q)
      = V c main_v3_3 (ix2 (⟨2048 * (t.val % 4) + b.val, by omega⟩ : Fin 8192) (⟨1024 * (t.val / 4 % 2) + q.val, by omega⟩ : Fin 2048)) := by
  obtain ⟨-, -, e0, e1, -, -⟩ := idx1 t
  unfold blk1
  rw [View.read_apply]
  show V c main_v3_3 _ = V c main_v3_3 _
  refine congrArg (V c main_v3_3) ?_
  funext a
  apply Fin.ext
  match a with
  | ⟨0, _⟩ => show win1_1.index t 0 * 2048 + 1 * b.val = 2048 * (t.val % 4) + b.val; rw [e0]; omega
  | ⟨1, _⟩ => show win1_1.index t 1 * 1024 + 1 * q.val = 1024 * (t.val / 4 % 2) + q.val; rw [e1]; omega

/-- The term of the contraction, at row `b` of the two arrays, for entry `(p, q)` of output block `(i, j)`. -/
def term1 (E : S8192x1024.Idx → EReal) (Kk : S8192x2048.Idx → EReal) (i j : ℕ) (p : Fin 512) (q : Fin 1024) :
    Fin 8192 → EReal :=
  fun b => E (ix2 b (⟨512 * (i % 2) + p.val, by omega⟩ : Fin 1024)) * Kk (ix2 b (⟨1024 * (j % 2) + q.val, by omega⟩ : Fin 2048))

/-- One accumulation step at point `t` (its step number `kk` named `k`) adds the `k`-th stretch of 2048 terms. -/
theorem step1 (t : Fin cfg1.N) (k : ℕ) (hk : t.val % 4 = k) (v8 : Vec Ideal S512x1024 .f32) (p : Fin 512) (q : Fin 1024) :
    k1_pay2 (blk1 V c 0 t) (blk1 V c 1 t) v8 (ix2 p q)
      = v8 (ix2 p q) + ∑ b : Fin 2048,
          term1 (V c main_v3_0) (V c main_v3_3) (t.val / 8) (t.val / 4) p q ⟨2048 * k + b.val, by omega⟩ := by
  subst hk
  refine (k1_pay2_apply _ _ _ p q).trans ?_
  refine congrArg (v8 (ix2 p q) + ·) (Finset.sum_congr rfl fun b _ => ?_)
  exact congrArg₂ (· * ·) (blk1_0_apply V t b p) (blk1_1_apply V t b q)

/-- After the last of its four steps the accumulator holds, at `(p, q)`, the whole sum over the 8192 rows. -/
theorem acc1_last (acc : Fin cfg1.N → Vec Ideal S512x1024 .f32)
    (hfirst : ∀ t : Fin cfg1.N, t.val % 4 = 0 → acc t = k1_pay2 (blk1 V c 0 t) (blk1 V c 1 t) (k1_pay1 (F := Ideal)))
    (hnext : ∀ (t : Fin cfg1.N) (h : t.val % 4 ≠ 0), acc t = k1_pay2 (blk1 V c 0 t) (blk1 V c 1 t) (acc ⟨t.val - 1, by omega⟩))
    (t : Fin cfg1.N) (ht : t.val % 4 = 3) (p : Fin 512) (q : Fin 1024) :
    acc t (ix2 p q) = ∑ b : Fin 8192, term1 (V c main_v3_0) (V c main_v3_3) (t.val / 8) (t.val / 4) p q b := by
  have hN : cfg1.N = 16 := N_1
  have htl : t.val < 16 := hN ▸ t.isLt
  let s : ℕ → EReal := fun k => match k with
    | 0 => 0
    | k + 1 => if h : t.val - 3 + k < cfg1.N then acc ⟨t.val - 3 + k, h⟩ (ix2 p q) else 0
  have key := Cert.Lib.sum_by_blocks (n := 4) (b := 2048) (N := 8192) rfl
    (term1 (V c main_v3_0) (V c main_v3_3) (t.val / 8) (t.val / 4) p q) s rfl (fun k hk => ?_)
  · have h3 : t.val - 3 + 3 = t.val := by omega
    have e : s 4 = acc t (ix2 p q) := by
      show (if h : t.val - 3 + 3 < cfg1.N then acc ⟨t.val - 3 + 3, h⟩ (ix2 p q) else 0) = _
      rw [dif_pos (by rw [h3]; exact t.isLt)]
      exact congrArg (fun u => acc u (ix2 p q)) (Fin.ext h3)
    rw [← e]; exact key
  · have hk' : t.val - 3 + k < cfg1.N := by omega
    show (if h : t.val - 3 + k < cfg1.N then acc ⟨t.val - 3 + k, h⟩ (ix2 p q) else 0) = s k + _
    rw [dif_pos hk']
    have hu8 : (t.val - 3 + k) / 8 = t.val / 8 := by omega
    have hu4 : (t.val - 3 + k) / 4 = t.val / 4 := by omega
    have hum : (t.val - 3 + k) % 4 = k := by omega
    cases k with
    | zero =>
      rw [hfirst ⟨t.val - 3 + 0, hk'⟩ hum]
      refine (step1 V ⟨t.val - 3 + 0, hk'⟩ 0 hum _ p q).trans ?_
      rw [k1_pay1_apply]
      show 0 + ∑ b : Fin 2048, term1 _ _ ((t.val - 3 + 0) / 8) ((t.val - 3 + 0) / 4) p q _ = 0 + _
      rw [hu8, hu4]
    | succ k =>
      rw [hnext ⟨t.val - 3 + (k + 1), hk'⟩ (by show (t.val - 3 + (k + 1)) % 4 ≠ 0; omega)]
      refine (step1 V ⟨t.val - 3 + (k + 1), hk'⟩ (k + 1) hum _ p q).trans ?_
      have hk'' : t.val - 3 + k < cfg1.N := by omega
      show acc ⟨t.val - 3 + (k + 1) - 1, _⟩ (ix2 p q)
          + ∑ b : Fin 2048, term1 _ _ ((t.val - 3 + (k + 1)) / 8) ((t.val - 3 + (k + 1)) / 4) p q _
        = (if h : t.val - 3 + k < cfg1.N then acc ⟨t.val - 3 + k, h⟩ (ix2 p q) else 0) + _
      rw [dif_pos hk'', hu8, hu4]
      exact congrArg (fun u => acc u (ix2 p q) + _) (Fin.ext (by show t.val - 3 + (k + 1) - 1 = t.val - 3 + k; omega))

/-- An index of the output array lies in point `t`'s block iff each coordinate lies in the block's range on its axis. -/
theorem mem_blk1 (t : Fin cfg1.N) (i : S1024x2048.Idx) :
    i ∈ ((cfg1.win 2).blk t).view.set
      ↔ ∀ a : Fin 2, win1_2.index t a * S512x1024.size a ≤ (i a).val
          ∧ (i a).val < win1_2.index t a * S512x1024.size a + S512x1024.size a := by
  show i ∈ ((View.whole main_v4).slice (win1_2.rect t)).set ↔ _
  rw [View.set_slice_whole, Rect.mem_set_unit]
  exact Iff.rfl

/-- What a point that writes back writes is its block of the scaled product. -/
theorem flushed1_eq (dat : Dat τ (Elt Ideal) Unit ℕ (UR sig nD τ) ℕ cfg1 c) (acc : Fin cfg1.N → Vec Ideal S512x1024 .f32)
    (hflush : ∀ t : Fin cfg1.N, t.val % 4 = 3 → dat.after 2 t = k1_pay3 (acc t))
    (hfirst : ∀ t : Fin cfg1.N, t.val % 4 = 0 → acc t = k1_pay2 (blk1 V c 0 t) (blk1 V c 1 t) (k1_pay1 (F := Ideal)))
    (hnext : ∀ (t : Fin cfg1.N) (h : t.val % 4 ≠ 0), acc t = k1_pay2 (blk1 V c 0 t) (blk1 V c 1 t) (acc ⟨t.val - 1, by omega⟩))
    (t : Fin cfg1.N) (hf : (cfg1.win 2).flush t = true) :
    dat.flushed 2 t = ((cfg1.win 2).blk t).view.read (Elt Ideal) (gWc (V c main_v3_0) (V c main_v3_3)) := by
  have ht : t.val % 4 = 3 := (flush1_2 t).mp hf
  obtain ⟨-, -, -, -, e0, e1⟩ := idx1 t
  show (cfg1.win 2).cut (grid1.coords t) (dat.after 2 t) = _
  rw [hflush t ht]
  funext y
  obtain ⟨p, q, rfl⟩ : ∃ (p : Fin 512) (q : Fin 1024), y = ix2 p q := ⟨y 0, y 1, eq_ix2 (n0 := 512) (n1 := 1024) y⟩
  rw [View.read_apply]
  show k1_pay3 (acc t) (ix2 p q) = gWc (V c main_v3_0) (V c main_v3_3) (((cfg1.win 2).blk t).view.emb (ix2 p q))
  rw [k1_pay3_apply, acc1_last V acc hfirst hnext t ht p q]
  unfold gWc term1
  refine congrArg (· * Ideal.ofBits .f32 0x39000000#32) (Finset.sum_congr rfl fun b _ => ?_)
  refine congrArg₂ (· * ·) (congrArg _ (congrArg (ix2 b) (Fin.ext ?_))) (congrArg _ (congrArg (ix2 b) (Fin.ext ?_)))
  · show 512 * (t.val / 8 % 2) + p.val = win1_2.index t 0 * 512 + 1 * p.val
    rw [e0]; omega
  · show 1024 * (t.val / 4 % 2) + q.val = win1_2.index t 1 * 1024 + 1 * q.val
    rw [e1]; omega

/-- The output array of region 1 ends holding the scaled product of the first array transposed with the second. -/
theorem final1 (dat : Dat τ (Elt Ideal) Unit ℕ (UR sig nD τ) ℕ cfg1 c) (acc : Fin cfg1.N → Vec Ideal S512x1024 .f32)
    (hflush : ∀ t : Fin cfg1.N, t.val % 4 = 3 → dat.after 2 t = k1_pay3 (acc t))
    (hfirst : ∀ t : Fin cfg1.N, t.val % 4 = 0 → acc t = k1_pay2 (blk1 V c 0 t) (blk1 V c 1 t) (k1_pay1 (F := Ideal)))
    (hnext : ∀ (t : Fin cfg1.N) (h : t.val % 4 ≠ 0), acc t = k1_pay2 (blk1 V c 0 t) (blk1 V c 1 t) (acc ⟨t.val - 1, by omega⟩)) :
    dat.arrAt 2 cfg1.N = gWc (V c main_v3_0) (V c main_v3_3) :=
  dat.arrAt_eq_of_cover 2 (gWc (V c main_v3_0) (V c main_v3_3)) (flushed1_eq V dat acc hflush hfirst hnext) fun i => by
    have hN : cfg1.N = 16 := N_1
    have h0 : ((i : S1024x2048.Idx) 0).val < 1024 := (i 0).isLt
    have h1 : ((i : S1024x2048.Idx) 1).val < 2048 := (i 1).isLt
    have hlt : 8 * ((i 0).val / 512) + 4 * ((i 1).val / 1024) + 3 < cfg1.N := by omega
    obtain ⟨-, -, -, -, e0, e1⟩ := idx1 ⟨8 * ((i 0).val / 512) + 4 * ((i 1).val / 1024) + 3, hlt⟩
    refine ⟨⟨8 * ((i 0).val / 512) + 4 * ((i 1).val / 1024) + 3, hlt⟩, (flush1_2 _).mpr (by
      show (8 * ((i 0).val / 512) + 4 * ((i 1).val / 1024) + 3) % 4 = 3; omega), ?_⟩
    rw [mem_blk1]
    intro a
    match a with
    | ⟨0, _⟩ =>
      show win1_2.index _ 0 * 512 ≤ (i 0).val ∧ (i 0).val < win1_2.index _ 0 * 512 + 512
      rw [e0]
      show (8 * ((i 0).val / 512) + 4 * ((i 1).val / 1024) + 3) / 8 % 2 * 512 ≤ (i 0).val
        ∧ (i 0).val < (8 * ((i 0).val / 512) + 4 * ((i 1).val / 1024) + 3) / 8 % 2 * 512 + 512
      omega
    | ⟨1, _⟩ =>
      show win1_2.index _ 1 * 1024 ≤ (i 1).val ∧ (i 1).val < win1_2.index _ 1 * 1024 + 1024
      rw [e1]
      show (8 * ((i 0).val / 512) + 4 * ((i 1).val / 1024) + 3) / 4 % 2 * 1024 ≤ (i 1).val
        ∧ (i 1).val < (8 * ((i 0).val / 512) + 4 * ((i 1).val / 1024) + 3) / 4 % 2 * 1024 + 1024
      omega

/-! ## Region 2 -/

/-- The block of window `w` at point `t`, read out of the array the window is over. -/
def blk2 (c : Dev nD) (w : Fin cfg2.W) (t : Fin cfg2.N) :
    ((cfg2.win w).xblock (cfg2.grid.coords t)).Idx → Elt Ideal (cfg2.win w).elt :=
  ((cfg2.win w).blk t).view.read (Elt Ideal) (V c (Pipeline.arrRef spec2 w))

/-- The product of the first array transposed with the second, scaled by the constant word. -/
def gPc (Kk Kf : S8192x2048.Idx → EReal) : S2048x2048.Idx → EReal :=
  fun j => (∑ b : Fin 8192, Kk (ix2 b (j 0)) * Kf (ix2 b (j 1))) * Ideal.ofBits .f32 0x39000000#32

/-- The block indices at point `t = 16 i + 4 j + kk`: the inputs' are `(kk, i)` and `(kk, j)`, the output's `(i, j)`. -/
theorem idx2 : ∀ t : Fin cfg2.N, win2_0.index t (0 : Fin 2) = t.val % 4 ∧ win2_0.index t (1 : Fin 2) = t.val / 16 % 4
    ∧ win2_1.index t (0 : Fin 2) = t.val % 4 ∧ win2_1.index t (1 : Fin 2) = t.val / 4 % 4
    ∧ win2_2.index t (0 : Fin 2) = t.val / 16 % 4 ∧ win2_2.index t (1 : Fin 2) = t.val / 4 % 4 :=
  (by decide +kernel : ∀ t : Fin grid2.N, _)

/-- The first input's block at point `t` holds rows `2048 kk + b` and columns `512 i + p` of its array. -/
theorem blk2_0_apply (t : Fin cfg2.N) (b : Fin 2048) (p : Fin 512) :
    blk2 V c 0 t (ix2 b p)
      = V c main_v3_3 (ix2 (⟨2048 * (t.val % 4) + b.val, by omega⟩ : Fin 8192) (⟨512 * (t.val / 16 % 4) + p.val, by omega⟩ : Fin 2048)) := by
  obtain ⟨e0, e1, -, -, -, -⟩ := idx2 t
  unfold blk2
  rw [View.read_apply]
  show V c main_v3_3 _ = V c main_v3_3 _
  refine congrArg (V c main_v3_3) ?_
  funext a
  apply Fin.ext
  match a with
  | ⟨0, _⟩ => show win2_0.index t 0 * 2048 + 1 * b.val = 2048 * (t.val % 4) + b.val; rw [e0]; omega
  | ⟨1, _⟩ => show win2_0.index t 1 * 512 + 1 * p.val = 512 * (t.val / 16 % 4) + p.val; rw [e1]; omega

/-- The second input's block at point `t` holds rows `2048 kk + b` and columns `512 j + q` of its array. -/
theorem blk2_1_apply (t : Fin cfg2.N) (b : Fin 2048) (q : Fin 512) :
    blk2 V c 1 t (ix2 b q)
      = V c main_v3_4 (ix2 (⟨2048 * (t.val % 4) + b.val, by omega⟩ : Fin 8192) (⟨512 * (t.val / 4 % 4) + q.val, by omega⟩ : Fin 2048)) := by
  obtain ⟨-, -, e0, e1, -, -⟩ := idx2 t
  unfold blk2
  rw [View.read_apply]
  show V c main_v3_4 _ = V c main_v3_4 _
  refine congrArg (V c main_v3_4) ?_
  funext a
  apply Fin.ext
  match a with
  | ⟨0, _⟩ => show win2_1.index t 0 * 2048 + 1 * b.val = 2048 * (t.val % 4) + b.val; rw [e0]; omega
  | ⟨1, _⟩ => show win2_1.index t 1 * 512 + 1 * q.val = 512 * (t.val / 4 % 4) + q.val; rw [e1]; omega

/-- The term of the contraction, at row `b` of the two arrays, for entry `(p, q)` of output block `(i, j)`. -/
def term2 (Kk Kf : S8192x2048.Idx → EReal) (i j : ℕ) (p q : Fin 512) : Fin 8192 → EReal :=
  fun b => Kk (ix2 b (⟨512 * (i % 4) + p.val, by omega⟩ : Fin 2048)) * Kf (ix2 b (⟨512 * (j % 4) + q.val, by omega⟩ : Fin 2048))

/-- One accumulation step at point `t` (its step number `kk` named `k`) adds the `k`-th stretch of 2048 terms. -/
theorem step2 (t : Fin cfg2.N) (k : ℕ) (hk : t.val % 4 = k) (v7 : Vec Ideal S512x512 .f32) (p q : Fin 512) :
    k2_pay2 (blk2 V c 0 t) (blk2 V c 1 t) v7 (ix2 p q)
      = v7 (ix2 p q) + ∑ b : Fin 2048,
          term2 (V c main_v3_3) (V c main_v3_4) (t.val / 16) (t.val / 4) p q ⟨2048 * k + b.val, by omega⟩ := by
  subst hk
  refine (k2_pay2_apply _ _ _ p q).trans ?_
  refine congrArg (v7 (ix2 p q) + ·) (Finset.sum_congr rfl fun b _ => ?_)
  exact congrArg₂ (· * ·) (blk2_0_apply V t b p) (blk2_1_apply V t b q)

/-- After the last of its four steps the accumulator holds, at `(p, q)`, the whole sum over the 8192 rows. -/
theorem acc2_last (acc : Fin cfg2.N → Vec Ideal S512x512 .f32)
    (hfirst : ∀ t : Fin cfg2.N, t.val % 4 = 0 → acc t = k2_pay2 (blk2 V c 0 t) (blk2 V c 1 t) (k2_pay1 (F := Ideal)))
    (hnext : ∀ (t : Fin cfg2.N) (h : t.val % 4 ≠ 0), acc t = k2_pay2 (blk2 V c 0 t) (blk2 V c 1 t) (acc ⟨t.val - 1, by omega⟩))
    (t : Fin cfg2.N) (ht : t.val % 4 = 3) (p q : Fin 512) :
    acc t (ix2 p q) = ∑ b : Fin 8192, term2 (V c main_v3_3) (V c main_v3_4) (t.val / 16) (t.val / 4) p q b := by
  have hN : cfg2.N = 64 := N_2
  have htl : t.val < 64 := hN ▸ t.isLt
  let s : ℕ → EReal := fun k => match k with
    | 0 => 0
    | k + 1 => if h : t.val - 3 + k < cfg2.N then acc ⟨t.val - 3 + k, h⟩ (ix2 p q) else 0
  have key := Cert.Lib.sum_by_blocks (n := 4) (b := 2048) (N := 8192) rfl
    (term2 (V c main_v3_3) (V c main_v3_4) (t.val / 16) (t.val / 4) p q) s rfl (fun k hk => ?_)
  · have h3 : t.val - 3 + 3 = t.val := by omega
    have e : s 4 = acc t (ix2 p q) := by
      show (if h : t.val - 3 + 3 < cfg2.N then acc ⟨t.val - 3 + 3, h⟩ (ix2 p q) else 0) = _
      rw [dif_pos (by rw [h3]; exact t.isLt)]
      exact congrArg (fun u => acc u (ix2 p q)) (Fin.ext h3)
    rw [← e]; exact key
  · have hk' : t.val - 3 + k < cfg2.N := by omega
    show (if h : t.val - 3 + k < cfg2.N then acc ⟨t.val - 3 + k, h⟩ (ix2 p q) else 0) = s k + _
    rw [dif_pos hk']
    have hu16 : (t.val - 3 + k) / 16 = t.val / 16 := by omega
    have hu4 : (t.val - 3 + k) / 4 = t.val / 4 := by omega
    have hum : (t.val - 3 + k) % 4 = k := by omega
    cases k with
    | zero =>
      rw [hfirst ⟨t.val - 3 + 0, hk'⟩ hum]
      refine (step2 V ⟨t.val - 3 + 0, hk'⟩ 0 hum _ p q).trans ?_
      rw [k2_pay1_apply]
      show 0 + ∑ b : Fin 2048, term2 _ _ ((t.val - 3 + 0) / 16) ((t.val - 3 + 0) / 4) p q _ = 0 + _
      rw [hu16, hu4]
    | succ k =>
      rw [hnext ⟨t.val - 3 + (k + 1), hk'⟩ (by show (t.val - 3 + (k + 1)) % 4 ≠ 0; omega)]
      refine (step2 V ⟨t.val - 3 + (k + 1), hk'⟩ (k + 1) hum _ p q).trans ?_
      have hk'' : t.val - 3 + k < cfg2.N := by omega
      show acc ⟨t.val - 3 + (k + 1) - 1, _⟩ (ix2 p q)
          + ∑ b : Fin 2048, term2 _ _ ((t.val - 3 + (k + 1)) / 16) ((t.val - 3 + (k + 1)) / 4) p q _
        = (if h : t.val - 3 + k < cfg2.N then acc ⟨t.val - 3 + k, h⟩ (ix2 p q) else 0) + _
      rw [dif_pos hk'', hu16, hu4]
      exact congrArg (fun u => acc u (ix2 p q) + _) (Fin.ext (by show t.val - 3 + (k + 1) - 1 = t.val - 3 + k; omega))

/-- An index of the output array lies in point `t`'s block iff each coordinate lies in the block's range on its axis. -/
theorem mem_blk2 (t : Fin cfg2.N) (i : S2048x2048.Idx) :
    i ∈ ((cfg2.win 2).blk t).view.set
      ↔ ∀ a : Fin 2, win2_2.index t a * S512x512.size a ≤ (i a).val
          ∧ (i a).val < win2_2.index t a * S512x512.size a + S512x512.size a := by
  show i ∈ ((View.whole main_v5).slice (win2_2.rect t)).set ↔ _
  rw [View.set_slice_whole, Rect.mem_set_unit]
  exact Iff.rfl

/-- What a point that writes back writes is its block of the scaled product. -/
theorem flushed2_eq (dat : Dat τ (Elt Ideal) Unit ℕ (UR sig nD τ) ℕ cfg2 c) (acc : Fin cfg2.N → Vec Ideal S512x512 .f32)
    (hflush : ∀ t : Fin cfg2.N, t.val % 4 = 3 → dat.after 2 t = k2_pay3 (acc t))
    (hfirst : ∀ t : Fin cfg2.N, t.val % 4 = 0 → acc t = k2_pay2 (blk2 V c 0 t) (blk2 V c 1 t) (k2_pay1 (F := Ideal)))
    (hnext : ∀ (t : Fin cfg2.N) (h : t.val % 4 ≠ 0), acc t = k2_pay2 (blk2 V c 0 t) (blk2 V c 1 t) (acc ⟨t.val - 1, by omega⟩))
    (t : Fin cfg2.N) (hf : (cfg2.win 2).flush t = true) :
    dat.flushed 2 t = ((cfg2.win 2).blk t).view.read (Elt Ideal) (gPc (V c main_v3_3) (V c main_v3_4)) := by
  have ht : t.val % 4 = 3 := (flush2_2 t).mp hf
  obtain ⟨-, -, -, -, e0, e1⟩ := idx2 t
  show (cfg2.win 2).cut (grid2.coords t) (dat.after 2 t) = _
  rw [hflush t ht]
  funext y
  obtain ⟨p, q, rfl⟩ : ∃ (p : Fin 512) (q : Fin 512), y = ix2 p q := ⟨y 0, y 1, eq_ix2 (n0 := 512) (n1 := 512) y⟩
  rw [View.read_apply]
  show k2_pay3 (acc t) (ix2 p q) = gPc (V c main_v3_3) (V c main_v3_4) (((cfg2.win 2).blk t).view.emb (ix2 p q))
  rw [k2_pay3_apply, acc2_last V acc hfirst hnext t ht p q]
  unfold gPc term2
  refine congrArg (· * Ideal.ofBits .f32 0x39000000#32) (Finset.sum_congr rfl fun b _ => ?_)
  refine congrArg₂ (· * ·) (congrArg _ (congrArg (ix2 b) (Fin.ext ?_))) (congrArg _ (congrArg (ix2 b) (Fin.ext ?_)))
  · show 512 * (t.val / 16 % 4) + p.val = win2_2.index t 0 * 512 + 1 * p.val
    rw [e0]; omega
  · show 512 * (t.val / 4 % 4) + q.val = win2_2.index t 1 * 512 + 1 * q.val
    rw [e1]; omega

/-- The output array of region 2 ends holding the scaled product of the first array transposed with the second. -/
theorem final2 (dat : Dat τ (Elt Ideal) Unit ℕ (UR sig nD τ) ℕ cfg2 c) (acc : Fin cfg2.N → Vec Ideal S512x512 .f32)
    (hflush : ∀ t : Fin cfg2.N, t.val % 4 = 3 → dat.after 2 t = k2_pay3 (acc t))
    (hfirst : ∀ t : Fin cfg2.N, t.val % 4 = 0 → acc t = k2_pay2 (blk2 V c 0 t) (blk2 V c 1 t) (k2_pay1 (F := Ideal)))
    (hnext : ∀ (t : Fin cfg2.N) (h : t.val % 4 ≠ 0), acc t = k2_pay2 (blk2 V c 0 t) (blk2 V c 1 t) (acc ⟨t.val - 1, by omega⟩)) :
    dat.arrAt 2 cfg2.N = gPc (V c main_v3_3) (V c main_v3_4) :=
  dat.arrAt_eq_of_cover 2 (gPc (V c main_v3_3) (V c main_v3_4)) (flushed2_eq V dat acc hflush hfirst hnext) fun i => by
    have hN : cfg2.N = 64 := N_2
    have h0 : ((i : S2048x2048.Idx) 0).val < 2048 := (i 0).isLt
    have h1 : ((i : S2048x2048.Idx) 1).val < 2048 := (i 1).isLt
    have hlt : 16 * ((i 0).val / 512) + 4 * ((i 1).val / 512) + 3 < cfg2.N := by omega
    obtain ⟨-, -, -, -, e0, e1⟩ := idx2 ⟨16 * ((i 0).val / 512) + 4 * ((i 1).val / 512) + 3, hlt⟩
    refine ⟨⟨16 * ((i 0).val / 512) + 4 * ((i 1).val / 512) + 3, hlt⟩, (flush2_2 _).mpr (by
      show (16 * ((i 0).val / 512) + 4 * ((i 1).val / 512) + 3) % 4 = 3; omega), ?_⟩
    rw [mem_blk2]
    intro a
    match a with
    | ⟨0, _⟩ =>
      show win2_2.index _ 0 * 512 ≤ (i 0).val ∧ (i 0).val < win2_2.index _ 0 * 512 + 512
      rw [e0]
      show (16 * ((i 0).val / 512) + 4 * ((i 1).val / 512) + 3) / 16 % 4 * 512 ≤ (i 0).val
        ∧ (i 0).val < (16 * ((i 0).val / 512) + 4 * ((i 1).val / 512) + 3) / 16 % 4 * 512 + 512
      omega
    | ⟨1, _⟩ =>
      show win2_2.index _ 1 * 512 ≤ (i 1).val ∧ (i 1).val < win2_2.index _ 1 * 512 + 512
      rw [e1]
      show (16 * ((i 0).val / 512) + 4 * ((i 1).val / 512) + 3) / 4 % 4 * 512 ≤ (i 1).val
        ∧ (i 1).val < (16 * ((i 0).val / 512) + 4 * ((i 1).val / 512) + 3) / 4 % 4 * 512 + 512
      omega

end Cert.KernelIdeal.Val
-- ==== Proof.Bridge.lean ====
import Idealize.ShloMosaic.PureOps.Ideal
import Idealize.ShloMosaic.PureOps.Ideal.Laws

/-!
# The algebra between the two programs' formulas

The kernel multiplies by the reciprocal of the batch size where the reference divides by it, subtracts from zero where
the reference negates, and adds its zero in a different place. Each difference is an identity of the extended reals,
valid at the infinities too.
-/

noncomputable section

open scoped BigOperators

namespace Cert.Bridge

open Idealize.ShloMosaic

/-- The word of the batch size denotes the real 8192. -/
theorem ofBits_8192 : Ideal.ofBits .f32 0x46000000#32 = ((8192 : ℝ) : EReal) := by
  simp [Ideal.ofBits, Ideal.ieee, -EReal.coe_mul]; norm_num

/-- The word of its reciprocal denotes the real 1/8192 (a power of two, so exactly). -/
theorem ofBits_inv8192 : Ideal.ofBits .f32 0x39000000#32 = ((1 / 8192 : ℝ) : EReal) := by
  simp [Ideal.ofBits, Ideal.ieee, -EReal.coe_mul]; norm_num

/-- Dividing by the batch size is multiplying by its reciprocal, at every extended real. -/
theorem div_8192 (a : EReal) : Ideal.div a (Ideal.ofBits .f32 0x46000000#32) = a * Ideal.ofBits .f32 0x39000000#32 := by
  rw [ofBits_8192, ofBits_inv8192, Ideal.div_coe (by norm_num)]

/-- Subtracting from zero is negating. -/
theorem zero_sub_eq_neg (a : EReal) : 0 - a = -a := by
  rw [sub_eq_add_neg, zero_add]

/-- An added zero may sit after either summand. -/
theorem add_zero_comm (A B : EReal) : (A + B) + 0 = (A + 0) + B := by
  rw [add_zero, add_zero]

/-- The weight update: subtracting the scaled sum of error times gain is adding the quotient of the negated sum of
    gain times error by the batch size. -/
theorem win_bridge {ι : Type} [Fintype ι] (w : EReal) (e k : ι → EReal) :
    w - (∑ b, e b * k b) * Ideal.ofBits .f32 0x39000000#32
      = w + Ideal.div (-(∑ b, k b * e b)) (Ideal.ofBits .f32 0x46000000#32) := by
  have hc : (∑ b, k b * e b) = ∑ b, e b * k b := Finset.sum_congr rfl fun b _ => mul_comm _ _
  rw [hc, div_8192, EReal.neg_mul, sub_eq_add_neg]

/-- The P update: scaling by the reciprocal is dividing by the batch size. -/
theorem P_bridge (p S : EReal) :
    p - S * Ideal.ofBits .f32 0x39000000#32 = p - Ideal.div S (Ideal.ofBits .f32 0x46000000#32) := by
  rw [div_8192]

end Cert.Bridge

end
-- ==== Proof.RefValue.lean ====
import proofs.«180393_j10222022164698_1_alg».proof.Proof.Gen.ReferenceIdeal.Read

/-!
# The reference's five results, element by element

Each value the reference returns is read at one index as an explicit expression of the six argument arrays over the
extended reals: the two matrix products behind the pre-activation, the gain vector of the recursive least-squares step,
the two rank-one-sum updates, and the pointwise chains that produce the rate and the new state.
-/

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The formulas -/

section Formulas

variable (x : FVec Ideal S8192x2048 .f32) (s y : FVec Ideal S8192x1024 .f32) (P : FVec Ideal S2048x2048 .f32)
  (win : FVec Ideal S1024x2048 .f32) (wr : FVec Ideal S1024x1024 .f32)

/-- The pre-activation at row b, unit h: the input row against row h of the input weights, plus the zero the program
    adds, plus the state row against row h of the recurrent weights. -/
def rx (b : Fin 8192) (h : Fin 1024) : EReal :=
  ((∑ i : Fin 2048, x (ix2 b i) * win (ix2 h i)) + 0) + ∑ j : Fin 1024, s (ix2 b j) * wr (ix2 h j)

/-- The prediction error: pre-activation minus target. -/
def err (b : Fin 8192) (h : Fin 1024) : EReal := rx x s win wr b h - y (ix2 b h)

/-- Row b of x against row i of P (that is, (x Pᵀ)[b, i]). -/
def kf (b : Fin 8192) (i : Fin 2048) : EReal := ∑ j : Fin 2048, x (ix2 b j) * P (ix2 i j)

/-- The quadratic form of row b: the sum over i of (x Pᵀ)[b, i] · x[b, i], from the zero the reduction starts at. -/
def rPr (b : Fin 8192) : EReal := 0 + ∑ i : Fin 2048, kf x P b i * x (ix2 b i)

/-- The gain: (x Pᵀ)[b, i] divided by one plus the quadratic form of row b. -/
def kv (b : Fin 8192) (i : Fin 2048) : EReal :=
  Ideal.div (kf x P b i) (Ideal.ofBits .f32 0x3F800000#32 + rPr x P b)

/-- The new input weights: the old ones minus the batch mean of gain times error (the mean's divisor is 8192). -/
def winNew (h : Fin 1024) (i : Fin 2048) : EReal :=
  win (ix2 h i) + Ideal.div (-(∑ b : Fin 8192, kv x P b i * err x s y win wr b h)) (Ideal.ofBits .f32 0x46000000#32)

/-- The new P: the old one minus the batch mean of gain times (x Pᵀ). -/
def PNew (i j : Fin 2048) : EReal :=
  P (ix2 i j) - Ideal.div (∑ b : Fin 8192, kv x P b i * kf x P b j) (Ideal.ofBits .f32 0x46000000#32)

/-- The added zero drops out of the pre-activation. -/
theorem rx_eq_sums (b : Fin 8192) (h : Fin 1024) :
    rx x s win wr b h = (∑ i : Fin 2048, x (ix2 b i) * win (ix2 h i)) + ∑ j : Fin 1024, s (ix2 b j) * wr (ix2 h j) := by
  unfold rx; rw [add_zero]

/-- The reduction's zero start drops out of the quadratic form. -/
theorem rPr_eq_sum (b : Fin 8192) : rPr x P b = ∑ i : Fin 2048, kf x P b i * x (ix2 b i) := by
  unfold rPr; rw [zero_add]

end Formulas

/-! ## The pointwise chains (functions of one pre-activation and one state entry) -/

/-- The scaled, shifted pre-activation: c₃ · (c₁ · a − c₂). -/
def uOf (a : EReal) : EReal :=
  Ideal.ofBits .f32 0x3E1DB22D#32 * (Ideal.ofBits .f32 0x43870000#32 * a - Ideal.ofBits .f32 0x42D80000#32)

/-- The bit "the scaled pre-activation is within the small threshold of zero". -/
def smallOf (a : EReal) : BitVec 1 :=
  Ideal.cmp .olt (max (uOf a) (-(uOf a))) (Ideal.ofBits .f32 0x358637BD#32)

/-- The scaled pre-activation with one substituted near zero (so that the quotient below is defined). -/
def vOf (a : EReal) : EReal := Scalar.select (smallOf a) (Ideal.ofBits .f32 0x3F800000#32) (uOf a)

/-- The rate: v / (c₃ · (1 − e^(−v))), with its limit value substituted near zero. -/
def rOf (a : EReal) : EReal :=
  Scalar.select (smallOf a) (Ideal.ofBits .f32 0x40CFCACE#32)
    (Ideal.div (vOf a) (Ideal.ofBits .f32 0x3E1DB22D#32 * (Ideal.ofBits .f32 0x3F800000#32 - Ideal.exp (-(vOf a)))))

/-- The new state entry: σ + c₅ · (−σ + ((1 − σ) · c₄) · rate). -/
def sNewOf (a σ : EReal) : EReal :=
  σ + Ideal.ofBits .f32 0x3C23D70A#32
    * (-σ + ((Ideal.ofBits .f32 0x3F800000#32 - σ) * Ideal.ofBits .f32 0x3DCCCCCD#32) * rOf a)

/-! ## The five result arrays -/

section Arrays

variable (x : FVec Ideal S8192x2048 .f32) (s y : FVec Ideal S8192x1024 .f32) (P : FVec Ideal S2048x2048 .f32)
  (win : FVec Ideal S1024x2048 .f32) (wr : FVec Ideal S1024x1024 .f32)

/-- The error array. -/
def refErr : FVec Ideal S8192x1024 .f32 := fun j => err x s y win wr (j 0) (j 1)
/-- The rate array. -/
def refR : FVec Ideal S8192x1024 .f32 := fun j => rOf (rx x s win wr (j 0) (j 1))
/-- The new state array. -/
def refSnew : FVec Ideal S8192x1024 .f32 := fun j => sNewOf (rx x s win wr (j 0) (j 1)) (s j)
/-- The new P array. -/
def refP : FVec Ideal S2048x2048 .f32 := fun j => PNew x P (j 0) (j 1)
/-- The new input-weight array. -/
def refWin : FVec Ideal S1024x2048 .f32 := fun j => winNew x s y P win wr (j 0) (j 1)

theorem refErr_apply (b : Fin 8192) (h : Fin 1024) : refErr x s y win wr (ix2 b h) = err x s y win wr b h := rfl
theorem refR_apply (b : Fin 8192) (h : Fin 1024) : refR x s win wr (ix2 b h) = rOf (rx x s win wr b h) := rfl
theorem refSnew_apply (b : Fin 8192) (h : Fin 1024) :
    refSnew x s win wr (ix2 b h) = sNewOf (rx x s win wr b h) (s (ix2 b h)) := rfl
theorem refP_apply (i j : Fin 2048) : refP x P (ix2 i j) = PNew x P i j := rfl
theorem refWin_apply (h : Fin 1024) (i : Fin 2048) : refWin x s y P win wr (ix2 h i) = winNew x s y P win wr h i := rfl

end Arrays

/-! ## The operand indices of each product and sum, by coordinates -/

section Indices

theorem lidx_v1 (b : Fin 8192) (h : Fin 1024) (q : Fin 2048) : lidx_main_v1 (ix2 b h) q = ix2 b q :=
  funext fun a => Fin.ext (by match a with | ⟨0, _⟩ => rfl | ⟨1, _⟩ => rfl)
theorem ridx_v1 (b : Fin 8192) (h : Fin 1024) (q : Fin 2048) : idx_main_v0 (ridx_main_v1 (ix2 b h) q) = ix2 h q :=
  funext fun a => Fin.ext (by match a with | ⟨0, _⟩ => rfl | ⟨1, _⟩ => rfl)
theorem lidx_v5 (b : Fin 8192) (h : Fin 1024) (q : Fin 1024) : lidx_main_v5 (ix2 b h) q = ix2 b q :=
  funext fun a => Fin.ext (by match a with | ⟨0, _⟩ => rfl | ⟨1, _⟩ => rfl)
theorem ridx_v5 (b : Fin 8192) (h : Fin 1024) (q : Fin 1024) : idx_main_v4 (ridx_main_v5 (ix2 b h) q) = ix2 h q :=
  funext fun a => Fin.ext (by match a with | ⟨0, _⟩ => rfl | ⟨1, _⟩ => rfl)
theorem lidx_v9 (b : Fin 8192) (i : Fin 2048) (q : Fin 2048) : lidx_main_v9 (ix2 b i) q = ix2 b q :=
  funext fun a => Fin.ext (by match a with | ⟨0, _⟩ => rfl | ⟨1, _⟩ => rfl)
theorem ridx_v9 (b : Fin 8192) (i : Fin 2048) (q : Fin 2048) : idx_main_v8 (ridx_main_v9 (ix2 b i) q) = ix2 i q :=
  funext fun a => Fin.ext (by match a with | ⟨0, _⟩ => rfl | ⟨1, _⟩ => rfl)
theorem idx_v11 (b : Fin 8192) (q : Fin 2048) : idx_main_v11 (ix1 b) q = ix2 b q :=
  funext fun a => Fin.ext (by match a with | ⟨0, _⟩ => rfl | ⟨1, _⟩ => rfl)
theorem idx_v15 (b : Fin 8192) (i : Fin 2048) : idx_main_v12 (idx_main_v15 (ix2 b i)) = ix1 b :=
  funext fun a => Fin.ext (by match a with | ⟨0, _⟩ => rfl)
theorem lidx_v17 (h : Fin 1024) (i : Fin 2048) (q : Fin 8192) : lidx_main_v17 (idx_main_v21 (ix2 h i)) q = ix2 q i :=
  funext fun a => Fin.ext (by match a with | ⟨0, _⟩ => rfl | ⟨1, _⟩ => rfl)
theorem ridx_v17 (h : Fin 1024) (i : Fin 2048) (q : Fin 8192) : ridx_main_v17 (idx_main_v21 (ix2 h i)) q = ix2 q h :=
  funext fun a => Fin.ext (by match a with | ⟨0, _⟩ => rfl | ⟨1, _⟩ => rfl)
theorem lidx_v24 (i j : Fin 2048) (q : Fin 8192) : idx_main_v23 (lidx_main_v24 (ix2 i j) q) = ix2 q i :=
  funext fun a => Fin.ext (by match a with | ⟨0, _⟩ => rfl | ⟨1, _⟩ => rfl)
theorem ridx_v24 (i j : Fin 2048) (q : Fin 8192) : ridx_main_v24 (ix2 i j) q = ix2 q j :=
  funext fun a => Fin.ext (by match a with | ⟨0, _⟩ => rfl | ⟨1, _⟩ => rfl)

end Indices

/-! ## Each stage of the reference at an index is its formula -/

section Stages

variable (x : FVec Ideal S8192x2048 .f32) (s y : FVec Ideal S8192x1024 .f32) (P : FVec Ideal S2048x2048 .f32)
  (win : FVec Ideal S1024x2048 .f32) (wr : FVec Ideal S1024x1024 .f32)

theorem rx_eq (b : Fin 8192) (h : Fin 1024) : val_main_v6 (F := Ideal) x s win wr (ix2 b h) = rx x s win wr b h := by
  rw [val_main_v6_apply, val_main_v3_apply, val_main_v1_apply, val_main_v5_apply, val_main_v2_apply, val_main_cst_apply]
  simp only [val_main_v0_apply, val_main_v4_apply, lidx_v1, ridx_v1, lidx_v5, ridx_v5, Ideal.addf_def, Ideal.ofBits_def,
    Ideal.ofBits_zero_f32]
  rfl

theorem err_eq (b : Fin 8192) (h : Fin 1024) :
    val_main_v7 (F := Ideal) x s y win wr (ix2 b h) = err x s y win wr b h := by
  rw [val_main_v7_apply, rx_eq]
  rfl

theorem kf_eq (b : Fin 8192) (i : Fin 2048) : val_main_v9 (F := Ideal) x P (ix2 b i) = kf x P b i := by
  rw [val_main_v9_apply]
  simp only [val_main_v8_apply, lidx_v9, ridx_v9]
  rfl

theorem rPr_eq (b : Fin 8192) : val_main_v11 (F := Ideal) x P (ix1 b) = rPr x P b := by
  rw [val_main_v11_apply, val_main_cst_0_apply]
  simp only [val_main_v10_apply, idx_v11, kf_eq, Ideal.mulf_def, Ideal.ofBits_def, Ideal.ofBits_zero_f32]
  rfl

theorem kv_eq (b : Fin 8192) (i : Fin 2048) : val_main_v16 (F := Ideal) x P (ix2 b i) = kv x P b i := by
  rw [val_main_v16_apply, val_main_v15_apply, val_main_v14_apply, val_main_v13_apply, val_main_cst_1_apply,
    val_main_v12_apply, idx_v15, rPr_eq, kf_eq]
  rfl

theorem winNew_eq (h : Fin 1024) (i : Fin 2048) :
    val_main_v22 (F := Ideal) x s y P win wr (ix2 h i) = winNew x s y P win wr h i := by
  rw [val_main_v22_apply, val_main_v21_apply, val_main_v20_apply, val_main_v19_apply, val_main_cst_2_apply,
    val_main_v18_apply, val_main_v17_apply]
  simp only [lidx_v17, ridx_v17, kv_eq, err_eq]
  rfl

theorem PNew_eq (i j : Fin 2048) : val_main_v27 (F := Ideal) x P (ix2 i j) = PNew x P i j := by
  rw [val_main_v27_apply, val_main_v26_apply, val_main_v25_apply, val_main_cst_3_apply, val_main_v24_apply]
  simp only [val_main_v23_apply, lidx_v24, ridx_v24, kv_eq, kf_eq]
  rfl

theorem u_eq (b : Fin 8192) (h : Fin 1024) :
    val_main_v33 (F := Ideal) x s win wr (ix2 b h) = uOf (rx x s win wr b h) := by
  rw [val_main_v33_apply, val_main_v32_apply, val_main_cst_6_apply, val_main_v31_apply, val_main_v30_apply,
    val_main_cst_5_apply, val_main_v29_apply, val_main_v28_apply, val_main_cst_4_apply, rx_eq]
  rfl

theorem small_eq (b : Fin 8192) (h : Fin 1024) :
    val_main_v36 (F := Ideal) x s win wr (ix2 b h) = smallOf (rx x s win wr b h) := by
  rw [val_main_v36_apply, val_main_v35_apply, val_main_cst_7_apply, val_main_v34_apply, u_eq]
  rfl

theorem v_eq (b : Fin 8192) (h : Fin 1024) :
    val_main_v37 (F := Ideal) x s win wr (ix2 b h) = vOf (rx x s win wr b h) := by
  rw [val_main_v37_apply, small_eq, u_eq, val_main_call0_v1_apply, val_main_call0_v0_apply, val_main_cst_8_apply]
  rfl

theorem r_eq (b : Fin 8192) (h : Fin 1024) :
    val_main_v45 (F := Ideal) x s win wr (ix2 b h) = rOf (rx x s win wr b h) := by
  rw [val_main_v45_apply, small_eq, val_main_call1_v1_apply, val_main_call1_v0_apply, val_main_cst_11_apply,
    val_main_v44_apply, val_main_v43_apply, val_main_v42_apply, val_main_cst_10_apply, val_main_v41_apply,
    val_main_v40_apply, val_main_cst_9_apply, val_main_v39_apply, val_main_v38_apply, v_eq]
  rfl

theorem sNew_eq (b : Fin 8192) (h : Fin 1024) :
    val_main_v55 (F := Ideal) x s win wr (ix2 b h) = sNewOf (rx x s win wr b h) (s (ix2 b h)) := by
  rw [val_main_v55_apply, val_main_v54_apply, val_main_v53_apply, val_main_cst_14_apply, val_main_v52_apply,
    val_main_v51_apply, val_main_v50_apply, val_main_v49_apply, val_main_cst_13_apply, val_main_v48_apply,
    val_main_v47_apply, val_main_cst_12_apply, val_main_v46_apply, r_eq]
  rfl

end Stages

/-! ## The five results as arrays -/

section Results

variable (x : FVec Ideal S8192x2048 .f32) (s y : FVec Ideal S8192x1024 .f32) (P : FVec Ideal S2048x2048 .f32)
  (win : FVec Ideal S1024x2048 .f32) (wr : FVec Ideal S1024x1024 .f32)

theorem res_err : val_main_v7 (F := Ideal) x s y win wr = refErr x s y win wr :=
  funext fun j => by
    obtain ⟨b, h, rfl⟩ : ∃ b h, j = ix2 b h := ⟨j 0, j 1, eq_ix2 j⟩
    exact err_eq x s y win wr b h

theorem res_r : val_main_v45 (F := Ideal) x s win wr = refR x s win wr :=
  funext fun j => by
    obtain ⟨b, h, rfl⟩ : ∃ b h, j = ix2 b h := ⟨j 0, j 1, eq_ix2 j⟩
    exact r_eq x s win wr b h

theorem res_snew : val_main_v55 (F := Ideal) x s win wr = refSnew x s win wr :=
  funext fun j => by
    obtain ⟨b, h, rfl⟩ : ∃ b h, j = ix2 b h := ⟨j 0, j 1, eq_ix2 j⟩
    exact sNew_eq x s win wr b h

theorem res_P : val_main_v27 (F := Ideal) x P = refP x P :=
  funext fun j => by
    obtain ⟨i, l, rfl⟩ : ∃ i l, j = ix2 i l := ⟨j 0, j 1, eq_ix2 j⟩
    exact PNew_eq x P i l

theorem res_win : val_main_v22 (F := Ideal) x s y P win wr = refWin x s y P win wr :=
  funext fun j => by
    obtain ⟨h, i, rfl⟩ : ∃ h i, j = ix2 h i := ⟨j 0, j 1, eq_ix2 j⟩
    exact winNew_eq x s y P win wr h i

end Results

/-! ## The run -/

/-- From any memory with zero counters, every weakly fair execution of the reference terminates with its five results
    at the five arrays above, read off the six arguments' launch contents, and the arguments unchanged. -/
theorem run_ref (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v7)
          = refErr (m' ((c.tc : Thread nD τ).loc main_arg0)) (m' ((c.tc : Thread nD τ).loc main_arg1))
              (m' ((c.tc : Thread nD τ).loc main_arg2)) (m' ((c.tc : Thread nD τ).loc main_arg4))
              (m' ((c.tc : Thread nD τ).loc main_arg5))
      ∧ r.2.mem ((c.tc : Thread nD τ).loc main_v45)
          = refR (m' ((c.tc : Thread nD τ).loc main_arg0)) (m' ((c.tc : Thread nD τ).loc main_arg1))
              (m' ((c.tc : Thread nD τ).loc main_arg4)) (m' ((c.tc : Thread nD τ).loc main_arg5))
      ∧ r.2.mem ((c.tc : Thread nD τ).loc main_v55)
          = refSnew (m' ((c.tc : Thread nD τ).loc main_arg0)) (m' ((c.tc : Thread nD τ).loc main_arg1))
              (m' ((c.tc : Thread nD τ).loc main_arg4)) (m' ((c.tc : Thread nD τ).loc main_arg5))
      ∧ r.2.mem ((c.tc : Thread nD τ).loc main_v27)
          = refP (m' ((c.tc : Thread nD τ).loc main_arg0)) (m' ((c.tc : Thread nD τ).loc main_arg3))
      ∧ r.2.mem ((c.tc : Thread nD τ).loc main_v22)
          = refWin (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5) :=
  (θ_run defs _ _).mono (fun _ h c => by
    obtain ⟨h7, h45, h55, h27, h22, hargs⟩ := h c
    exact ⟨h7.trans ((val_main_v7_eq _ _ _ _ _).trans (res_err _ _ _ _ _)),
      h45.trans ((val_main_v45_eq m' c).trans (res_r _ _ _ _)),
      h55.trans ((val_main_v55_eq m' c).trans (res_snew _ _ _ _)),
      h27.trans ((val_main_v27_eq _ _).trans (res_P _ _)),
      h22.trans ((val_main_v22_eq _ _ _ _ _ _).trans (res_win _ _ _ _ _ _)),
      hargs⟩)
    (Cert.ReferenceIdeal.Value.run (F := Ideal) m' ρ')

end Cert.ReferenceIdeal.RefValue

end
-- ==== Proof.BridgeVal.lean ====
import proofs.«180393_j10222022164698_1_alg».proof.Proof.Bridge
import proofs.«180393_j10222022164698_1_alg».proof.Proof.RefValue
import proofs.«180393_j10222022164698_1_alg».proof.Proof.Payloads0
import proofs.«180393_j10222022164698_1_alg».proof.Proof.IdealValue0
import proofs.«180393_j10222022164698_1_alg».proof.Proof.IdealValue12

/-!
# The kernel's formulas are the reference's

The pointwise chains of the two programs agree as functions on the extended reals (the kernel subtracts from the zero
word where the reference negates), and the kernel's whole-array values are the reference's result arrays.
-/

noncomputable section

open scoped BigOperators

namespace Cert.Bridge

open Idealize.ShloMosaic Idealize.ShloMosaic.ValueIdx Cert.ReferenceIdeal Cert.ReferenceIdeal.RefValue

/-! ## The pointwise chains -/

/-- The scaled and shifted pre-activation is the same expression in both programs. -/
theorem T_eq (a : EReal) : Cert.KernelIdeal.Pay.T a = uOf a := rfl

/-- So is the bit that says it is near zero. -/
theorem Small_eq (a : EReal) : Cert.KernelIdeal.Pay.Small (Cert.KernelIdeal.Pay.T a) = smallOf a := rfl

/-- The rate: the kernel's exponent is zero minus the value, the reference's its negation. -/
theorem LA_eq (a : EReal) : Cert.KernelIdeal.Pay.LA a = rOf a := by
  unfold Cert.KernelIdeal.Pay.LA Cert.KernelIdeal.Pay.R
  rw [Ideal.ofBits_zero_f32, zero_sub_eq_neg]
  rfl

/-- The new state: the kernel's leak term is zero minus the state, the reference's its negation. -/
theorem SN_eq (a σ : EReal) : Cert.KernelIdeal.Pay.SN σ (Cert.KernelIdeal.Pay.LA a) = sNewOf a σ := by
  unfold Cert.KernelIdeal.Pay.SN
  rw [Ideal.ofBits_zero_f32, zero_sub_eq_neg, LA_eq]
  rfl

/-- The rate of the reference's pre-activation, in the form the new-state chain takes it. -/
theorem SN_rOf_eq (a σ : EReal) : Cert.KernelIdeal.Pay.SN σ (rOf a) = sNewOf a σ :=
  (congrArg (Cert.KernelIdeal.Pay.SN σ) (LA_eq a).symm).trans (SN_eq a σ)

/-! ## The first kernel's whole-array values -/

section Region0

variable (x : FVec Ideal S8192x2048 .f32) (s y : FVec Ideal S8192x1024 .f32) (P : FVec Ideal S2048x2048 .f32)
  (win : FVec Ideal S1024x2048 .f32) (wr : FVec Ideal S1024x1024 .f32)

/-- The pre-activation: the kernel adds its zero after both products, the reference between them. -/
theorem gRx_ix2 (b : Fin 8192) (h : Fin 1024) :
    Cert.KernelIdeal.Val0.gRx x s win wr (ix2 b h) = rx x s win wr b h := by
  unfold Cert.KernelIdeal.Val0.gRx rx
  exact add_zero_comm _ _

theorem gErr_eq : Cert.KernelIdeal.Val0.gErr x s y win wr = refErr x s y win wr :=
  funext fun j => by
    obtain ⟨b, h, rfl⟩ : ∃ b h, j = ix2 b h := ⟨j 0, j 1, eq_ix2 j⟩
    exact (congrArg (· - y (ix2 b h)) (gRx_ix2 x s win wr b h)).trans (refErr_apply x s y win wr b h).symm

theorem gR_eq : Cert.KernelIdeal.Val0.gR x s win wr = refR x s win wr :=
  funext fun j => by
    obtain ⟨b, h, rfl⟩ : ∃ b h, j = ix2 b h := ⟨j 0, j 1, eq_ix2 j⟩
    exact ((congrArg Cert.KernelIdeal.Pay.LA (gRx_ix2 x s win wr b h)).trans (LA_eq _)).trans
      (refR_apply x s win wr b h).symm

theorem gSnew_eq : Cert.KernelIdeal.Val0.gSnew x s win wr = refSnew x s win wr :=
  funext fun j => by
    obtain ⟨b, h, rfl⟩ : ∃ b h, j = ix2 b h := ⟨j 0, j 1, eq_ix2 j⟩
    exact ((congrArg (Cert.KernelIdeal.Pay.SN (s (ix2 b h)))
      (congrArg Cert.KernelIdeal.Pay.LA (gRx_ix2 x s win wr b h))).trans (SN_eq _ _)).trans
      (refSnew_apply x s win wr b h).symm

theorem gKf_eq : Cert.KernelIdeal.Val0.gKf x P = fun j => kf x P (j 0) (j 1) :=
  funext fun j => rfl

/-- The gain: the reference's quadratic form starts from a zero the kernel's row sum does not have. -/
theorem gK_ix2 (b : Fin 8192) (i : Fin 2048) : Cert.KernelIdeal.Val0.gK x P (ix2 b i) = kv x P b i := by
  unfold Cert.KernelIdeal.Val0.gK kv
  rw [rPr_eq_sum]
  rfl

theorem gK_eq : Cert.KernelIdeal.Val0.gK x P = fun j => kv x P (j 0) (j 1) :=
  funext fun j => by
    obtain ⟨b, i, rfl⟩ : ∃ b i, j = ix2 b i := ⟨j 0, j 1, eq_ix2 j⟩
    exact gK_ix2 x P b i

end Region0

/-! ## The two accumulating kernels' whole-array values, and the updates -/

section Updates

variable (x : FVec Ideal S8192x2048 .f32) (s y : FVec Ideal S8192x1024 .f32) (P : FVec Ideal S2048x2048 .f32)
  (win : FVec Ideal S1024x2048 .f32) (wr : FVec Ideal S1024x1024 .f32)

/-- The new input weights: the kernel subtracts the batch sum of error times gain scaled by the reciprocal of the batch
    size; the reference adds the negated batch sum of gain times error divided by the batch size. -/
theorem win_eq :
    subf win (Cert.KernelIdeal.Val.gWc (refErr x s y win wr) (Cert.KernelIdeal.Val0.gK x P)) = refWin x s y P win wr :=
  funext fun j => by
    obtain ⟨h, i, rfl⟩ : ∃ h i, j = ix2 h i := ⟨j 0, j 1, eq_ix2 j⟩
    have hs : (∑ b : Fin 8192, refErr x s y win wr (ix2 b h) * Cert.KernelIdeal.Val0.gK x P (ix2 b i))
        = ∑ b : Fin 8192, err x s y win wr b h * kv x P b i :=
      Finset.sum_congr rfl fun b _ => congrArg₂ (· * ·) (refErr_apply x s y win wr b h) (gK_ix2 x P b i)
    show win (ix2 h i)
        - (∑ b : Fin 8192, refErr x s y win wr (ix2 b h) * Cert.KernelIdeal.Val0.gK x P (ix2 b i))
          * Ideal.ofBits .f32 0x39000000#32 = winNew x s y P win wr h i
    rw [hs]
    exact win_bridge (win (ix2 h i)) (fun b => err x s y win wr b h) (fun b => kv x P b i)

/-- The new P: scaling the batch sum of gain times projection by the reciprocal of the batch size is dividing it by the
    batch size. -/
theorem P_eq :
    subf P (Cert.KernelIdeal.Val.gPc (Cert.KernelIdeal.Val0.gK x P) (Cert.KernelIdeal.Val0.gKf x P)) = refP x P :=
  funext fun j => by
    obtain ⟨i, l, rfl⟩ : ∃ i l, j = ix2 i l := ⟨j 0, j 1, eq_ix2 j⟩
    have hs : (∑ b : Fin 8192, Cert.KernelIdeal.Val0.gK x P (ix2 b i) * Cert.KernelIdeal.Val0.gKf x P (ix2 b l))
        = ∑ b : Fin 8192, kv x P b i * kf x P b l :=
      Finset.sum_congr rfl fun b _ => congrArg₂ (· * ·) (gK_ix2 x P b i) rfl
    show P (ix2 i l)
        - (∑ b : Fin 8192, Cert.KernelIdeal.Val0.gK x P (ix2 b i) * Cert.KernelIdeal.Val0.gKf x P (ix2 b l))
          * Ideal.ofBits .f32 0x39000000#32 = PNew x P i l
    rw [hs]
    exact P_bridge _ _

end Updates

end Cert.Bridge

end
-- ==== Proof.IdealFinal.lean ====
/-
  What the idealized kernel's five result arrays end holding, as the reference's functions of the six launched arrays.
  The error, rate and state arrays are what the first region's grid points wrote back, row block by row block. The
  weight update is the input-weight matrix less the second region's array — over each 512 x 1024 block the four
  partial products over 2048 batch rows, added up in a carried accumulator and scaled by 2^-13 at the last step — and the
  correlation update likewise from the third region. On the extended reals the four partial sums are the one sum over
  all 8192 rows (addition is commutative and associative there, with no finiteness needed), multiplying by 2^-13 is
  dividing by 8192, and subtracting is adding the negative, which is how the reference spells the same numbers.
-/
import proofs.«180393_j10222022164698_1_alg».proof.Proof.IdealRun
import proofs.«180393_j10222022164698_1_alg».proof.Proof.IdealValue0
import proofs.«180393_j10222022164698_1_alg».proof.Proof.IdealValue12
import proofs.«180393_j10222022164698_1_alg».proof.Proof.BridgeVal

set_option maxRecDepth 16384

noncomputable section

namespace Cert.KernelIdeal.Final

open Cert.KernelIdeal Cert.KernelIdeal.Gen Cert.KernelIdeal.Run
open Idealize.ShloMosaic Idealize.ShloMosaic.TcCoe Idealize.SL.Sem
open Idealize.ShloMosaic.Pipeline (Dat)
open Cert.ReferenceIdeal.RefValue (refErr refR refSnew refP refWin)

variable (m : (ℓ : Loc nD τ sig) → Buf (Elt Ideal) ℓ) (ρ : Dev nD → PrngReg)

/-- The launched arrays on core `c`: the input batch, the state, the target, the correlation matrix, the input weights,
    the recurrent weights. -/
abbrev aX (c : Dev nD) : S8192x2048.Idx → EReal := m ((c.tc : Thread nD τ).loc main_arg0)
abbrev aS (c : Dev nD) : S8192x1024.Idx → EReal := m ((c.tc : Thread nD τ).loc main_arg1)
abbrev aY (c : Dev nD) : S8192x1024.Idx → EReal := m ((c.tc : Thread nD τ).loc main_arg2)
abbrev aP (c : Dev nD) : S2048x2048.Idx → EReal := m ((c.tc : Thread nD τ).loc main_arg3)
abbrev aW (c : Dev nD) : S1024x2048.Idx → EReal := m ((c.tc : Thread nD τ).loc main_arg4)
abbrev aR (c : Dev nD) : S1024x1024.Idx → EReal := m ((c.tc : Thread nD τ).loc main_arg5)

/-! ## What the first region is entered with -/

theorem in_x (c : Dev nD) : Vt (W1 m ρ) c main_arg0 = aX m c := W1_main_arg0 m ρ c
theorem in_s (c : Dev nD) : Vt (W1 m ρ) c main_arg1 = aS m c := W1_main_arg1 m ρ c
theorem in_y (c : Dev nD) : Vt (W1 m ρ) c main_arg2 = aY m c := W1_main_arg2 m ρ c
/-- Converting to the narrow format changes nothing on the extended reals. -/
theorem in_w (c : Dev nD) : (Vt (W1 m ρ) c main_v0 : S1024x2048.Idx → EReal) = aW m c := (W1_main_v0 m ρ c).trans rfl
theorem in_r (c : Dev nD) : (Vt (W1 m ρ) c main_v1 : S1024x1024.Idx → EReal) = aR m c := (W1_main_v1 m ρ c).trans rfl
theorem in_p (c : Dev nD) : (Vt (W1 m ρ) c main_v2 : S2048x2048.Idx → EReal) = aP m c := (W1_main_v2 m ρ c).trans rfl

/-! ## The first region's five arrays -/

theorem err_final (c : Dev nD) : (Hand0.dat0 (Vt (W1 m ρ)) c).arrAt 6 cfg0.N = refErr (aX m c) (aS m c) (aY m c) (aW m c) (aR m c) := by
  rw [Val0.final0_6 (Vt (W1 m ρ)) c, in_x, in_s, in_y, in_w, in_r]
  exact Cert.Bridge.gErr_eq _ _ _ _ _
theorem r_final (c : Dev nD) : (Hand0.dat0 (Vt (W1 m ρ)) c).arrAt 7 cfg0.N = refR (aX m c) (aS m c) (aW m c) (aR m c) := by
  rw [Val0.final0_7 (Vt (W1 m ρ)) c, in_x, in_s, in_w, in_r]
  exact Cert.Bridge.gR_eq _ _ _ _
theorem snew_final (c : Dev nD) : (Hand0.dat0 (Vt (W1 m ρ)) c).arrAt 8 cfg0.N = refSnew (aX m c) (aS m c) (aW m c) (aR m c) := by
  rw [Val0.final0_8 (Vt (W1 m ρ)) c, in_x, in_s, in_w, in_r]
  exact Cert.Bridge.gSnew_eq _ _ _ _
theorem k_final (c : Dev nD) : (Hand0.dat0 (Vt (W1 m ρ)) c).arrAt 9 cfg0.N = Val0.gK (aX m c) (aP m c) := by
  rw [Val0.final0_9 (Vt (W1 m ρ)) c, in_x, in_p]
theorem kf_final (c : Dev nD) : (Hand0.dat0 (Vt (W1 m ρ)) c).arrAt 10 cfg0.N = Val0.gKf (aX m c) (aP m c) := by
  rw [Val0.final0_10 (Vt (W1 m ρ)) c, in_x, in_p]

/-! ## The two updates -/

theorem win_final (c : Dev nD) : (W5 m ρ c (Proc.devRef .tc main_v6) : S1024x2048.Idx → EReal)
    = refWin (aX m c) (aS m c) (aY m c) (aP m c) (aW m c) (aR m c) := by
  rw [W5_main_v6 m ρ c,
    Val.final1 (Vt (W2 m ρ)) (Hand1.dat1 (Vt (W2 m ρ)) c) (Hand1.acc1 (Vt (W2 m ρ)) c)
      (fun t h => Hand1.after1_2_flush (Vt (W2 m ρ)) c t h) (fun t h => Hand1.acc1_first (Vt (W2 m ρ)) c t h)
      (fun t h => Hand1.acc1_next (Vt (W2 m ρ)) c t h),
    show Vt (W2 m ρ) c main_v3_0 = _ from W2_main_v3_0 m ρ c, show Vt (W2 m ρ) c main_v3_3 = _ from W2_main_v3_3 m ρ c,
    err_final, k_final]
  exact Cert.Bridge.win_eq _ _ _ _ _ _
theorem P_final (c : Dev nD) : (W5 m ρ c (Proc.devRef .tc main_v7) : S2048x2048.Idx → EReal) = refP (aX m c) (aP m c) := by
  rw [W5_main_v7 m ρ c,
    Val.final2 (Vt (W3 m ρ)) (Hand2.dat2 (Vt (W3 m ρ)) c) (Hand2.acc2 (Vt (W3 m ρ)) c)
      (fun t h => Hand2.after2_2_flush (Vt (W3 m ρ)) c t h) (fun t h => Hand2.acc2_first (Vt (W3 m ρ)) c t h)
      (fun t h => Hand2.acc2_next (Vt (W3 m ρ)) c t h),
    show Vt (W3 m ρ) c main_v3_3 = _ from W3_main_v3_3 m ρ c, show Vt (W3 m ρ) c main_v3_4 = _ from W3_main_v3_4 m ρ c,
    k_final, kf_final]
  exact Cert.Bridge.P_eq _ _

/-! ## The run, read -/

/-- Every weakly fair execution of the idealized kernel terminates without a fault, with the five results at the reference's
    functions of the launched arrays and the six arguments unchanged. -/
theorem run_values : θ_run defs (onTc (τ := τ) (main (F := Ideal))) ⟨m, fun _ => 0, ρ⟩ (fun r => ∀ c : Dev nD,
      r.2.mem ((c.tc : Thread nD τ).loc main_v3_0) = refErr (aX m c) (aS m c) (aY m c) (aW m c) (aR m c)
      ∧ r.2.mem ((c.tc : Thread nD τ).loc main_v3_1) = refR (aX m c) (aS m c) (aW m c) (aR m c)
      ∧ r.2.mem ((c.tc : Thread nD τ).loc main_v3_2) = refSnew (aX m c) (aS m c) (aW m c) (aR m c)
      ∧ r.2.mem ((c.tc : Thread nD τ).loc main_v7) = refP (aX m c) (aP m c)
      ∧ r.2.mem ((c.tc : Thread nD τ).loc main_v6) = refWin (aX m c) (aS m c) (aY m c) (aP m c) (aW m c) (aR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    ((h c _ (mem_uc main_v3_0 (by decide))).trans (W5_main_v3_0 m ρ c)).trans (err_final m ρ c),
    ((h c _ (mem_uc main_v3_1 (by decide))).trans (W5_main_v3_1 m ρ c)).trans (r_final m ρ c),
    ((h c _ (mem_uc main_v3_2 (by decide))).trans (W5_main_v3_2 m ρ c)).trans (snew_final m ρ c),
    (h c _ (mem_uc main_v7 (by decide))).trans (P_final m ρ c),
    (h c _ (mem_uc main_v6 (by decide))).trans (win_final m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c)⟩) (run_all m ρ)

end Cert.KernelIdeal.Final

end
-- ==== Proof.lean ====
/-
  The certificate for a recurrent cell's recursive-least-squares step (batch 8192, input width 2048, hidden width 1024)
  computed by three kernels against its array-at-a-time reference.

  The kernel side: the weight matrices are first copied in a narrow float format; a first kernel, over 32 blocks of 256
  batch rows, forms the drive  rx = x·winᵀ + s·wrᵀ,  the error  rx − y,  the unnormalised gain  x·Pᵀ,  the gain
  (that, row by row, over one plus the row's inner product with x), the firing rate of the drive and the relaxed state;
  a second and a third kernel form  errᵀ·gain  and  gainᵀ·(unnormalised gain)  block by block, each output block the sum
  of four partial products over 2048 batch rows kept in a carried accumulator and scaled by 2^-13 when the fourth has
  been added; two subtractions from the input weights and the correlation matrix finish.

  The three frames: the kernel at the word level and idealized (one run of the entry function through all its items, the
  regions' per-point bodies executed symbolically, from which the six arguments are read back unchanged), and the
  reference (its straight-line run). Nothing was rewritten in idealizing, so the idealization claim is empty. On the
  extended reals the two idealized programs agree entry by entry: a format change is the identity, a block-wise sum is
  the whole sum, a product with 2^-13 is a quotient by 8192, and  a − b  is  a + (−b).
-/
import proofs.«180393_j10222022164698_1_alg».proof.Defs
import proofs.«180393_j10222022164698_1_alg».proof.Proof.Gen.Kernel
import proofs.«180393_j10222022164698_1_alg».proof.Proof.Gen.KernelIdeal
import proofs.«180393_j10222022164698_1_alg».proof.Proof.Gen.ReferenceIdeal
import proofs.«180393_j10222022164698_1_alg».proof.Proof.Gen.Pre_finite_inputs
import proofs.«180393_j10222022164698_1_alg».proof.Proof.BitsRun
import proofs.«180393_j10222022164698_1_alg».proof.Proof.IdealFinal
import Idealize.ShloMosaic.Adequacy
import Idealize.ShloMosaic.Init

noncomputable section

namespace Cert.Proof

open Idealize.ShloMosaic Idealize.SL.Sem

/-- The word-level kernel runs to the end and leaves its six arguments as launched. -/
theorem frame_kernel : Cert.frame_Kernel := fun m ρ _ => Cert.Kernel.Run.frame m ρ

/-- So does its idealization. -/
theorem frame_kernelIdeal : Cert.frame_KernelIdeal := fun m ρ _ => Cert.KernelIdeal.Run.frame m ρ

/-- The reference's run, its results dropped. -/
theorem frame_referenceIdeal : Cert.frame_ReferenceIdeal := fun m ρ _ =>
  (θ_run Cert.ReferenceIdeal.defs _ _).mono (fun _ h c => (h c).2.2.2.2.2) (Cert.ReferenceIdeal.RefValue.run_ref m ρ)

/-- Idealizing rewrote no operation. -/
theorem preserves : Cert.preserves_Kernel_KernelIdeal := trivial

/-- From memories that agree on the six arguments both idealized programs end with the same five arrays: each side's
    results are the same functions of the launched arrays. -/
theorem algebraic : Cert.algebraic_KernelIdeal_ReferenceIdeal := by
  intro m ρ m' ρ' _ hagree
  refine ⟨_, _, _, _, _, Cert.KernelIdeal.Final.run_values m ρ, ?_⟩
  refine (θ_run Cert.ReferenceIdeal.defs _ _).mono (fun r h c => ?_) (Cert.ReferenceIdeal.RefValue.run_ref m' ρ')
  obtain ⟨e0, e1, e2, e3, e4, e5⟩ := hagree c
  obtain ⟨h0, h1, h2, h3, h4, hargs⟩ := h c
  rw [e0, e1, e2, e4, e5] at h0
  rw [e0, e1, e4, e5] at h1
  rw [e0, e1, e4, e5] at h2
  rw [e0, e3] at h3
  rw [e0, e1, e2, e3, e4, e5] at h4
  exact ⟨h0, h1, h2, h3, h4, hargs⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
